-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x128x128 : Shape := ⟨4, ![8, 32, 128, 128]⟩
abbrev S32x32 : Shape := ⟨2, ![32, 32]⟩
abbrev S32 : Shape := ⟨1, ![32]⟩
abbrev S_ : Shape := ⟨0, ![]⟩

class Facts : Prop where
  bcast_S_S8x32x128x128 : S_.BroadcastsInDim S8x32x128x128 (![] : Fin 0 → Fin S8x32x128x128.rank)
  reducesTo_S8x32x128x128_S_d0_1_2_3 : S8x32x128x128.ReducesTo [0, 1, 2, 3] S_
  h_S_ : 0 < S_.numel
  bcast_S_S32x32 : S_.BroadcastsInDim S32x32 (![] : Fin 0 → Fin S32x32.rank)
  reducesTo_S32x32_S_d0_1 : S32x32.ReducesTo [0, 1] S_
  bcast_S_S32 : S_.BroadcastsInDim S32 (![] : Fin 0 → Fin S32.rank)
  reducesTo_S32_S_d0 : S32.ReducesTo [0] S_

variable [Facts]

def fn_part3 {F : FTy → Type} [FloatOps F] (main_arg6 : FVec F S32 .f32) (main_arg10 : FVec F S32 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_cst_20 : FVec F S_ .f32 := constant S_ .f32 0x00000000#32
  let main_v54 : FVec F S32 .f32 := broadcastInDim S32 ![] bcast_S_S32 main_cst_20
  let main_v55 : IVec S32 1 := cmpf .oge main_arg6 main_v54
  let main_c_21 : IVec S_ 1 := constantI S_ 1 1#1
  let main_v56 : IVec S_ 1 := (fun x v => Host.reduce IntOp.andi x v reducesTo_S32_S_d0 h_S_) main_v55 main_c_21
  let main_v57 : IVec S_ 1 := andi main_v53 main_v56
  let main_cst_22 : FVec F S_ .f32 := constant S_ .f32 0x00000000#32
  let main_v58 : FVec F S32 .f32 := broadcastInDim S32 ![] bcast_S_S32 main_cst_22
  let main_v59 : IVec S32 1 := cmpf .oge main_arg10 main_v58
  let main_c_23 : IVec S_ 1 := constantI S_ 1 1#1
  let main_v60 : IVec S_ 1 := (fun x v => Host.reduce IntOp.andi x v reducesTo_S32_S_d0 h_S_) main_v59 main_c_23
  let main_v61 : IVec S_ 1 := andi main_v57 main_v60
  main_v61

def fn_part2 {F : FTy → Type} [FloatOps F] (main_arg6 : FVec F S32 .f32) (main_arg7 : FVec F S32 .f32) (main_arg8 : FVec F S32 .f32) (main_arg9 : FVec F S32 .f32) (main_arg10 : FVec F S32 .f32) (main_v33 : IVec S_ 1) : IVec S_ 1 :=
  let main_v34 : FVec F S32 .f32 := Host.absf main_arg7
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg8
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32 .f32 := Host.absf main_arg10
  let main_cst_18 : FVec F S_ .f32 := constant S_ .f32 0x7F800000#32
  let main_v50 : FVec F S32 .f32 := broadcastInDim S32 ![] bcast_S_S32 main_cst_18
  fn_part3 (F := F) main_arg6 main_arg10 main_v48 main_v49 main_v50

def fn_part1 {F : FTy → Type} [FloatOps F] (main_arg4 : FVec F S32 .f32) (main_arg5 : FVec F S32 .f32) (main_arg6 : FVec F S32 .f32) (main_arg7 : FVec F S32 .f32) (main_arg8 : FVec F S32 .f32) (main_arg9 : FVec F S32 .f32) (main_arg10 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg6
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg6 main_arg7 main_arg8 main_arg9 main_arg10 main_v33

def fn {F : FTy → Type} [FloatOps F] (main_arg0 : FVec F S8x32x128x128 .f32) (main_arg1 : FVec F S32x32 .f32) (main_arg2 : FVec F S32x32 .f32) (main_arg3 : FVec F S32 .f32) (main_arg4 : FVec F S32 .f32) (main_arg5 : FVec F S32 .f32) (main_arg6 : FVec F S32 .f32) (main_arg7 : FVec F S32 .f32) (main_arg8 : FVec F S32 .f32) (main_arg9 : FVec F S32 .f32) (main_arg10 : FVec F S32 .f32) : IVec S_ 1 :=
  let main_v0 : FVec F S8x32x128x128 .f32 := Host.absf main_arg0
  let main_cst : FVec F S_ .f32 := constant S_ .f32 0x7F800000#32
  let main_v1 : FVec F S8x32x128x128 .f32 := broadcastInDim S8x32x128x128 ![] bcast_S_S8x32x128x128 main_cst
  let main_v2 : IVec S8x32x128x128 1 := cmpf .olt main_v0 main_v1
  let main_c : IVec S_ 1 := constantI S_ 1 1#1
  let main_v3 : IVec S_ 1 := (fun x v => Host.reduce IntOp.andi x v reducesTo_S8x32x128x128_S_d0_1_2_3 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_arg6 main_arg7 main_arg8 main_arg9 main_arg10 main_v13 main_v16
-- ==== Kernel.lean ====
abbrev S8x32x128x128 : Shape := ⟨4, ![8, 32, 128, 128]⟩
abbrev S32x32 : Shape := ⟨2, ![32, 32]⟩
abbrev S32 : Shape := ⟨1, ![32]⟩
abbrev S_ : Shape := ⟨0, ![]⟩
abbrev S1x32 : Shape := ⟨2, ![1, 32]⟩
abbrev S1x32x128x128 : Shape := ⟨4, ![1, 32, 128, 128]⟩
abbrev S1x128x128 : Shape := ⟨3, ![1, 128, 128]⟩
abbrev S1x1x128x128 : Shape := ⟨4, ![1, 1, 128, 128]⟩
abbrev S1x1 : Shape := ⟨2, ![1, 1]⟩
abbrev S1 : Shape := ⟨1, ![1]⟩

abbrev nBuf : Space → Nat
  | .hbm => 32
  | .vmem => 11
  | .smem => 0
  | _ => 0

abbrev bufTy : (tb : Table) → Fin (tcTables nBuf tb) → BufTy
  | .hbm, ⟨0, _⟩ => ⟨S8x32x128x128, .f32⟩
  | .hbm, ⟨1, _⟩ => ⟨S32x32, .f32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S_, .f32⟩
  | .hbm, ⟨12, _⟩ => ⟨S32, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S1x32, .f32⟩
  | .hbm, ⟨17, _⟩ => ⟨S32, .f32⟩
  | .hbm, ⟨18, _⟩ => ⟨S32, .f32⟩
  | .hbm, ⟨19, _⟩ => ⟨S32, .f32⟩
  | .hbm, ⟨20, _⟩ => ⟨S1x32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S32, .f32⟩
  | .hbm, ⟨25, _⟩ => ⟨S32, .f32⟩
  | .hbm, ⟨26, _⟩ => ⟨S1x32, .f32⟩
  | .hbm, ⟨27, _⟩ => ⟨S32, .f32⟩
  | .hbm, ⟨28, _⟩ => ⟨S32, .f32⟩
  | .hbm, ⟨29, _⟩ => ⟨S32, .f32⟩
  | .hbm, ⟨30, _⟩ => ⟨S1x32, .f32⟩
  | .hbm, ⟨31, _⟩ => ⟨S8x32x128x128, .f32⟩
  | .local _ .vmem, ⟨0, _⟩ => ⟨S1x32x128x128, .f32⟩
  | .local _ .vmem, ⟨1, _⟩ => ⟨S1x32x128x128, .f32⟩
  | .local _ .vmem, ⟨2, _⟩ => ⟨S32x32, .f32⟩
  | .local _ .vmem, ⟨3, _⟩ => ⟨S1x32, .f32⟩
  | .local _ .vmem, ⟨4, _⟩ => ⟨S1x32, .f32⟩
  | .local _ .vmem, ⟨5, _⟩ => ⟨S32x32, .f32⟩
  | .local _ .vmem, ⟨6, _⟩ => ⟨S1x32, .f32⟩
  | .local _ .vmem, ⟨7, _⟩ => ⟨S1x32, .f32⟩
  | .local _ .vmem, ⟨8, _⟩ => ⟨S1x32x128x128, .f32⟩
  | .local _ .vmem, ⟨9, _⟩ => ⟨S1x32x128x128, .f32⟩
  | .local _ .vmem, ⟨10, _⟩ => ⟨S1x32x128x128, .f32⟩
  | _, _ => ⟨S8x32x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x32x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class K0.Facts₀ : Prop where
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x128x128.size a ≤ S8x32x128x128.size a
  hwx0_0 : ∀ i : grid0.Coords, EltTy.bits .f32 = 32 ∨ (Rect.block (s := S8x32x128x128) S1x32x128x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x32.size a ≤ S32x32.size a
  hwx0_1 : ∀ i : grid0.Coords, EltTy.bits .f32 = 32 ∨ (Rect.block (s := S32x32) S32x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x32x128x128.size a ≤ S8x32x128x128.size a
  hwx0_7 : ∀ i : grid0.Coords, EltTy.bits .f32 = 32 ∨ (Rect.block (s := S8x32x128x128) S1x32x128x128.size (cc0_transform_7 i) (hinb0_7 i)).WholeWords (EltTy.packing .f32)

class Shapes1.Facts₀ : Prop where
  bcast_S_S32 : S_.BroadcastsInDim S32 (![] : Fin 0 → Fin S32.rank)
  shapeCasts_S32_S1x32 : S32.ShapeCasts S1x32
  inb_S1x32x128x128_S1x32x128x128_0_0_0_0 : ∀ a, (![0, 0, 0, 0] : Fin 4 → Nat) a + S1x32x128x128.size a ≤ S1x32x128x128.size a
  h_S1x32x128x128 : 0 < S1x32x128x128.numel
  inb_S32x32_S32x32_0_0 : ∀ a, (![0, 0] : Fin 2 → Nat) a + S32x32.size a ≤ S32x32.size a
  h_S32x32 : 0 < S32x32.numel
  inb_S1x32_S1x32_0_0 : ∀ a, (![0, 0] : Fin 2 → Nat) a + S1x32.size a ≤ S1x32.size a
  h_S1x32 : 0 < S1x32.numel
  shapeCasts_S1x32_S32 : S1x32.ShapeCasts S32
  slices_S1x32x128x128_o0_0_0_0_S1x1x128x128 : S1x32x128x128.Slices ![0, 0, 0, 0] S1x1x128x128
  shapeCasts_S1x1x128x128_S1x128x128 : S1x1x128x128.ShapeCasts S1x128x128
  slices_S32x32_o0_0_S1x1 : S32x32.Slices ![0, 0] S1x1
  inpos_S1x1_p0_0 : ∀ a, (![0, 0] : Fin 2 → Nat) a < S1x1.size a
  slices_S1x32x128x128_o0_1_0_0_S1x1x128x128 : S1x32x128x128.Slices ![0, 1, 0, 0] S1x1x128x128
  slices_S32x32_o0_1_S1x1 : S32x32.Slices ![0, 1] S1x1
  slices_S1x32x128x128_o0_2_0_0_S1x1x128x128 : S1x32x128x128.Slices ![0, 2, 0, 0] S1x1x128x128
  slices_S32x32_o0_2_S1x1 : S32x32.Slices ![0, 2] S1x1
  slices_S1x32x128x128_o0_3_0_0_S1x1x128x128 : S1x32x128x128.Slices ![0, 3, 0, 0] S1x1x128x128
  slices_S32x32_o0_3_S1x1 : S32x32.Slices ![0, 3] S1x1
  slices_S1x32x128x128_o0_4_0_0_S1x1x128x128 : S1x32x128x128.Slices ![0, 4, 0, 0] S1x1x128x128
  slices_S32x32_o0_4_S1x1 : S32x32.Slices ![0, 4] S1x1
  slices_S1x32x128x128_o0_5_0_0_S1x1x128x128 : S1x32x128x128.Slices ![0, 5, 0, 0] S1x1x128x128
  slices_S32x32_o0_5_S1x1 : S32x32.Slices ![0, 5] S1x1
  slices_S1x32x128x128_o0_6_0_0_S1x1x128x128 : S1x32x128x128.Slices ![0, 6, 0, 0] S1x1x128x128
  slices_S32x32_o0_6_S1x1 : S32x32.Slices ![0, 6] S1x1
  slices_S1x32x128x128_o0_7_0_0_S1x1x128x128 : S1x32x128x128.Slices ![0, 7, 0, 0] S1x1x128x128
  slices_S32x32_o0_7_S1x1 : S32x32.Slices ![0, 7] S1x1
  slices_S1x32x128x128_o0_8_0_0_S1x1x128x128 : S1x32x128x128.Slices ![0, 8, 0, 0] S1x1x128x128
  slices_S32x32_o0_8_S1x1 : S32x32.Slices ![0, 8] S1x1
  slices_S1x32x128x128_o0_9_0_0_S1x1x128x128 : S1x32x128x128.Slices ![0, 9, 0, 0] S1x1x128x128
  slices_S32x32_o0_9_S1x1 : S32x32.Slices ![0, 9] S1x1
  slices_S1x32x128x128_o0_10_0_0_S1x1x128x128 : S1x32x128x128.Slices ![0, 10, 0, 0] S1x1x128x128
  slices_S32x32_o0_10_S1x1 : S32x32.Slices ![0, 10] S1x1
  slices_S1x32x128x128_o0_11_0_0_S1x1x128x128 : S1x32x128x128.Slices ![0, 11, 0, 0] S1x1x128x128
  slices_S32x32_o0_11_S1x1 : S32x32.Slices ![0, 11] S1x1
  slices_S1x32x128x128_o0_12_0_0_S1x1x128x128 : S1x32x128x128.Slices ![0, 12, 0, 0] S1x1x128x128
  slices_S32x32_o0_12_S1x1 : S32x32.Slices ![0, 12] S1x1
  slices_S1x32x128x128_o0_13_0_0_S1x1x128x128 : S1x32x128x128.Slices ![0, 13, 0, 0] S1x1x128x128
  slices_S32x32_o0_13_S1x1 : S32x32.Slices ![0, 13] S1x1
  slices_S1x32x128x128_o0_14_0_0_S1x1x128x128 : S1x32x128x128.Slices ![0, 14, 0, 0] S1x1x128x128
  slices_S32x32_o0_14_S1x1 : S32x32.Slices ![0, 14] S1x1
  slices_S1x32x128x128_o0_15_0_0_S1x1x128x128 : S1x32x128x128.Slices ![0, 15, 0, 0] S1x1x128x128
  slices_S32x32_o0_15_S1x1 : S32x32.Slices ![0, 15] S1x1
  slices_S1x32x128x128_o0_16_0_0_S1x1x128x128 : S1x32x128x128.Slices ![0, 16, 0, 0] S1x1x128x128
  slices_S32x32_o0_16_S1x1 : S32x32.Slices ![0, 16] S1x1
  slices_S1x32x128x128_o0_17_0_0_S1x1x128x128 : S1x32x128x128.Slices ![0, 17, 0, 0] S1x1x128x128
  slices_S32x32_o0_17_S1x1 : S32x32.Slices ![0, 17] S1x1
  slices_S1x32x128x128_o0_18_0_0_S1x1x128x128 : S1x32x128x128.Slices ![0, 18, 0, 0] S1x1x128x128
  slices_S32x32_o0_18_S1x1 : S32x32.Slices ![0, 18] S1x1
  slices_S1x32x128x128_o0_19_0_0_S1x1x128x128 : S1x32x128x128.Slices ![0, 19, 0, 0] S1x1x128x128
  slices_S32x32_o0_19_S1x1 : S32x32.Slices ![0, 19] S1x1
  slices_S1x32x128x128_o0_20_0_0_S1x1x128x128 : S1x32x128x128.Slices ![0, 20, 0, 0] S1x1x128x128
  slices_S32x32_o0_20_S1x1 : S32x32.Slices ![0, 20] S1x1
  slices_S1x32x128x128_o0_21_0_0_S1x1x128x128 : S1x32x128x128.Slices ![0, 21, 0, 0] S1x1x128x128
  slices_S32x32_o0_21_S1x1 : S32x32.Slices ![0, 21] S1x1
  slices_S1x32x128x128_o0_22_0_0_S1x1x128x128 : S1x32x128x128.Slices ![0, 22, 0, 0] S1x1x128x128
  slices_S32x32_o0_22_S1x1 : S32x32.Slices ![0, 22] S1x1
  slices_S1x32x128x128_o0_23_0_0_S1x1x128x128 : S1x32x128x128.Slices ![0, 23, 0, 0] S1x1x128x128
  slices_S32x32_o0_23_S1x1 : S32x32.Slices ![0, 23] S1x1
  slices_S1x32x128x128_o0_24_0_0_S1x1x128x128 : S1x32x128x128.Slices ![0, 24, 0, 0] S1x1x128x128
  slices_S32x32_o0_24_S1x1 : S32x32.Slices ![0, 24] S1x1
  slices_S1x32x128x128_o0_25_0_0_S1x1x128x128 : S1x32x128x128.Slices ![0, 25, 0, 0] S1x1x128x128
  slices_S32x32_o0_25_S1x1 : S32x32.Slices ![0, 25] S1x1
  slices_S1x32x128x128_o0_26_0_0_S1x1x128x128 : S1x32x128x128.Slices ![0, 26, 0, 0] S1x1x128x128
  slices_S32x32_o0_26_S1x1 : S32x32.Slices ![0, 26] S1x1
  slices_S1x32x128x128_o0_27_0_0_S1x1x128x128 : S1x32x128x128.Slices ![0, 27, 0, 0] S1x1x128x128
  slices_S32x32_o0_27_S1x1 : S32x32.Slices ![0, 27] S1x1
  slices_S1x32x128x128_o0_28_0_0_S1x1x128x128 : S1x32x128x128.Slices ![0, 28, 0, 0] S1x1x128x128
  slices_S32x32_o0_28_S1x1 : S32x32.Slices ![0, 28] S1x1
  slices_S1x32x128x128_o0_29_0_0_S1x1x128x128 : S1x32x128x128.Slices ![0, 29, 0, 0] S1x1x128x128
  slices_S32x32_o0_29_S1x1 : S32x32.Slices ![0, 29] S1x1
  slices_S1x32x128x128_o0_30_0_0_S1x1x128x128 : S1x32x128x128.Slices ![0, 30, 0, 0] S1x1x128x128
  slices_S32x32_o0_30_S1x1 : S32x32.Slices ![0, 30] S1x1
  slices_S1x32x128x128_o0_31_0_0_S1x1x128x128 : S1x32x128x128.Slices ![0, 31, 0, 0] S1x1x128x128
  slices_S32x32_o0_31_S1x1 : S32x32.Slices ![0, 31] S1x1
  slices_S32_o0_S1 : S32.Slices ![0] S1
  inpos_S1_p0 : ∀ a, (![0] : Fin 1 → Nat) a < S1.size a
  inb_S1x32x128x128_S1x1x128x128_0_0_0_0 : ∀ a, (![0, 0, 0, 0] : Fin 4 → Nat) a + S1x1x128x128.size a ≤ S1x32x128x128.size a
  h_S1x1x128x128 : 0 < S1x1x128x128.numel
  shapeCasts_S1x128x128_S1x1x128x128 : S1x128x128.ShapeCasts S1x1x128x128
  slices_S32x32_o1_0_S1x1 : S32x32.Slices ![1, 0] S1x1
  slices_S32x32_o1_1_S1x1 : S32x32.Slices ![1, 1] S1x1
  slices_S32x32_o1_2_S1x1 : S32x32.Slices ![1, 2] S1x1
  slices_S32x32_o1_3_S1x1 : S32x32.Slices ![1, 3] S1x1
  slices_S32x32_o1_4_S1x1 : S32x32.Slices ![1, 4] S1x1
  slices_S32x32_o1_5_S1x1 : S32x32.Slices ![1, 5] S1x1
  slices_S32x32_o1_6_S1x1 : S32x32.Slices ![1, 6] S1x1
  slices_S32x32_o1_7_S1x1 : S32x32.Slices ![1, 7] S1x1
  slices_S32x32_o1_8_S1x1 : S32x32.Slices ![1, 8] S1x1
  slices_S32x32_o1_9_S1x1 : S32x32.Slices ![1, 9] S1x1
  slices_S32x32_o1_10_S1x1 : S32x32.Slices ![1, 10] S1x1
  slices_S32x32_o1_11_S1x1 : S32x32.Slices ![1, 11] S1x1
  slices_S32x32_o1_12_S1x1 : S32x32.Slices ![1, 12] S1x1
  slices_S32x32_o1_13_S1x1 : S32x32.Slices ![1, 13] S1x1
  slices_S32x32_o1_14_S1x1 : S32x32.Slices ![1, 14] S1x1
  slices_S32x32_o1_15_S1x1 : S32x32.Slices ![1, 15] S1x1
  slices_S32x32_o1_16_S1x1 : S32x32.Slices ![1, 16] S1x1
  slices_S32x32_o1_17_S1x1 : S32x32.Slices ![1, 17] S1x1
  slices_S32x32_o1_18_S1x1 : S32x32.Slices ![1, 18] S1x1
  slices_S32x32_o1_19_S1x1 : S32x32.Slices ![1, 19] S1x1
  slices_S32x32_o1_20_S1x1 : S32x32.Slices ![1, 20] S1x1
  slices_S32x32_o1_21_S1x1 : S32x32.Slices ![1, 21] S1x1
  slices_S32x32_o1_22_S1x1 : S32x32.Slices ![1, 22] S1x1
  slices_S32x32_o1_23_S1x1 : S32x32.Slices ![1, 23] S1x1
  slices_S32x32_o1_24_S1x1 : S32x32.Slices ![1, 24] S1x1
  slices_S32x32_o1_25_S1x1 : S32x32.Slices ![1, 25] S1x1
  slices_S32x32_o1_26_S1x1 : S32x32.Slices ![1, 26] S1x1
  slices_S32x32_o1_27_S1x1 : S32x32.Slices ![1, 27] S1x1
  slices_S32x32_o1_28_S1x1 : S32x32.Slices ![1, 28] S1x1
  slices_S32x32_o1_29_S1x1 : S32x32.Slices ![1, 29] S1x1
  slices_S32x32_o1_30_S1x1 : S32x32.Slices ![1, 30] S1x1
  slices_S32x32_o1_31_S1x1 : S32x32.Slices ![1, 31] S1x1
  slices_S32_o1_S1 : S32.Slices ![1] S1
  inb_S1x32x128x128_S1x1x128x128_0_1_0_0 : ∀ a, (![0, 1, 0, 0] : Fin 4 → Nat) a + S1x1x128x128.size a ≤ S1x32x128x128.size a
  slices_S32x32_o2_0_S1x1 : S32x32.Slices ![2, 0] S1x1
  slices_S32x32_o2_1_S1x1 : S32x32.Slices ![2, 1] S1x1
  slices_S32x32_o2_2_S1x1 : S32x32.Slices ![2, 2] S1x1
  slices_S32x32_o2_3_S1x1 : S32x32.Slices ![2, 3] S1x1
  slices_S32x32_o2_4_S1x1 : S32x32.Slices ![2, 4] S1x1
  slices_S32x32_o2_5_S1x1 : S32x32.Slices ![2, 5] S1x1
  slices_S32x32_o2_6_S1x1 : S32x32.Slices ![2, 6] S1x1
  slices_S32x32_o2_7_S1x1 : S32x32.Slices ![2, 7] S1x1
  slices_S32x32_o2_8_S1x1 : S32x32.Slices ![2, 8] S1x1
  slices_S32x32_o2_9_S1x1 : S32x32.Slices ![2, 9] S1x1
  slices_S32x32_o2_10_S1x1 : S32x32.Slices ![2, 10] S1x1
  slices_S32x32_o2_11_S1x1 : S32x32.Slices ![2, 11] S1x1
  slices_S32x32_o2_12_S1x1 : S32x32.Slices ![2, 12] S1x1
  slices_S32x32_o2_13_S1x1 : S32x32.Slices ![2, 13] S1x1
  slices_S32x32_o2_14_S1x1 : S32x32.Slices ![2, 14] S1x1
  slices_S32x32_o2_15_S1x1 : S32x32.Slices ![2, 15] S1x1
  slices_S32x32_o2_16_S1x1 : S32x32.Slices ![2, 16] S1x1
  slices_S32x32_o2_17_S1x1 : S32x32.Slices ![2, 17] S1x1
  slices_S32x32_o2_18_S1x1 : S32x32.Slices ![2, 18] S1x1
  slices_S32x32_o2_19_S1x1 : S32x32.Slices ![2, 19] S1x1
  slices_S32x32_o2_20_S1x1 : S32x32.Slices ![2, 20] S1x1
  slices_S32x32_o2_21_S1x1 : S32x32.Slices ![2, 21] S1x1
  slices_S32x32_o2_22_S1x1 : S32x32.Slices ![2, 22] S1x1
  slices_S32x32_o2_23_S1x1 : S32x32.Slices ![2, 23] S1x1
  slices_S32x32_o2_24_S1x1 : S32x32.Slices ![2, 24] S1x1
  slices_S32x32_o2_25_S1x1 : S32x32.Slices ![2, 25] S1x1
  slices_S32x32_o2_26_S1x1 : S32x32.Slices ![2, 26] S1x1
  slices_S32x32_o2_27_S1x1 : S32x32.Slices ![2, 27] S1x1
  slices_S32x32_o2_28_S1x1 : S32x32.Slices ![2, 28] S1x1
  slices_S32x32_o2_29_S1x1 : S32x32.Slices ![2, 29] S1x1
  slices_S32x32_o2_30_S1x1 : S32x32.Slices ![2, 30] S1x1
  slices_S32x32_o2_31_S1x1 : S32x32.Slices ![2, 31] S1x1
  slices_S32_o2_S1 : S32.Slices ![2] S1
  inb_S1x32x128x128_S1x1x128x128_0_2_0_0 : ∀ a, (![0, 2, 0, 0] : Fin 4 → Nat) a + S1x1x128x128.size a ≤ S1x32x128x128.size a
  slices_S32x32_o3_0_S1x1 : S32x32.Slices ![3, 0] S1x1
  slices_S32x32_o3_1_S1x1 : S32x32.Slices ![3, 1] S1x1
  slices_S32x32_o3_2_S1x1 : S32x32.Slices ![3, 2] S1x1
  slices_S32x32_o3_3_S1x1 : S32x32.Slices ![3, 3] S1x1
  slices_S32x32_o3_4_S1x1 : S32x32.Slices ![3, 4] S1x1
  slices_S32x32_o3_5_S1x1 : S32x32.Slices ![3, 5] S1x1
  slices_S32x32_o3_6_S1x1 : S32x32.Slices ![3, 6] S1x1
  slices_S32x32_o3_7_S1x1 : S32x32.Slices ![3, 7] S1x1
  slices_S32x32_o3_8_S1x1 : S32x32.Slices ![3, 8] S1x1
  slices_S32x32_o3_9_S1x1 : S32x32.Slices ![3, 9] S1x1
  slices_S32x32_o3_10_S1x1 : S32x32.Slices ![3, 10] S1x1
  slices_S32x32_o3_11_S1x1 : S32x32.Slices ![3, 11] S1x1
  slices_S32x32_o3_12_S1x1 : S32x32.Slices ![3, 12] S1x1
  slices_S32x32_o3_13_S1x1 : S32x32.Slices ![3, 13] S1x1
  slices_S32x32_o3_14_S1x1 : S32x32.Slices ![3, 14] S1x1
  slices_S32x32_o3_15_S1x1 : S32x32.Slices ![3, 15] S1x1
  slices_S32x32_o3_16_S1x1 : S32x32.Slices ![3, 16] S1x1
  slices_S32x32_o3_17_S1x1 : S32x32.Slices ![3, 17] S1x1
  slices_S32x32_o3_18_S1x1 : S32x32.Slices ![3, 18] S1x1
  slices_S32x32_o3_19_S1x1 : S32x32.Slices ![3, 19] S1x1
  slices_S32x32_o3_20_S1x1 : S32x32.Slices ![3, 20] S1x1
  slices_S32x32_o3_21_S1x1 : S32x32.Slices ![3, 21] S1x1
  slices_S32x32_o3_22_S1x1 : S32x32.Slices ![3, 22] S1x1
  slices_S32x32_o3_23_S1x1 : S32x32.Slices ![3, 23] S1x1
  slices_S32x32_o3_24_S1x1 : S32x32.Slices ![3, 24] S1x1
  slices_S32x32_o3_25_S1x1 : S32x32.Slices ![3, 25] S1x1
  slices_S32x32_o3_26_S1x1 : S32x32.Slices ![3, 26] S1x1
  slices_S32x32_o3_27_S1x1 : S32x32.Slices ![3, 27] S1x1
  slices_S32x32_o3_28_S1x1 : S32x32.Slices ![3, 28] S1x1
  slices_S32x32_o3_29_S1x1 : S32x32.Slices ![3, 29] S1x1
  slices_S32x32_o3_30_S1x1 : S32x32.Slices ![3, 30] S1x1
  slices_S32x32_o3_31_S1x1 : S32x32.Slices ![3, 31] S1x1
  slices_S32_o3_S1 : S32.Slices ![3] S1
  inb_S1x32x128x128_S1x1x128x128_0_3_0_0 : ∀ a, (![0, 3, 0, 0] : Fin 4 → Nat) a + S1x1x128x128.size a ≤ S1x32x128x128.size a
  slices_S32x32_o4_0_S1x1 : S32x32.Slices ![4, 0] S1x1
  slices_S32x32_o4_1_S1x1 : S32x32.Slices ![4, 1] S1x1
  slices_S32x32_o4_2_S1x1 : S32x32.Slices ![4, 2] S1x1
  slices_S32x32_o4_3_S1x1 : S32x32.Slices ![4, 3] S1x1
  slices_S32x32_o4_4_S1x1 : S32x32.Slices ![4, 4] S1x1
  slices_S32x32_o4_5_S1x1 : S32x32.Slices ![4, 5] S1x1
  slices_S32x32_o4_6_S1x1 : S32x32.Slices ![4, 6] S1x1
  slices_S32x32_o4_7_S1x1 : S32x32.Slices ![4, 7] S1x1
  slices_S32x32_o4_8_S1x1 : S32x32.Slices ![4, 8] S1x1
  slices_S32x32_o4_9_S1x1 : S32x32.Slices ![4, 9] S1x1
  slices_S32x32_o4_10_S1x1 : S32x32.Slices ![4, 10] S1x1
  slices_S32x32_o4_11_S1x1 : S32x32.Slices ![4, 11] S1x1
  slices_S32x32_o4_12_S1x1 : S32x32.Slices ![4, 12] S1x1
  slices_S32x32_o4_13_S1x1 : S32x32.Slices ![4, 13] S1x1
  slices_S32x32_o4_14_S1x1 : S32x32.Slices ![4, 14] S1x1
  slices_S32x32_o4_15_S1x1 : S32x32.Slices ![4, 15] S1x1
  slices_S32x32_o4_16_S1x1 : S32x32.Slices ![4, 16] S1x1
  slices_S32x32_o4_17_S1x1 : S32x32.Slices ![4, 17] S1x1
  slices_S32x32_o4_18_S1x1 : S32x32.Slices ![4, 18] S1x1
  slices_S32x32_o4_19_S1x1 : S32x32.Slices ![4, 19] S1x1
  slices_S32x32_o4_20_S1x1 : S32x32.Slices ![4, 20] S1x1
  slices_S32x32_o4_21_S1x1 : S32x32.Slices ![4, 21] S1x1
  slices_S32x32_o4_22_S1x1 : S32x32.Slices ![4, 22] S1x1
  slices_S32x32_o4_23_S1x1 : S32x32.Slices ![4, 23] S1x1
  slices_S32x32_o4_24_S1x1 : S32x32.Slices ![4, 24] S1x1
  slices_S32x32_o4_25_S1x1 : S32x32.Slices ![4, 25] S1x1
  slices_S32x32_o4_26_S1x1 : S32x32.Slices ![4, 26] S1x1
  slices_S32x32_o4_27_S1x1 : S32x32.Slices ![4, 27] S1x1
  slices_S32x32_o4_28_S1x1 : S32x32.Slices ![4, 28] S1x1
  slices_S32x32_o4_29_S1x1 : S32x32.Slices ![4, 29] S1x1
  slices_S32x32_o4_30_S1x1 : S32x32.Slices ![4, 30] S1x1
  slices_S32x32_o4_31_S1x1 : S32x32.Slices ![4, 31] S1x1
  slices_S32_o4_S1 : S32.Slices ![4] S1
  inb_S1x32x128x128_S1x1x128x128_0_4_0_0 : ∀ a, (![0, 4, 0, 0] : Fin 4 → Nat) a + S1x1x128x128.size a ≤ S1x32x128x128.size a
  slices_S32x32_o5_0_S1x1 : S32x32.Slices ![5, 0] S1x1
  slices_S32x32_o5_1_S1x1 : S32x32.Slices ![5, 1] S1x1
  slices_S32x32_o5_2_S1x1 : S32x32.Slices ![5, 2] S1x1
  slices_S32x32_o5_3_S1x1 : S32x32.Slices ![5, 3] S1x1
  slices_S32x32_o5_4_S1x1 : S32x32.Slices ![5, 4] S1x1
  slices_S32x32_o5_5_S1x1 : S32x32.Slices ![5, 5] S1x1
  slices_S32x32_o5_6_S1x1 : S32x32.Slices ![5, 6] S1x1
  slices_S32x32_o5_7_S1x1 : S32x32.Slices ![5, 7] S1x1
  slices_S32x32_o5_8_S1x1 : S32x32.Slices ![5, 8] S1x1
  slices_S32x32_o5_9_S1x1 : S32x32.Slices ![5, 9] S1x1
  slices_S32x32_o5_10_S1x1 : S32x32.Slices ![5, 10] S1x1
  slices_S32x32_o5_11_S1x1 : S32x32.Slices ![5, 11] S1x1
  slices_S32x32_o5_12_S1x1 : S32x32.Slices ![5, 12] S1x1
  slices_S32x32_o5_13_S1x1 : S32x32.Slices ![5, 13] S1x1
  slices_S32x32_o5_14_S1x1 : S32x32.Slices ![5, 14] S1x1
  slices_S32x32_o5_15_S1x1 : S32x32.Slices ![5, 15] S1x1
  slices_S32x32_o5_16_S1x1 : S32x32.Slices ![5, 16] S1x1
  slices_S32x32_o5_17_S1x1 : S32x32.Slices ![5, 17] S1x1
  slices_S32x32_o5_18_S1x1 : S32x32.Slices ![5, 18] S1x1
  slices_S32x32_o5_19_S1x1 : S32x32.Slices ![5, 19] S1x1
  slices_S32x32_o5_20_S1x1 : S32x32.Slices ![5, 20] S1x1
  slices_S32x32_o5_21_S1x1 : S32x32.Slices ![5, 21] S1x1
  slices_S32x32_o5_22_S1x1 : S32x32.Slices ![5, 22] S1x1
  slices_S32x32_o5_23_S1x1 : S32x32.Slices ![5, 23] S1x1
  slices_S32x32_o5_24_S1x1 : S32x32.Slices ![5, 24] S1x1
  slices_S32x32_o5_25_S1x1 : S32x32.Slices ![5, 25] S1x1
  slices_S32x32_o5_26_S1x1 : S32x32.Slices ![5, 26] S1x1
  slices_S32x32_o5_27_S1x1 : S32x32.Slices ![5, 27] S1x1
  slices_S32x32_o5_28_S1x1 : S32x32.Slices ![5, 28] S1x1
  slices_S32x32_o5_29_S1x1 : S32x32.Slices ![5, 29] S1x1
  slices_S32x32_o5_30_S1x1 : S32x32.Slices ![5, 30] S1x1
  slices_S32x32_o5_31_S1x1 : S32x32.Slices ![5, 31] S1x1
  slices_S32_o5_S1 : S32.Slices ![5] S1
  inb_S1x32x128x128_S1x1x128x128_0_5_0_0 : ∀ a, (![0, 5, 0, 0] : Fin 4 → Nat) a + S1x1x128x128.size a ≤ S1x32x128x128.size a
  slices_S32x32_o6_0_S1x1 : S32x32.Slices ![6, 0] S1x1
  slices_S32x32_o6_1_S1x1 : S32x32.Slices ![6, 1] S1x1
  slices_S32x32_o6_2_S1x1 : S32x32.Slices ![6, 2] S1x1
  slices_S32x32_o6_3_S1x1 : S32x32.Slices ![6, 3] S1x1
  slices_S32x32_o6_4_S1x1 : S32x32.Slices ![6, 4] S1x1
  slices_S32x32_o6_5_S1x1 : S32x32.Slices ![6, 5] S1x1
  slices_S32x32_o6_6_S1x1 : S32x32.Slices ![6, 6] S1x1
  slices_S32x32_o6_7_S1x1 : S32x32.Slices ![6, 7] S1x1
  slices_S32x32_o6_8_S1x1 : S32x32.Slices ![6, 8] S1x1
  slices_S32x32_o6_9_S1x1 : S32x32.Slices ![6, 9] S1x1
  slices_S32x32_o6_10_S1x1 : S32x32.Slices ![6, 10] S1x1
  slices_S32x32_o6_11_S1x1 : S32x32.Slices ![6, 11] S1x1
  slices_S32x32_o6_12_S1x1 : S32x32.Slices ![6, 12] S1x1
  slices_S32x32_o6_13_S1x1 : S32x32.Slices ![6, 13] S1x1
  slices_S32x32_o6_14_S1x1 : S32x32.Slices ![6, 14] S1x1
  slices_S32x32_o6_15_S1x1 : S32x32.Slices ![6, 15] S1x1
  slices_S32x32_o6_16_S1x1 : S32x32.Slices ![6, 16] S1x1
  slices_S32x32_o6_17_S1x1 : S32x32.Slices ![6, 17] S1x1
  slices_S32x32_o6_18_S1x1 : S32x32.Slices ![6, 18] S1x1
  slices_S32x32_o6_19_S1x1 : S32x32.Slices ![6, 19] S1x1
  slices_S32x32_o6_20_S1x1 : S32x32.Slices ![6, 20] S1x1
  slices_S32x32_o6_21_S1x1 : S32x32.Slices ![6, 21] S1x1
  slices_S32x32_o6_22_S1x1 : S32x32.Slices ![6, 22] S1x1
  slices_S32x32_o6_23_S1x1 : S32x32.Slices ![6, 23] S1x1
  slices_S32x32_o6_24_S1x1 : S32x32.Slices ![6, 24] S1x1
  slices_S32x32_o6_25_S1x1 : S32x32.Slices ![6, 25] S1x1
  slices_S32x32_o6_26_S1x1 : S32x32.Slices ![6, 26] S1x1
  slices_S32x32_o6_27_S1x1 : S32x32.Slices ![6, 27] S1x1
  slices_S32x32_o6_28_S1x1 : S32x32.Slices ![6, 28] S1x1
  slices_S32x32_o6_29_S1x1 : S32x32.Slices ![6, 29] S1x1
  slices_S32x32_o6_30_S1x1 : S32x32.Slices ![6, 30] S1x1
  slices_S32x32_o6_31_S1x1 : S32x32.Slices ![6, 31] S1x1
  slices_S32_o6_S1 : S32.Slices ![6] S1
  inb_S1x32x128x128_S1x1x128x128_0_6_0_0 : ∀ a, (![0, 6, 0, 0] : Fin 4 → Nat) a + S1x1x128x128.size a ≤ S1x32x128x128.size a
  slices_S32x32_o7_0_S1x1 : S32x32.Slices ![7, 0] S1x1
  slices_S32x32_o7_1_S1x1 : S32x32.Slices ![7, 1] S1x1
  slices_S32x32_o7_2_S1x1 : S32x32.Slices ![7, 2] S1x1
  slices_S32x32_o7_3_S1x1 : S32x32.Slices ![7, 3] S1x1
  slices_S32x32_o7_4_S1x1 : S32x32.Slices ![7, 4] S1x1
  slices_S32x32_o7_5_S1x1 : S32x32.Slices ![7, 5] S1x1
  slices_S32x32_o7_6_S1x1 : S32x32.Slices ![7, 6] S1x1
  slices_S32x32_o7_7_S1x1 : S32x32.Slices ![7, 7] S1x1
  slices_S32x32_o7_8_S1x1 : S32x32.Slices ![7, 8] S1x1
  slices_S32x32_o7_9_S1x1 : S32x32.Slices ![7, 9] S1x1
  slices_S32x32_o7_10_S1x1 : S32x32.Slices ![7, 10] S1x1
  slices_S32x32_o7_11_S1x1 : S32x32.Slices ![7, 11] S1x1
  slices_S32x32_o7_12_S1x1 : S32x32.Slices ![7, 12] S1x1
  slices_S32x32_o7_13_S1x1 : S32x32.Slices ![7, 13] S1x1
  slices_S32x32_o7_14_S1x1 : S32x32.Slices ![7, 14] S1x1
  slices_S32x32_o7_15_S1x1 : S32x32.Slices ![7, 15] S1x1
  slices_S32x32_o7_16_S1x1 : S32x32.Slices ![7, 16] S1x1
  slices_S32x32_o7_17_S1x1 : S32x32.Slices ![7, 17] S1x1
  slices_S32x32_o7_18_S1x1 : S32x32.Slices ![7, 18] S1x1
  slices_S32x32_o7_19_S1x1 : S32x32.Slices ![7, 19] S1x1
  slices_S32x32_o7_20_S1x1 : S32x32.Slices ![7, 20] S1x1
  slices_S32x32_o7_21_S1x1 : S32x32.Slices ![7, 21] S1x1
  slices_S32x32_o7_22_S1x1 : S32x32.Slices ![7, 22] S1x1
  slices_S32x32_o7_23_S1x1 : S32x32.Slices ![7, 23] S1x1
  slices_S32x32_o7_24_S1x1 : S32x32.Slices ![7, 24] S1x1
  slices_S32x32_o7_25_S1x1 : S32x32.Slices ![7, 25] S1x1
  slices_S32x32_o7_26_S1x1 : S32x32.Slices ![7, 26] S1x1
  slices_S32x32_o7_27_S1x1 : S32x32.Slices ![7, 27] S1x1
  slices_S32x32_o7_28_S1x1 : S32x32.Slices ![7, 28] S1x1
  slices_S32x32_o7_29_S1x1 : S32x32.Slices ![7, 29] S1x1
  slices_S32x32_o7_30_S1x1 : S32x32.Slices ![7, 30] S1x1
  slices_S32x32_o7_31_S1x1 : S32x32.Slices ![7, 31] S1x1
  slices_S32_o7_S1 : S32.Slices ![7] S1
  inb_S1x32x128x128_S1x1x128x128_0_7_0_0 : ∀ a, (![0, 7, 0, 0] : Fin 4 → Nat) a + S1x1x128x128.size a ≤ S1x32x128x128.size a
  slices_S32x32_o8_0_S1x1 : S32x32.Slices ![8, 0] S1x1
  slices_S32x32_o8_1_S1x1 : S32x32.Slices ![8, 1] S1x1
  slices_S32x32_o8_2_S1x1 : S32x32.Slices ![8, 2] S1x1
  slices_S32x32_o8_3_S1x1 : S32x32.Slices ![8, 3] S1x1
  slices_S32x32_o8_4_S1x1 : S32x32.Slices ![8, 4] S1x1
  slices_S32x32_o8_5_S1x1 : S32x32.Slices ![8, 5] S1x1
  slices_S32x32_o8_6_S1x1 : S32x32.Slices ![8, 6] S1x1
  slices_S32x32_o8_7_S1x1 : S32x32.Slices ![8, 7] S1x1
  slices_S32x32_o8_8_S1x1 : S32x32.Slices ![8, 8] S1x1
  slices_S32x32_o8_9_S1x1 : S32x32.Slices ![8, 9] S1x1
  slices_S32x32_o8_10_S1x1 : S32x32.Slices ![8, 10] S1x1
  slices_S32x32_o8_11_S1x1 : S32x32.Slices ![8, 11] S1x1
  slices_S32x32_o8_12_S1x1 : S32x32.Slices ![8, 12] S1x1
  slices_S32x32_o8_13_S1x1 : S32x32.Slices ![8, 13] S1x1
  slices_S32x32_o8_14_S1x1 : S32x32.Slices ![8, 14] S1x1
  slices_S32x32_o8_15_S1x1 : S32x32.Slices ![8, 15] S1x1
  slices_S32x32_o8_16_S1x1 : S32x32.Slices ![8, 16] S1x1
  slices_S32x32_o8_17_S1x1 : S32x32.Slices ![8, 17] S1x1
  slices_S32x32_o8_18_S1x1 : S32x32.Slices ![8, 18] S1x1
  slices_S32x32_o8_19_S1x1 : S32x32.Slices ![8, 19] S1x1
  slices_S32x32_o8_20_S1x1 : S32x32.Slices ![8, 20] S1x1
  slices_S32x32_o8_21_S1x1 : S32x32.Slices ![8, 21] S1x1
  slices_S32x32_o8_22_S1x1 : S32x32.Slices ![8, 22] S1x1
  slices_S32x32_o8_23_S1x1 : S32x32.Slices ![8, 23] S1x1
  slices_S32x32_o8_24_S1x1 : S32x32.Slices ![8, 24] S1x1
  slices_S32x32_o8_25_S1x1 : S32x32.Slices ![8, 25] S1x1
  slices_S32x32_o8_26_S1x1 : S32x32.Slices ![8, 26] S1x1
  slices_S32x32_o8_27_S1x1 : S32x32.Slices ![8, 27] S1x1
  slices_S32x32_o8_28_S1x1 : S32x32.Slices ![8, 28] S1x1
  slices_S32x32_o8_29_S1x1 : S32x32.Slices ![8, 29] S1x1
  slices_S32x32_o8_30_S1x1 : S32x32.Slices ![8, 30] S1x1
  slices_S32x32_o8_31_S1x1 : S32x32.Slices ![8, 31] S1x1
  slices_S32_o8_S1 : S32.Slices ![8] S1
  inb_S1x32x128x128_S1x1x128x128_0_8_0_0 : ∀ a, (![0, 8, 0, 0] : Fin 4 → Nat) a + S1x1x128x128.size a ≤ S1x32x128x128.size a
  slices_S32x32_o9_0_S1x1 : S32x32.Slices ![9, 0] S1x1
  slices_S32x32_o9_1_S1x1 : S32x32.Slices ![9, 1] S1x1
  slices_S32x32_o9_2_S1x1 : S32x32.Slices ![9, 2] S1x1
  slices_S32x32_o9_3_S1x1 : S32x32.Slices ![9, 3] S1x1
  slices_S32x32_o9_4_S1x1 : S32x32.Slices ![9, 4] S1x1
  slices_S32x32_o9_5_S1x1 : S32x32.Slices ![9, 5] S1x1
  slices_S32x32_o9_6_S1x1 : S32x32.Slices ![9, 6] S1x1
  slices_S32x32_o9_7_S1x1 : S32x32.Slices ![9, 7] S1x1
  slices_S32x32_o9_8_S1x1 : S32x32.Slices ![9, 8] S1x1
  slices_S32x32_o9_9_S1x1 : S32x32.Slices ![9, 9] S1x1
  slices_S32x32_o9_10_S1x1 : S32x32.Slices ![9, 10] S1x1
  slices_S32x32_o9_11_S1x1 : S32x32.Slices ![9, 11] S1x1
  slices_S32x32_o9_12_S1x1 : S32x32.Slices ![9, 12] S1x1
  slices_S32x32_o9_13_S1x1 : S32x32.Slices ![9, 13] S1x1
  slices_S32x32_o9_14_S1x1 : S32x32.Slices ![9, 14] S1x1
  slices_S32x32_o9_15_S1x1 : S32x32.Slices ![9, 15] S1x1
  slices_S32x32_o9_16_S1x1 : S32x32.Slices ![9, 16] S1x1
  slices_S32x32_o9_17_S1x1 : S32x32.Slices ![9, 17] S1x1
  slices_S32x32_o9_18_S1x1 : S32x32.Slices ![9, 18] S1x1
  slices_S32x32_o9_19_S1x1 : S32x32.Slices ![9, 19] S1x1
  slices_S32x32_o9_20_S1x1 : S32x32.Slices ![9, 20] S1x1
  slices_S32x32_o9_21_S1x1 : S32x32.Slices ![9, 21] S1x1
  slices_S32x32_o9_22_S1x1 : S32x32.Slices ![9, 22] S1x1
  slices_S32x32_o9_23_S1x1 : S32x32.Slices ![9, 23] S1x1
  slices_S32x32_o9_24_S1x1 : S32x32.Slices ![9, 24] S1x1
  slices_S32x32_o9_25_S1x1 : S32x32.Slices ![9, 25] S1x1
  slices_S32x32_o9_26_S1x1 : S32x32.Slices ![9, 26] S1x1
  slices_S32x32_o9_27_S1x1 : S32x32.Slices ![9, 27] S1x1
  slices_S32x32_o9_28_S1x1 : S32x32.Slices ![9, 28] S1x1
  slices_S32x32_o9_29_S1x1 : S32x32.Slices ![9, 29] S1x1
  slices_S32x32_o9_30_S1x1 : S32x32.Slices ![9, 30] S1x1
  slices_S32x32_o9_31_S1x1 : S32x32.Slices ![9, 31] S1x1
  slices_S32_o9_S1 : S32.Slices ![9] S1
  inb_S1x32x128x128_S1x1x128x128_0_9_0_0 : ∀ a, (![0, 9, 0, 0] : Fin 4 → Nat) a + S1x1x128x128.size a ≤ S1x32x128x128.size a
  slices_S32x32_o10_0_S1x1 : S32x32.Slices ![10, 0] S1x1
  slices_S32x32_o10_1_S1x1 : S32x32.Slices ![10, 1] S1x1
  slices_S32x32_o10_2_S1x1 : S32x32.Slices ![10, 2] S1x1
  slices_S32x32_o10_3_S1x1 : S32x32.Slices ![10, 3] S1x1
  slices_S32x32_o10_4_S1x1 : S32x32.Slices ![10, 4] S1x1
  slices_S32x32_o10_5_S1x1 : S32x32.Slices ![10, 5] S1x1
  slices_S32x32_o10_6_S1x1 : S32x32.Slices ![10, 6] S1x1
  slices_S32x32_o10_7_S1x1 : S32x32.Slices ![10, 7] S1x1
  slices_S32x32_o10_8_S1x1 : S32x32.Slices ![10, 8] S1x1
  slices_S32x32_o10_9_S1x1 : S32x32.Slices ![10, 9] S1x1
  slices_S32x32_o10_10_S1x1 : S32x32.Slices ![10, 10] S1x1
  slices_S32x32_o10_11_S1x1 : S32x32.Slices ![10, 11] S1x1
  slices_S32x32_o10_12_S1x1 : S32x32.Slices ![10, 12] S1x1
  slices_S32x32_o10_13_S1x1 : S32x32.Slices ![10, 13] S1x1
  slices_S32x32_o10_14_S1x1 : S32x32.Slices ![10, 14] S1x1
  slices_S32x32_o10_15_S1x1 : S32x32.Slices ![10, 15] S1x1
  slices_S32x32_o10_16_S1x1 : S32x32.Slices ![10, 16] S1x1
  slices_S32x32_o10_17_S1x1 : S32x32.Slices ![10, 17] S1x1
  slices_S32x32_o10_18_S1x1 : S32x32.Slices ![10, 18] S1x1
  slices_S32x32_o10_19_S1x1 : S32x32.Slices ![10, 19] S1x1
  slices_S32x32_o10_20_S1x1 : S32x32.Slices ![10, 20] S1x1
  slices_S32x32_o10_21_S1x1 : S32x32.Slices ![10, 21] S1x1
  slices_S32x32_o10_22_S1x1 : S32x32.Slices ![10, 22] S1x1
  slices_S32x32_o10_23_S1x1 : S32x32.Slices ![10, 23] S1x1
  slices_S32x32_o10_24_S1x1 : S32x32.Slices ![10, 24] S1x1
  slices_S32x32_o10_25_S1x1 : S32x32.Slices ![10, 25] S1x1
  slices_S32x32_o10_26_S1x1 : S32x32.Slices ![10, 26] S1x1
  slices_S32x32_o10_27_S1x1 : S32x32.Slices ![10, 27] S1x1
  slices_S32x32_o10_28_S1x1 : S32x32.Slices ![10, 28] S1x1
  slices_S32x32_o10_29_S1x1 : S32x32.Slices ![10, 29] S1x1
  slices_S32x32_o10_30_S1x1 : S32x32.Slices ![10, 30] S1x1
  slices_S32x32_o10_31_S1x1 : S32x32.Slices ![10, 31] S1x1
  slices_S32_o10_S1 : S32.Slices ![10] S1
  inb_S1x32x128x128_S1x1x128x128_0_10_0_0 : ∀ a, (![0, 10, 0, 0] : Fin 4 → Nat) a + S1x1x128x128.size a ≤ S1x32x128x128.size a
  slices_S32x32_o11_0_S1x1 : S32x32.Slices ![11, 0] S1x1
  slices_S32x32_o11_1_S1x1 : S32x32.Slices ![11, 1] S1x1
  slices_S32x32_o11_2_S1x1 : S32x32.Slices ![11, 2] S1x1
  slices_S32x32_o11_3_S1x1 : S32x32.Slices ![11, 3] S1x1
  slices_S32x32_o11_4_S1x1 : S32x32.Slices ![11, 4] S1x1
  slices_S32x32_o11_5_S1x1 : S32x32.Slices ![11, 5] S1x1
  slices_S32x32_o11_6_S1x1 : S32x32.Slices ![11, 6] S1x1
  slices_S32x32_o11_7_S1x1 : S32x32.Slices ![11, 7] S1x1
  slices_S32x32_o11_8_S1x1 : S32x32.Slices ![11, 8] S1x1
  slices_S32x32_o11_9_S1x1 : S32x32.Slices ![11, 9] S1x1
  slices_S32x32_o11_10_S1x1 : S32x32.Slices ![11, 10] S1x1
  slices_S32x32_o11_11_S1x1 : S32x32.Slices ![11, 11] S1x1
  slices_S32x32_o11_12_S1x1 : S32x32.Slices ![11, 12] S1x1
  slices_S32x32_o11_13_S1x1 : S32x32.Slices ![11, 13] S1x1
  slices_S32x32_o11_14_S1x1 : S32x32.Slices ![11, 14] S1x1
  slices_S32x32_o11_15_S1x1 : S32x32.Slices ![11, 15] S1x1
  slices_S32x32_o11_16_S1x1 : S32x32.Slices ![11, 16] S1x1
  slices_S32x32_o11_17_S1x1 : S32x32.Slices ![11, 17] S1x1
  slices_S32x32_o11_18_S1x1 : S32x32.Slices ![11, 18] S1x1
  slices_S32x32_o11_19_S1x1 : S32x32.Slices ![11, 19] S1x1
  slices_S32x32_o11_20_S1x1 : S32x32.Slices ![11, 20] S1x1
  slices_S32x32_o11_21_S1x1 : S32x32.Slices ![11, 21] S1x1
  slices_S32x32_o11_22_S1x1 : S32x32.Slices ![11, 22] S1x1
  slices_S32x32_o11_23_S1x1 : S32x32.Slices ![11, 23] S1x1
  slices_S32x32_o11_24_S1x1 : S32x32.Slices ![11, 24] S1x1
  slices_S32x32_o11_25_S1x1 : S32x32.Slices ![11, 25] S1x1
  slices_S32x32_o11_26_S1x1 : S32x32.Slices ![11, 26] S1x1
  slices_S32x32_o11_27_S1x1 : S32x32.Slices ![11, 27] S1x1
  slices_S32x32_o11_28_S1x1 : S32x32.Slices ![11, 28] S1x1
  slices_S32x32_o11_29_S1x1 : S32x32.Slices ![11, 29] S1x1
  slices_S32x32_o11_30_S1x1 : S32x32.Slices ![11, 30] S1x1
  slices_S32x32_o11_31_S1x1 : S32x32.Slices ![11, 31] S1x1
  slices_S32_o11_S1 : S32.Slices ![11] S1
  inb_S1x32x128x128_S1x1x128x128_0_11_0_0 : ∀ a, (![0, 11, 0, 0] : Fin 4 → Nat) a + S1x1x128x128.size a ≤ S1x32x128x128.size a
  slices_S32x32_o12_0_S1x1 : S32x32.Slices ![12, 0] S1x1
  slices_S32x32_o12_1_S1x1 : S32x32.Slices ![12, 1] S1x1
  slices_S32x32_o12_2_S1x1 : S32x32.Slices ![12, 2] S1x1
  slices_S32x32_o12_3_S1x1 : S32x32.Slices ![12, 3] S1x1
  slices_S32x32_o12_4_S1x1 : S32x32.Slices ![12, 4] S1x1
  slices_S32x32_o12_5_S1x1 : S32x32.Slices ![12, 5] S1x1
  slices_S32x32_o12_6_S1x1 : S32x32.Slices ![12, 6] S1x1
  slices_S32x32_o12_7_S1x1 : S32x32.Slices ![12, 7] S1x1
  slices_S32x32_o12_8_S1x1 : S32x32.Slices ![12, 8] S1x1
  slices_S32x32_o12_9_S1x1 : S32x32.Slices ![12, 9] S1x1
  slices_S32x32_o12_10_S1x1 : S32x32.Slices ![12, 10] S1x1
  slices_S32x32_o12_11_S1x1 : S32x32.Slices ![12, 11] S1x1
  slices_S32x32_o12_12_S1x1 : S32x32.Slices ![12, 12] S1x1
  slices_S32x32_o12_13_S1x1 : S32x32.Slices ![12, 13] S1x1
  slices_S32x32_o12_14_S1x1 : S32x32.Slices ![12, 14] S1x1
  slices_S32x32_o12_15_S1x1 : S32x32.Slices ![12, 15] S1x1
  slices_S32x32_o12_16_S1x1 : S32x32.Slices ![12, 16] S1x1
  slices_S32x32_o12_17_S1x1 : S32x32.Slices ![12, 17] S1x1
  slices_S32x32_o12_18_S1x1 : S32x32.Slices ![12, 18] S1x1
  slices_S32x32_o12_19_S1x1 : S32x32.Slices ![12, 19] S1x1
  slices_S32x32_o12_20_S1x1 : S32x32.Slices ![12, 20] S1x1
  slices_S32x32_o12_21_S1x1 : S32x32.Slices ![12, 21] S1x1
  slices_S32x32_o12_22_S1x1 : S32x32.Slices ![12, 22] S1x1
  slices_S32x32_o12_23_S1x1 : S32x32.Slices ![12, 23] S1x1
  slices_S32x32_o12_24_S1x1 : S32x32.Slices ![12, 24] S1x1
  slices_S32x32_o12_25_S1x1 : S32x32.Slices ![12, 25] S1x1
  slices_S32x32_o12_26_S1x1 : S32x32.Slices ![12, 26] S1x1
  slices_S32x32_o12_27_S1x1 : S32x32.Slices ![12, 27] S1x1
  slices_S32x32_o12_28_S1x1 : S32x32.Slices ![12, 28] S1x1
  slices_S32x32_o12_29_S1x1 : S32x32.Slices ![12, 29] S1x1
  slices_S32x32_o12_30_S1x1 : S32x32.Slices ![12, 30] S1x1
  slices_S32x32_o12_31_S1x1 : S32x32.Slices ![12, 31] S1x1
  slices_S32_o12_S1 : S32.Slices ![12] S1
  inb_S1x32x128x128_S1x1x128x128_0_12_0_0 : ∀ a, (![0, 12, 0, 0] : Fin 4 → Nat) a + S1x1x128x128.size a ≤ S1x32x128x128.size a
  slices_S32x32_o13_0_S1x1 : S32x32.Slices ![13, 0] S1x1
  slices_S32x32_o13_1_S1x1 : S32x32.Slices ![13, 1] S1x1
  slices_S32x32_o13_2_S1x1 : S32x32.Slices ![13, 2] S1x1
  slices_S32x32_o13_3_S1x1 : S32x32.Slices ![13, 3] S1x1
  slices_S32x32_o13_4_S1x1 : S32x32.Slices ![13, 4] S1x1
  slices_S32x32_o13_5_S1x1 : S32x32.Slices ![13, 5] S1x1
  slices_S32x32_o13_6_S1x1 : S32x32.Slices ![13, 6] S1x1
  slices_S32x32_o13_7_S1x1 : S32x32.Slices ![13, 7] S1x1
  slices_S32x32_o13_8_S1x1 : S32x32.Slices ![13, 8] S1x1
  slices_S32x32_o13_9_S1x1 : S32x32.Slices ![13, 9] S1x1
  slices_S32x32_o13_10_S1x1 : S32x32.Slices ![13, 10] S1x1
  slices_S32x32_o13_11_S1x1 : S32x32.Slices ![13, 11] S1x1
  slices_S32x32_o13_12_S1x1 : S32x32.Slices ![13, 12] S1x1
  slices_S32x32_o13_13_S1x1 : S32x32.Slices ![13, 13] S1x1
  slices_S32x32_o13_14_S1x1 : S32x32.Slices ![13, 14] S1x1
  slices_S32x32_o13_15_S1x1 : S32x32.Slices ![13, 15] S1x1
  slices_S32x32_o13_16_S1x1 : S32x32.Slices ![13, 16] S1x1
  slices_S32x32_o13_17_S1x1 : S32x32.Slices ![13, 17] S1x1
  slices_S32x32_o13_18_S1x1 : S32x32.Slices ![13, 18] S1x1
  slices_S32x32_o13_19_S1x1 : S32x32.Slices ![13, 19] S1x1
  slices_S32x32_o13_20_S1x1 : S32x32.Slices ![13, 20] S1x1
  slices_S32x32_o13_21_S1x1 : S32x32.Slices ![13, 21] S1x1
  slices_S32x32_o13_22_S1x1 : S32x32.Slices ![13, 22] S1x1
  slices_S32x32_o13_23_S1x1 : S32x32.Slices ![13, 23] S1x1
  slices_S32x32_o13_24_S1x1 : S32x32.Slices ![13, 24] S1x1
  slices_S32x32_o13_25_S1x1 : S32x32.Slices ![13, 25] S1x1
  slices_S32x32_o13_26_S1x1 : S32x32.Slices ![13, 26] S1x1
  slices_S32x32_o13_27_S1x1 : S32x32.Slices ![13, 27] S1x1
  slices_S32x32_o13_28_S1x1 : S32x32.Slices ![13, 28] S1x1
  slices_S32x32_o13_29_S1x1 : S32x32.Slices ![13, 29] S1x1
  slices_S32x32_o13_30_S1x1 : S32x32.Slices ![13, 30] S1x1
  slices_S32x32_o13_31_S1x1 : S32x32.Slices ![13, 31] S1x1
  slices_S32_o13_S1 : S32.Slices ![13] S1
  inb_S1x32x128x128_S1x1x128x128_0_13_0_0 : ∀ a, (![0, 13, 0, 0] : Fin 4 → Nat) a + S1x1x128x128.size a ≤ S1x32x128x128.size a
  slices_S32x32_o14_0_S1x1 : S32x32.Slices ![14, 0] S1x1
  slices_S32x32_o14_1_S1x1 : S32x32.Slices ![14, 1] S1x1
  slices_S32x32_o14_2_S1x1 : S32x32.Slices ![14, 2] S1x1
  slices_S32x32_o14_3_S1x1 : S32x32.Slices ![14, 3] S1x1
  slices_S32x32_o14_4_S1x1 : S32x32.Slices ![14, 4] S1x1
  slices_S32x32_o14_5_S1x1 : S32x32.Slices ![14, 5] S1x1
  slices_S32x32_o14_6_S1x1 : S32x32.Slices ![14, 6] S1x1
  slices_S32x32_o14_7_S1x1 : S32x32.Slices ![14, 7] S1x1
  slices_S32x32_o14_8_S1x1 : S32x32.Slices ![14, 8] S1x1
  slices_S32x32_o14_9_S1x1 : S32x32.Slices ![14, 9] S1x1
  slices_S32x32_o14_10_S1x1 : S32x32.Slices ![14, 10] S1x1
  slices_S32x32_o14_11_S1x1 : S32x32.Slices ![14, 11] S1x1
  slices_S32x32_o14_12_S1x1 : S32x32.Slices ![14, 12] S1x1
  slices_S32x32_o14_13_S1x1 : S32x32.Slices ![14, 13] S1x1
  slices_S32x32_o14_14_S1x1 : S32x32.Slices ![14, 14] S1x1
  slices_S32x32_o14_15_S1x1 : S32x32.Slices ![14, 15] S1x1
  slices_S32x32_o14_16_S1x1 : S32x32.Slices ![14, 16] S1x1
  slices_S32x32_o14_17_S1x1 : S32x32.Slices ![14, 17] S1x1
  slices_S32x32_o14_18_S1x1 : S32x32.Slices ![14, 18] S1x1
  slices_S32x32_o14_19_S1x1 : S32x32.Slices ![14, 19] S1x1
  slices_S32x32_o14_20_S1x1 : S32x32.Slices ![14, 20] S1x1
  slices_S32x32_o14_21_S1x1 : S32x32.Slices ![14, 21] S1x1
  slices_S32x32_o14_22_S1x1 : S32x32.Slices ![14, 22] S1x1
  slices_S32x32_o14_23_S1x1 : S32x32.Slices ![14, 23] S1x1
  slices_S32x32_o14_24_S1x1 : S32x32.Slices ![14, 24] S1x1
  slices_S32x32_o14_25_S1x1 : S32x32.Slices ![14, 25] S1x1
  slices_S32x32_o14_26_S1x1 : S32x32.Slices ![14, 26] S1x1
  slices_S32x32_o14_27_S1x1 : S32x32.Slices ![14, 27] S1x1
  slices_S32x32_o14_28_S1x1 : S32x32.Slices ![14, 28] S1x1
  slices_S32x32_o14_29_S1x1 : S32x32.Slices ![14, 29] S1x1
  slices_S32x32_o14_30_S1x1 : S32x32.Slices ![14, 30] S1x1
  slices_S32x32_o14_31_S1x1 : S32x32.Slices ![14, 31] S1x1
  slices_S32_o14_S1 : S32.Slices ![14] S1
  inb_S1x32x128x128_S1x1x128x128_0_14_0_0 : ∀ a, (![0, 14, 0, 0] : Fin 4 → Nat) a + S1x1x128x128.size a ≤ S1x32x128x128.size a
  slices_S32x32_o15_0_S1x1 : S32x32.Slices ![15, 0] S1x1
  slices_S32x32_o15_1_S1x1 : S32x32.Slices ![15, 1] S1x1
  slices_S32x32_o15_2_S1x1 : S32x32.Slices ![15, 2] S1x1
  slices_S32x32_o15_3_S1x1 : S32x32.Slices ![15, 3] S1x1
  slices_S32x32_o15_4_S1x1 : S32x32.Slices ![15, 4] S1x1
  slices_S32x32_o15_5_S1x1 : S32x32.Slices ![15, 5] S1x1
  slices_S32x32_o15_6_S1x1 : S32x32.Slices ![15, 6] S1x1
  slices_S32x32_o15_7_S1x1 : S32x32.Slices ![15, 7] S1x1
  slices_S32x32_o15_8_S1x1 : S32x32.Slices ![15, 8] S1x1
  slices_S32x32_o15_9_S1x1 : S32x32.Slices ![15, 9] S1x1
  slices_S32x32_o15_10_S1x1 : S32x32.Slices ![15, 10] S1x1
  slices_S32x32_o15_11_S1x1 : S32x32.Slices ![15, 11] S1x1
  slices_S32x32_o15_12_S1x1 : S32x32.Slices ![15, 12] S1x1
  slices_S32x32_o15_13_S1x1 : S32x32.Slices ![15, 13] S1x1
  slices_S32x32_o15_14_S1x1 : S32x32.Slices ![15, 14] S1x1
  slices_S32x32_o15_15_S1x1 : S32x32.Slices ![15, 15] S1x1
  slices_S32x32_o15_16_S1x1 : S32x32.Slices ![15, 16] S1x1
  slices_S32x32_o15_17_S1x1 : S32x32.Slices ![15, 17] S1x1
  slices_S32x32_o15_18_S1x1 : S32x32.Slices ![15, 18] S1x1
  slices_S32x32_o15_19_S1x1 : S32x32.Slices ![15, 19] S1x1
  slices_S32x32_o15_20_S1x1 : S32x32.Slices ![15, 20] S1x1
  slices_S32x32_o15_21_S1x1 : S32x32.Slices ![15, 21] S1x1
  slices_S32x32_o15_22_S1x1 : S32x32.Slices ![15, 22] S1x1
  slices_S32x32_o15_23_S1x1 : S32x32.Slices ![15, 23] S1x1
  slices_S32x32_o15_24_S1x1 : S32x32.Slices ![15, 24] S1x1
  slices_S32x32_o15_25_S1x1 : S32x32.Slices ![15, 25] S1x1
  slices_S32x32_o15_26_S1x1 : S32x32.Slices ![15, 26] S1x1
  slices_S32x32_o15_27_S1x1 : S32x32.Slices ![15, 27] S1x1
  slices_S32x32_o15_28_S1x1 : S32x32.Slices ![15, 28] S1x1
  slices_S32x32_o15_29_S1x1 : S32x32.Slices ![15, 29] S1x1
  slices_S32x32_o15_30_S1x1 : S32x32.Slices ![15, 30] S1x1
  slices_S32x32_o15_31_S1x1 : S32x32.Slices ![15, 31] S1x1
  slices_S32_o15_S1 : S32.Slices ![15] S1
  inb_S1x32x128x128_S1x1x128x128_0_15_0_0 : ∀ a, (![0, 15, 0, 0] : Fin 4 → Nat) a + S1x1x128x128.size a ≤ S1x32x128x128.size a
  slices_S32x32_o16_0_S1x1 : S32x32.Slices ![16, 0] S1x1
  slices_S32x32_o16_1_S1x1 : S32x32.Slices ![16, 1] S1x1
  slices_S32x32_o16_2_S1x1 : S32x32.Slices ![16, 2] S1x1
  slices_S32x32_o16_3_S1x1 : S32x32.Slices ![16, 3] S1x1
  slices_S32x32_o16_4_S1x1 : S32x32.Slices ![16, 4] S1x1
  slices_S32x32_o16_5_S1x1 : S32x32.Slices ![16, 5] S1x1
  slices_S32x32_o16_6_S1x1 : S32x32.Slices ![16, 6] S1x1
  slices_S32x32_o16_7_S1x1 : S32x32.Slices ![16, 7] S1x1
  slices_S32x32_o16_8_S1x1 : S32x32.Slices ![16, 8] S1x1
  slices_S32x32_o16_9_S1x1 : S32x32.Slices ![16, 9] S1x1
  slices_S32x32_o16_10_S1x1 : S32x32.Slices ![16, 10] S1x1
  slices_S32x32_o16_11_S1x1 : S32x32.Slices ![16, 11] S1x1
  slices_S32x32_o16_12_S1x1 : S32x32.Slices ![16, 12] S1x1
  slices_S32x32_o16_13_S1x1 : S32x32.Slices ![16, 13] S1x1
  slices_S32x32_o16_14_S1x1 : S32x32.Slices ![16, 14] S1x1
  slices_S32x32_o16_15_S1x1 : S32x32.Slices ![16, 15] S1x1
  slices_S32x32_o16_16_S1x1 : S32x32.Slices ![16, 16] S1x1
  slices_S32x32_o16_17_S1x1 : S32x32.Slices ![16, 17] S1x1
  slices_S32x32_o16_18_S1x1 : S32x32.Slices ![16, 18] S1x1
  slices_S32x32_o16_19_S1x1 : S32x32.Slices ![16, 19] S1x1
  slices_S32x32_o16_20_S1x1 : S32x32.Slices ![16, 20] S1x1
  slices_S32x32_o16_21_S1x1 : S32x32.Slices ![16, 21] S1x1
  slices_S32x32_o16_22_S1x1 : S32x32.Slices ![16, 22] S1x1
  slices_S32x32_o16_23_S1x1 : S32x32.Slices ![16, 23] S1x1
  slices_S32x32_o16_24_S1x1 : S32x32.Slices ![16, 24] S1x1
  slices_S32x32_o16_25_S1x1 : S32x32.Slices ![16, 25] S1x1
  slices_S32x32_o16_26_S1x1 : S32x32.Slices ![16, 26] S1x1
  slices_S32x32_o16_27_S1x1 : S32x32.Slices ![16, 27] S1x1
  slices_S32x32_o16_28_S1x1 : S32x32.Slices ![16, 28] S1x1
  slices_S32x32_o16_29_S1x1 : S32x32.Slices ![16, 29] S1x1
  slices_S32x32_o16_30_S1x1 : S32x32.Slices ![16, 30] S1x1
  slices_S32x32_o16_31_S1x1 : S32x32.Slices ![16, 31] S1x1
  slices_S32_o16_S1 : S32.Slices ![16] S1
  inb_S1x32x128x128_S1x1x128x128_0_16_0_0 : ∀ a, (![0, 16, 0, 0] : Fin 4 → Nat) a + S1x1x128x128.size a ≤ S1x32x128x128.size a
  slices_S32x32_o17_0_S1x1 : S32x32.Slices ![17, 0] S1x1
  slices_S32x32_o17_1_S1x1 : S32x32.Slices ![17, 1] S1x1
  slices_S32x32_o17_2_S1x1 : S32x32.Slices ![17, 2] S1x1
  slices_S32x32_o17_3_S1x1 : S32x32.Slices ![17, 3] S1x1
  slices_S32x32_o17_4_S1x1 : S32x32.Slices ![17, 4] S1x1
  slices_S32x32_o17_5_S1x1 : S32x32.Slices ![17, 5] S1x1
  slices_S32x32_o17_6_S1x1 : S32x32.Slices ![17, 6] S1x1
  slices_S32x32_o17_7_S1x1 : S32x32.Slices ![17, 7] S1x1
  slices_S32x32_o17_8_S1x1 : S32x32.Slices ![17, 8] S1x1
  slices_S32x32_o17_9_S1x1 : S32x32.Slices ![17, 9] S1x1
  slices_S32x32_o17_10_S1x1 : S32x32.Slices ![17, 10] S1x1
  slices_S32x32_o17_11_S1x1 : S32x32.Slices ![17, 11] S1x1
  slices_S32x32_o17_12_S1x1 : S32x32.Slices ![17, 12] S1x1
  slices_S32x32_o17_13_S1x1 : S32x32.Slices ![17, 13] S1x1
  slices_S32x32_o17_14_S1x1 : S32x32.Slices ![17, 14] S1x1
  slices_S32x32_o17_15_S1x1 : S32x32.Slices ![17, 15] S1x1
  slices_S32x32_o17_16_S1x1 : S32x32.Slices ![17, 16] S1x1
  slices_S32x32_o17_17_S1x1 : S32x32.Slices ![17, 17] S1x1
  slices_S32x32_o17_18_S1x1 : S32x32.Slices ![17, 18] S1x1
  slices_S32x32_o17_19_S1x1 : S32x32.Slices ![17, 19] S1x1
  slices_S32x32_o17_20_S1x1 : S32x32.Slices ![17, 20] S1x1
  slices_S32x32_o17_21_S1x1 : S32x32.Slices ![17, 21] S1x1
  slices_S32x32_o17_22_S1x1 : S32x32.Slices ![17, 22] S1x1
  slices_S32x32_o17_23_S1x1 : S32x32.Slices ![17, 23] S1x1
  slices_S32x32_o17_24_S1x1 : S32x32.Slices ![17, 24] S1x1
  slices_S32x32_o17_25_S1x1 : S32x32.Slices ![17, 25] S1x1
  slices_S32x32_o17_26_S1x1 : S32x32.Slices ![17, 26] S1x1
  slices_S32x32_o17_27_S1x1 : S32x32.Slices ![17, 27] S1x1
  slices_S32x32_o17_28_S1x1 : S32x32.Slices ![17, 28] S1x1
  slices_S32x32_o17_29_S1x1 : S32x32.Slices ![17, 29] S1x1
  slices_S32x32_o17_30_S1x1 : S32x32.Slices ![17, 30] S1x1
  slices_S32x32_o17_31_S1x1 : S32x32.Slices ![17, 31] S1x1
  slices_S32_o17_S1 : S32.Slices ![17] S1
  inb_S1x32x128x128_S1x1x128x128_0_17_0_0 : ∀ a, (![0, 17, 0, 0] : Fin 4 → Nat) a + S1x1x128x128.size a ≤ S1x32x128x128.size a
  slices_S32x32_o18_0_S1x1 : S32x32.Slices ![18, 0] S1x1
  slices_S32x32_o18_1_S1x1 : S32x32.Slices ![18, 1] S1x1
  slices_S32x32_o18_2_S1x1 : S32x32.Slices ![18, 2] S1x1
  slices_S32x32_o18_3_S1x1 : S32x32.Slices ![18, 3] S1x1
  slices_S32x32_o18_4_S1x1 : S32x32.Slices ![18, 4] S1x1
  slices_S32x32_o18_5_S1x1 : S32x32.Slices ![18, 5] S1x1
  slices_S32x32_o18_6_S1x1 : S32x32.Slices ![18, 6] S1x1
  slices_S32x32_o18_7_S1x1 : S32x32.Slices ![18, 7] S1x1
  slices_S32x32_o18_8_S1x1 : S32x32.Slices ![18, 8] S1x1
  slices_S32x32_o18_9_S1x1 : S32x32.Slices ![18, 9] S1x1
  slices_S32x32_o18_10_S1x1 : S32x32.Slices ![18, 10] S1x1
  slices_S32x32_o18_11_S1x1 : S32x32.Slices ![18, 11] S1x1
  slices_S32x32_o18_12_S1x1 : S32x32.Slices ![18, 12] S1x1
  slices_S32x32_o18_13_S1x1 : S32x32.Slices ![18, 13] S1x1
  slices_S32x32_o18_14_S1x1 : S32x32.Slices ![18, 14] S1x1
  slices_S32x32_o18_15_S1x1 : S32x32.Slices ![18, 15] S1x1
  slices_S32x32_o18_16_S1x1 : S32x32.Slices ![18, 16] S1x1
  slices_S32x32_o18_17_S1x1 : S32x32.Slices ![18, 17] S1x1
  slices_S32x32_o18_18_S1x1 : S32x32.Slices ![18, 18] S1x1
  slices_S32x32_o18_19_S1x1 : S32x32.Slices ![18, 19] S1x1
  slices_S32x32_o18_20_S1x1 : S32x32.Slices ![18, 20] S1x1
  slices_S32x32_o18_21_S1x1 : S32x32.Slices ![18, 21] S1x1
  slices_S32x32_o18_22_S1x1 : S32x32.Slices ![18, 22] S1x1
  slices_S32x32_o18_23_S1x1 : S32x32.Slices ![18, 23] S1x1
  slices_S32x32_o18_24_S1x1 : S32x32.Slices ![18, 24] S1x1
  slices_S32x32_o18_25_S1x1 : S32x32.Slices ![18, 25] S1x1
  slices_S32x32_o18_26_S1x1 : S32x32.Slices ![18, 26] S1x1
  slices_S32x32_o18_27_S1x1 : S32x32.Slices ![18, 27] S1x1
  slices_S32x32_o18_28_S1x1 : S32x32.Slices ![18, 28] S1x1
  slices_S32x32_o18_29_S1x1 : S32x32.Slices ![18, 29] S1x1
  slices_S32x32_o18_30_S1x1 : S32x32.Slices ![18, 30] S1x1
  slices_S32x32_o18_31_S1x1 : S32x32.Slices ![18, 31] S1x1
  slices_S32_o18_S1 : S32.Slices ![18] S1
  inb_S1x32x128x128_S1x1x128x128_0_18_0_0 : ∀ a, (![0, 18, 0, 0] : Fin 4 → Nat) a + S1x1x128x128.size a ≤ S1x32x128x128.size a
  slices_S32x32_o19_0_S1x1 : S32x32.Slices ![19, 0] S1x1
  slices_S32x32_o19_1_S1x1 : S32x32.Slices ![19, 1] S1x1
  slices_S32x32_o19_2_S1x1 : S32x32.Slices ![19, 2] S1x1
  slices_S32x32_o19_3_S1x1 : S32x32.Slices ![19, 3] S1x1
  slices_S32x32_o19_4_S1x1 : S32x32.Slices ![19, 4] S1x1
  slices_S32x32_o19_5_S1x1 : S32x32.Slices ![19, 5] S1x1
  slices_S32x32_o19_6_S1x1 : S32x32.Slices ![19, 6] S1x1
  slices_S32x32_o19_7_S1x1 : S32x32.Slices ![19, 7] S1x1
  slices_S32x32_o19_8_S1x1 : S32x32.Slices ![19, 8] S1x1
  slices_S32x32_o19_9_S1x1 : S32x32.Slices ![19, 9] S1x1
  slices_S32x32_o19_10_S1x1 : S32x32.Slices ![19, 10] S1x1
  slices_S32x32_o19_11_S1x1 : S32x32.Slices ![19, 11] S1x1
  slices_S32x32_o19_12_S1x1 : S32x32.Slices ![19, 12] S1x1
  slices_S32x32_o19_13_S1x1 : S32x32.Slices ![19, 13] S1x1
  slices_S32x32_o19_14_S1x1 : S32x32.Slices ![19, 14] S1x1
  slices_S32x32_o19_15_S1x1 : S32x32.Slices ![19, 15] S1x1
  slices_S32x32_o19_16_S1x1 : S32x32.Slices ![19, 16] S1x1
  slices_S32x32_o19_17_S1x1 : S32x32.Slices ![19, 17] S1x1
  slices_S32x32_o19_18_S1x1 : S32x32.Slices ![19, 18] S1x1
  slices_S32x32_o19_19_S1x1 : S32x32.Slices ![19, 19] S1x1
  slices_S32x32_o19_20_S1x1 : S32x32.Slices ![19, 20] S1x1
  slices_S32x32_o19_21_S1x1 : S32x32.Slices ![19, 21] S1x1
  slices_S32x32_o19_22_S1x1 : S32x32.Slices ![19, 22] S1x1
  slices_S32x32_o19_23_S1x1 : S32x32.Slices ![19, 23] S1x1
  slices_S32x32_o19_24_S1x1 : S32x32.Slices ![19, 24] S1x1
  slices_S32x32_o19_25_S1x1 : S32x32.Slices ![19, 25] S1x1
  slices_S32x32_o19_26_S1x1 : S32x32.Slices ![19, 26] S1x1
  slices_S32x32_o19_27_S1x1 : S32x32.Slices ![19, 27] S1x1
  slices_S32x32_o19_28_S1x1 : S32x32.Slices ![19, 28] S1x1
  slices_S32x32_o19_29_S1x1 : S32x32.Slices ![19, 29] S1x1
  slices_S32x32_o19_30_S1x1 : S32x32.Slices ![19, 30] S1x1
  slices_S32x32_o19_31_S1x1 : S32x32.Slices ![19, 31] S1x1
  slices_S32_o19_S1 : S32.Slices ![19] S1
  inb_S1x32x128x128_S1x1x128x128_0_19_0_0 : ∀ a, (![0, 19, 0, 0] : Fin 4 → Nat) a + S1x1x128x128.size a ≤ S1x32x128x128.size a
  slices_S32x32_o20_0_S1x1 : S32x32.Slices ![20, 0] S1x1
  slices_S32x32_o20_1_S1x1 : S32x32.Slices ![20, 1] S1x1
  slices_S32x32_o20_2_S1x1 : S32x32.Slices ![20, 2] S1x1
  slices_S32x32_o20_3_S1x1 : S32x32.Slices ![20, 3] S1x1
  slices_S32x32_o20_4_S1x1 : S32x32.Slices ![20, 4] S1x1
  slices_S32x32_o20_5_S1x1 : S32x32.Slices ![20, 5] S1x1
  slices_S32x32_o20_6_S1x1 : S32x32.Slices ![20, 6] S1x1
  slices_S32x32_o20_7_S1x1 : S32x32.Slices ![20, 7] S1x1
  slices_S32x32_o20_8_S1x1 : S32x32.Slices ![20, 8] S1x1
  slices_S32x32_o20_9_S1x1 : S32x32.Slices ![20, 9] S1x1
  slices_S32x32_o20_10_S1x1 : S32x32.Slices ![20, 10] S1x1
  slices_S32x32_o20_11_S1x1 : S32x32.Slices ![20, 11] S1x1
  slices_S32x32_o20_12_S1x1 : S32x32.Slices ![20, 12] S1x1
  slices_S32x32_o20_13_S1x1 : S32x32.Slices ![20, 13] S1x1
  slices_S32x32_o20_14_S1x1 : S32x32.Slices ![20, 14] S1x1
  slices_S32x32_o20_15_S1x1 : S32x32.Slices ![20, 15] S1x1
  slices_S32x32_o20_16_S1x1 : S32x32.Slices ![20, 16] S1x1
  slices_S32x32_o20_17_S1x1 : S32x32.Slices ![20, 17] S1x1
  slices_S32x32_o20_18_S1x1 : S32x32.Slices ![20, 18] S1x1
  slices_S32x32_o20_19_S1x1 : S32x32.Slices ![20, 19] S1x1
  slices_S32x32_o20_20_S1x1 : S32x32.Slices ![20, 20] S1x1
  slices_S32x32_o20_21_S1x1 : S32x32.Slices ![20, 21] S1x1
  slices_S32x32_o20_22_S1x1 : S32x32.Slices ![20, 22] S1x1
  slices_S32x32_o20_23_S1x1 : S32x32.Slices ![20, 23] S1x1
  slices_S32x32_o20_24_S1x1 : S32x32.Slices ![20, 24] S1x1
  slices_S32x32_o20_25_S1x1 : S32x32.Slices ![20, 25] S1x1
  slices_S32x32_o20_26_S1x1 : S32x32.Slices ![20, 26] S1x1
  slices_S32x32_o20_27_S1x1 : S32x32.Slices ![20, 27] S1x1
  slices_S32x32_o20_28_S1x1 : S32x32.Slices ![20, 28] S1x1
  slices_S32x32_o20_29_S1x1 : S32x32.Slices ![20, 29] S1x1
  slices_S32x32_o20_30_S1x1 : S32x32.Slices ![20, 30] S1x1
  slices_S32x32_o20_31_S1x1 : S32x32.Slices ![20, 31] S1x1
  slices_S32_o20_S1 : S32.Slices ![20] S1
  inb_S1x32x128x128_S1x1x128x128_0_20_0_0 : ∀ a, (![0, 20, 0, 0] : Fin 4 → Nat) a + S1x1x128x128.size a ≤ S1x32x128x128.size a
  slices_S32x32_o21_0_S1x1 : S32x32.Slices ![21, 0] S1x1
  slices_S32x32_o21_1_S1x1 : S32x32.Slices ![21, 1] S1x1
  slices_S32x32_o21_2_S1x1 : S32x32.Slices ![21, 2] S1x1
  slices_S32x32_o21_3_S1x1 : S32x32.Slices ![21, 3] S1x1
  slices_S32x32_o21_4_S1x1 : S32x32.Slices ![21, 4] S1x1
  slices_S32x32_o21_5_S1x1 : S32x32.Slices ![21, 5] S1x1
  slices_S32x32_o21_6_S1x1 : S32x32.Slices ![21, 6] S1x1
  slices_S32x32_o21_7_S1x1 : S32x32.Slices ![21, 7] S1x1
  slices_S32x32_o21_8_S1x1 : S32x32.Slices ![21, 8] S1x1
  slices_S32x32_o21_9_S1x1 : S32x32.Slices ![21, 9] S1x1
  slices_S32x32_o21_10_S1x1 : S32x32.Slices ![21, 10] S1x1
  slices_S32x32_o21_11_S1x1 : S32x32.Slices ![21, 11] S1x1
  slices_S32x32_o21_12_S1x1 : S32x32.Slices ![21, 12] S1x1
  slices_S32x32_o21_13_S1x1 : S32x32.Slices ![21, 13] S1x1
  slices_S32x32_o21_14_S1x1 : S32x32.Slices ![21, 14] S1x1
  slices_S32x32_o21_15_S1x1 : S32x32.Slices ![21, 15] S1x1
  slices_S32x32_o21_16_S1x1 : S32x32.Slices ![21, 16] S1x1
  slices_S32x32_o21_17_S1x1 : S32x32.Slices ![21, 17] S1x1
  slices_S32x32_o21_18_S1x1 : S32x32.Slices ![21, 18] S1x1
  slices_S32x32_o21_19_S1x1 : S32x32.Slices ![21, 19] S1x1
  slices_S32x32_o21_20_S1x1 : S32x32.Slices ![21, 20] S1x1
  slices_S32x32_o21_21_S1x1 : S32x32.Slices ![21, 21] S1x1
  slices_S32x32_o21_22_S1x1 : S32x32.Slices ![21, 22] S1x1
  slices_S32x32_o21_23_S1x1 : S32x32.Slices ![21, 23] S1x1
  slices_S32x32_o21_24_S1x1 : S32x32.Slices ![21, 24] S1x1
  slices_S32x32_o21_25_S1x1 : S32x32.Slices ![21, 25] S1x1
  slices_S32x32_o21_26_S1x1 : S32x32.Slices ![21, 26] S1x1
  slices_S32x32_o21_27_S1x1 : S32x32.Slices ![21, 27] S1x1
  slices_S32x32_o21_28_S1x1 : S32x32.Slices ![21, 28] S1x1
  slices_S32x32_o21_29_S1x1 : S32x32.Slices ![21, 29] S1x1
  slices_S32x32_o21_30_S1x1 : S32x32.Slices ![21, 30] S1x1
  slices_S32x32_o21_31_S1x1 : S32x32.Slices ![21, 31] S1x1
  slices_S32_o21_S1 : S32.Slices ![21] S1
  inb_S1x32x128x128_S1x1x128x128_0_21_0_0 : ∀ a, (![0, 21, 0, 0] : Fin 4 → Nat) a + S1x1x128x128.size a ≤ S1x32x128x128.size a
  slices_S32x32_o22_0_S1x1 : S32x32.Slices ![22, 0] S1x1
  slices_S32x32_o22_1_S1x1 : S32x32.Slices ![22, 1] S1x1
  slices_S32x32_o22_2_S1x1 : S32x32.Slices ![22, 2] S1x1
  slices_S32x32_o22_3_S1x1 : S32x32.Slices ![22, 3] S1x1
  slices_S32x32_o22_4_S1x1 : S32x32.Slices ![22, 4] S1x1
  slices_S32x32_o22_5_S1x1 : S32x32.Slices ![22, 5] S1x1
  slices_S32x32_o22_6_S1x1 : S32x32.Slices ![22, 6] S1x1
  slices_S32x32_o22_7_S1x1 : S32x32.Slices ![22, 7] S1x1
  slices_S32x32_o22_8_S1x1 : S32x32.Slices ![22, 8] S1x1
  slices_S32x32_o22_9_S1x1 : S32x32.Slices ![22, 9] S1x1
  slices_S32x32_o22_10_S1x1 : S32x32.Slices ![22, 10] S1x1
  slices_S32x32_o22_11_S1x1 : S32x32.Slices ![22, 11] S1x1
  slices_S32x32_o22_12_S1x1 : S32x32.Slices ![22, 12] S1x1
  slices_S32x32_o22_13_S1x1 : S32x32.Slices ![22, 13] S1x1
  slices_S32x32_o22_14_S1x1 : S32x32.Slices ![22, 14] S1x1
  slices_S32x32_o22_15_S1x1 : S32x32.Slices ![22, 15] S1x1
  slices_S32x32_o22_16_S1x1 : S32x32.Slices ![22, 16] S1x1
  slices_S32x32_o22_17_S1x1 : S32x32.Slices ![22, 17] S1x1
  slices_S32x32_o22_18_S1x1 : S32x32.Slices ![22, 18] S1x1
  slices_S32x32_o22_19_S1x1 : S32x32.Slices ![22, 19] S1x1
  slices_S32x32_o22_20_S1x1 : S32x32.Slices ![22, 20] S1x1
  slices_S32x32_o22_21_S1x1 : S32x32.Slices ![22, 21] S1x1
  slices_S32x32_o22_22_S1x1 : S32x32.Slices ![22, 22] S1x1
  slices_S32x32_o22_23_S1x1 : S32x32.Slices ![22, 23] S1x1
  slices_S32x32_o22_24_S1x1 : S32x32.Slices ![22, 24] S1x1
  slices_S32x32_o22_25_S1x1 : S32x32.Slices ![22, 25] S1x1
  slices_S32x32_o22_26_S1x1 : S32x32.Slices ![22, 26] S1x1
  slices_S32x32_o22_27_S1x1 : S32x32.Slices ![22, 27] S1x1
  slices_S32x32_o22_28_S1x1 : S32x32.Slices ![22, 28] S1x1
  slices_S32x32_o22_29_S1x1 : S32x32.Slices ![22, 29] S1x1
  slices_S32x32_o22_30_S1x1 : S32x32.Slices ![22, 30] S1x1
  slices_S32x32_o22_31_S1x1 : S32x32.Slices ![22, 31] S1x1
  slices_S32_o22_S1 : S32.Slices ![22] S1
  inb_S1x32x128x128_S1x1x128x128_0_22_0_0 : ∀ a, (![0, 22, 0, 0] : Fin 4 → Nat) a + S1x1x128x128.size a ≤ S1x32x128x128.size a
  slices_S32x32_o23_0_S1x1 : S32x32.Slices ![23, 0] S1x1
  slices_S32x32_o23_1_S1x1 : S32x32.Slices ![23, 1] S1x1
  slices_S32x32_o23_2_S1x1 : S32x32.Slices ![23, 2] S1x1
  slices_S32x32_o23_3_S1x1 : S32x32.Slices ![23, 3] S1x1
  slices_S32x32_o23_4_S1x1 : S32x32.Slices ![23, 4] S1x1
  slices_S32x32_o23_5_S1x1 : S32x32.Slices ![23, 5] S1x1
  slices_S32x32_o23_6_S1x1 : S32x32.Slices ![23, 6] S1x1
  slices_S32x32_o23_7_S1x1 : S32x32.Slices ![23, 7] S1x1
  slices_S32x32_o23_8_S1x1 : S32x32.Slices ![23, 8] S1x1
  slices_S32x32_o23_9_S1x1 : S32x32.Slices ![23, 9] S1x1
  slices_S32x32_o23_10_S1x1 : S32x32.Slices ![23, 10] S1x1
  slices_S32x32_o23_11_S1x1 : S32x32.Slices ![23, 11] S1x1
  slices_S32x32_o23_12_S1x1 : S32x32.Slices ![23, 12] S1x1
  slices_S32x32_o23_13_S1x1 : S32x32.Slices ![23, 13] S1x1
  slices_S32x32_o23_14_S1x1 : S32x32.Slices ![23, 14] S1x1
  slices_S32x32_o23_15_S1x1 : S32x32.Slices ![23, 15] S1x1
  slices_S32x32_o23_16_S1x1 : S32x32.Slices ![23, 16] S1x1
  slices_S32x32_o23_17_S1x1 : S32x32.Slices ![23, 17] S1x1
  slices_S32x32_o23_18_S1x1 : S32x32.Slices ![23, 18] S1x1
  slices_S32x32_o23_19_S1x1 : S32x32.Slices ![23, 19] S1x1
  slices_S32x32_o23_20_S1x1 : S32x32.Slices ![23, 20] S1x1
  slices_S32x32_o23_21_S1x1 : S32x32.Slices ![23, 21] S1x1
  slices_S32x32_o23_22_S1x1 : S32x32.Slices ![23, 22] S1x1
  slices_S32x32_o23_23_S1x1 : S32x32.Slices ![23, 23] S1x1
  slices_S32x32_o23_24_S1x1 : S32x32.Slices ![23, 24] S1x1
  slices_S32x32_o23_25_S1x1 : S32x32.Slices ![23, 25] S1x1
  slices_S32x32_o23_26_S1x1 : S32x32.Slices ![23, 26] S1x1
  slices_S32x32_o23_27_S1x1 : S32x32.Slices ![23, 27] S1x1
  slices_S32x32_o23_28_S1x1 : S32x32.Slices ![23, 28] S1x1
  slices_S32x32_o23_29_S1x1 : S32x32.Slices ![23, 29] S1x1
  slices_S32x32_o23_30_S1x1 : S32x32.Slices ![23, 30] S1x1
  slices_S32x32_o23_31_S1x1 : S32x32.Slices ![23, 31] S1x1
  slices_S32_o23_S1 : S32.Slices ![23] S1
  inb_S1x32x128x128_S1x1x128x128_0_23_0_0 : ∀ a, (![0, 23, 0, 0] : Fin 4 → Nat) a + S1x1x128x128.size a ≤ S1x32x128x128.size a
  slices_S32x32_o24_0_S1x1 : S32x32.Slices ![24, 0] S1x1
  slices_S32x32_o24_1_S1x1 : S32x32.Slices ![24, 1] S1x1
  slices_S32x32_o24_2_S1x1 : S32x32.Slices ![24, 2] S1x1
  slices_S32x32_o24_3_S1x1 : S32x32.Slices ![24, 3] S1x1
  slices_S32x32_o24_4_S1x1 : S32x32.Slices ![24, 4] S1x1
  slices_S32x32_o24_5_S1x1 : S32x32.Slices ![24, 5] S1x1
  slices_S32x32_o24_6_S1x1 : S32x32.Slices ![24, 6] S1x1
  slices_S32x32_o24_7_S1x1 : S32x32.Slices ![24, 7] S1x1
  slices_S32x32_o24_8_S1x1 : S32x32.Slices ![24, 8] S1x1
  slices_S32x32_o24_9_S1x1 : S32x32.Slices ![24, 9] S1x1
  slices_S32x32_o24_10_S1x1 : S32x32.Slices ![24, 10] S1x1
  slices_S32x32_o24_11_S1x1 : S32x32.Slices ![24, 11] S1x1
  slices_S32x32_o24_12_S1x1 : S32x32.Slices ![24, 12] S1x1
  slices_S32x32_o24_13_S1x1 : S32x32.Slices ![24, 13] S1x1
  slices_S32x32_o24_14_S1x1 : S32x32.Slices ![24, 14] S1x1
  slices_S32x32_o24_15_S1x1 : S32x32.Slices ![24, 15] S1x1
  slices_S32x32_o24_16_S1x1 : S32x32.Slices ![24, 16] S1x1
  slices_S32x32_o24_17_S1x1 : S32x32.Slices ![24, 17] S1x1
  slices_S32x32_o24_18_S1x1 : S32x32.Slices ![24, 18] S1x1
  slices_S32x32_o24_19_S1x1 : S32x32.Slices ![24, 19] S1x1
  slices_S32x32_o24_20_S1x1 : S32x32.Slices ![24, 20] S1x1
  slices_S32x32_o24_21_S1x1 : S32x32.Slices ![24, 21] S1x1
  slices_S32x32_o24_22_S1x1 : S32x32.Slices ![24, 22] S1x1
  slices_S32x32_o24_23_S1x1 : S32x32.Slices ![24, 23] S1x1
  slices_S32x32_o24_24_S1x1 : S32x32.Slices ![24, 24] S1x1
  slices_S32x32_o24_25_S1x1 : S32x32.Slices ![24, 25] S1x1
  slices_S32x32_o24_26_S1x1 : S32x32.Slices ![24, 26] S1x1
  slices_S32x32_o24_27_S1x1 : S32x32.Slices ![24, 27] S1x1
  slices_S32x32_o24_28_S1x1 : S32x32.Slices ![24, 28] S1x1
  slices_S32x32_o24_29_S1x1 : S32x32.Slices ![24, 29] S1x1
  slices_S32x32_o24_30_S1x1 : S32x32.Slices ![24, 30] S1x1
  slices_S32x32_o24_31_S1x1 : S32x32.Slices ![24, 31] S1x1
  slices_S32_o24_S1 : S32.Slices ![24] S1
  inb_S1x32x128x128_S1x1x128x128_0_24_0_0 : ∀ a, (![0, 24, 0, 0] : Fin 4 → Nat) a + S1x1x128x128.size a ≤ S1x32x128x128.size a
  slices_S32x32_o25_0_S1x1 : S32x32.Slices ![25, 0] S1x1
  slices_S32x32_o25_1_S1x1 : S32x32.Slices ![25, 1] S1x1
  slices_S32x32_o25_2_S1x1 : S32x32.Slices ![25, 2] S1x1
  slices_S32x32_o25_3_S1x1 : S32x32.Slices ![25, 3] S1x1
  slices_S32x32_o25_4_S1x1 : S32x32.Slices ![25, 4] S1x1
  slices_S32x32_o25_5_S1x1 : S32x32.Slices ![25, 5] S1x1
  slices_S32x32_o25_6_S1x1 : S32x32.Slices ![25, 6] S1x1
  slices_S32x32_o25_7_S1x1 : S32x32.Slices ![25, 7] S1x1
  slices_S32x32_o25_8_S1x1 : S32x32.Slices ![25, 8] S1x1
  slices_S32x32_o25_9_S1x1 : S32x32.Slices ![25, 9] S1x1
  slices_S32x32_o25_10_S1x1 : S32x32.Slices ![25, 10] S1x1
  slices_S32x32_o25_11_S1x1 : S32x32.Slices ![25, 11] S1x1
  slices_S32x32_o25_12_S1x1 : S32x32.Slices ![25, 12] S1x1
  slices_S32x32_o25_13_S1x1 : S32x32.Slices ![25, 13] S1x1
  slices_S32x32_o25_14_S1x1 : S32x32.Slices ![25, 14] S1x1
  slices_S32x32_o25_15_S1x1 : S32x32.Slices ![25, 15] S1x1
  slices_S32x32_o25_16_S1x1 : S32x32.Slices ![25, 16] S1x1
  slices_S32x32_o25_17_S1x1 : S32x32.Slices ![25, 17] S1x1
  slices_S32x32_o25_18_S1x1 : S32x32.Slices ![25, 18] S1x1
  slices_S32x32_o25_19_S1x1 : S32x32.Slices ![25, 19] S1x1
  slices_S32x32_o25_20_S1x1 : S32x32.Slices ![25, 20] S1x1
  slices_S32x32_o25_21_S1x1 : S32x32.Slices ![25, 21] S1x1
  slices_S32x32_o25_22_S1x1 : S32x32.Slices ![25, 22] S1x1
  slices_S32x32_o25_23_S1x1 : S32x32.Slices ![25, 23] S1x1
  slices_S32x32_o25_24_S1x1 : S32x32.Slices ![25, 24] S1x1
  slices_S32x32_o25_25_S1x1 : S32x32.Slices ![25, 25] S1x1
  slices_S32x32_o25_26_S1x1 : S32x32.Slices ![25, 26] S1x1
  slices_S32x32_o25_27_S1x1 : S32x32.Slices ![25, 27] S1x1
  slices_S32x32_o25_28_S1x1 : S32x32.Slices ![25, 28] S1x1
  slices_S32x32_o25_29_S1x1 : S32x32.Slices ![25, 29] S1x1
  slices_S32x32_o25_30_S1x1 : S32x32.Slices ![25, 30] S1x1
  slices_S32x32_o25_31_S1x1 : S32x32.Slices ![25, 31] S1x1
  slices_S32_o25_S1 : S32.Slices ![25] S1
  inb_S1x32x128x128_S1x1x128x128_0_25_0_0 : ∀ a, (![0, 25, 0, 0] : Fin 4 → Nat) a + S1x1x128x128.size a ≤ S1x32x128x128.size a
  slices_S32x32_o26_0_S1x1 : S32x32.Slices ![26, 0] S1x1
  slices_S32x32_o26_1_S1x1 : S32x32.Slices ![26, 1] S1x1
  slices_S32x32_o26_2_S1x1 : S32x32.Slices ![26, 2] S1x1
  slices_S32x32_o26_3_S1x1 : S32x32.Slices ![26, 3] S1x1
  slices_S32x32_o26_4_S1x1 : S32x32.Slices ![26, 4] S1x1
  slices_S32x32_o26_5_S1x1 : S32x32.Slices ![26, 5] S1x1
  slices_S32x32_o26_6_S1x1 : S32x32.Slices ![26, 6] S1x1
  slices_S32x32_o26_7_S1x1 : S32x32.Slices ![26, 7] S1x1
  slices_S32x32_o26_8_S1x1 : S32x32.Slices ![26, 8] S1x1
  slices_S32x32_o26_9_S1x1 : S32x32.Slices ![26, 9] S1x1
  slices_S32x32_o26_10_S1x1 : S32x32.Slices ![26, 10] S1x1
  slices_S32x32_o26_11_S1x1 : S32x32.Slices ![26, 11] S1x1
  slices_S32x32_o26_12_S1x1 : S32x32.Slices ![26, 12] S1x1
  slices_S32x32_o26_13_S1x1 : S32x32.Slices ![26, 13] S1x1
  slices_S32x32_o26_14_S1x1 : S32x32.Slices ![26, 14] S1x1
  slices_S32x32_o26_15_S1x1 : S32x32.Slices ![26, 15] S1x1
  slices_S32x32_o26_16_S1x1 : S32x32.Slices ![26, 16] S1x1
  slices_S32x32_o26_17_S1x1 : S32x32.Slices ![26, 17] S1x1
  slices_S32x32_o26_18_S1x1 : S32x32.Slices ![26, 18] S1x1
  slices_S32x32_o26_19_S1x1 : S32x32.Slices ![26, 19] S1x1
  slices_S32x32_o26_20_S1x1 : S32x32.Slices ![26, 20] S1x1
  slices_S32x32_o26_21_S1x1 : S32x32.Slices ![26, 21] S1x1
  slices_S32x32_o26_22_S1x1 : S32x32.Slices ![26, 22] S1x1
  slices_S32x32_o26_23_S1x1 : S32x32.Slices ![26, 23] S1x1
  slices_S32x32_o26_24_S1x1 : S32x32.Slices ![26, 24] S1x1
  slices_S32x32_o26_25_S1x1 : S32x32.Slices ![26, 25] S1x1
  slices_S32x32_o26_26_S1x1 : S32x32.Slices ![26, 26] S1x1
  slices_S32x32_o26_27_S1x1 : S32x32.Slices ![26, 27] S1x1
  slices_S32x32_o26_28_S1x1 : S32x32.Slices ![26, 28] S1x1
  slices_S32x32_o26_29_S1x1 : S32x32.Slices ![26, 29] S1x1
  slices_S32x32_o26_30_S1x1 : S32x32.Slices ![26, 30] S1x1
  slices_S32x32_o26_31_S1x1 : S32x32.Slices ![26, 31] S1x1
  slices_S32_o26_S1 : S32.Slices ![26] S1
  inb_S1x32x128x128_S1x1x128x128_0_26_0_0 : ∀ a, (![0, 26, 0, 0] : Fin 4 → Nat) a + S1x1x128x128.size a ≤ S1x32x128x128.size a
  slices_S32x32_o27_0_S1x1 : S32x32.Slices ![27, 0] S1x1
  slices_S32x32_o27_1_S1x1 : S32x32.Slices ![27, 1] S1x1
  slices_S32x32_o27_2_S1x1 : S32x32.Slices ![27, 2] S1x1
  slices_S32x32_o27_3_S1x1 : S32x32.Slices ![27, 3] S1x1
  slices_S32x32_o27_4_S1x1 : S32x32.Slices ![27, 4] S1x1
  slices_S32x32_o27_5_S1x1 : S32x32.Slices ![27, 5] S1x1
  slices_S32x32_o27_6_S1x1 : S32x32.Slices ![27, 6] S1x1
  slices_S32x32_o27_7_S1x1 : S32x32.Slices ![27, 7] S1x1
  slices_S32x32_o27_8_S1x1 : S32x32.Slices ![27, 8] S1x1
  slices_S32x32_o27_9_S1x1 : S32x32.Slices ![27, 9] S1x1
  slices_S32x32_o27_10_S1x1 : S32x32.Slices ![27, 10] S1x1
  slices_S32x32_o27_11_S1x1 : S32x32.Slices ![27, 11] S1x1
  slices_S32x32_o27_12_S1x1 : S32x32.Slices ![27, 12] S1x1
  slices_S32x32_o27_13_S1x1 : S32x32.Slices ![27, 13] S1x1
  slices_S32x32_o27_14_S1x1 : S32x32.Slices ![27, 14] S1x1
  slices_S32x32_o27_15_S1x1 : S32x32.Slices ![27, 15] S1x1
  slices_S32x32_o27_16_S1x1 : S32x32.Slices ![27, 16] S1x1
  slices_S32x32_o27_17_S1x1 : S32x32.Slices ![27, 17] S1x1
  slices_S32x32_o27_18_S1x1 : S32x32.Slices ![27, 18] S1x1
  slices_S32x32_o27_19_S1x1 : S32x32.Slices ![27, 19] S1x1
  slices_S32x32_o27_20_S1x1 : S32x32.Slices ![27, 20] S1x1
  slices_S32x32_o27_21_S1x1 : S32x32.Slices ![27, 21] S1x1
  slices_S32x32_o27_22_S1x1 : S32x32.Slices ![27, 22] S1x1
  slices_S32x32_o27_23_S1x1 : S32x32.Slices ![27, 23] S1x1
  slices_S32x32_o27_24_S1x1 : S32x32.Slices ![27, 24] S1x1
  slices_S32x32_o27_25_S1x1 : S32x32.Slices ![27, 25] S1x1
  slices_S32x32_o27_26_S1x1 : S32x32.Slices ![27, 26] S1x1
  slices_S32x32_o27_27_S1x1 : S32x32.Slices ![27, 27] S1x1
  slices_S32x32_o27_28_S1x1 : S32x32.Slices ![27, 28] S1x1
  slices_S32x32_o27_29_S1x1 : S32x32.Slices ![27, 29] S1x1
  slices_S32x32_o27_30_S1x1 : S32x32.Slices ![27, 30] S1x1
  slices_S32x32_o27_31_S1x1 : S32x32.Slices ![27, 31] S1x1
  slices_S32_o27_S1 : S32.Slices ![27] S1
  inb_S1x32x128x128_S1x1x128x128_0_27_0_0 : ∀ a, (![0, 27, 0, 0] : Fin 4 → Nat) a + S1x1x128x128.size a ≤ S1x32x128x128.size a
  slices_S32x32_o28_0_S1x1 : S32x32.Slices ![28, 0] S1x1
  slices_S32x32_o28_1_S1x1 : S32x32.Slices ![28, 1] S1x1

class Shapes2.Facts₀ : Prop where
  slices_S32x32_o28_2_S1x1 : S32x32.Slices ![28, 2] S1x1
  slices_S32x32_o28_3_S1x1 : S32x32.Slices ![28, 3] S1x1
  slices_S32x32_o28_4_S1x1 : S32x32.Slices ![28, 4] S1x1
  slices_S32x32_o28_5_S1x1 : S32x32.Slices ![28, 5] S1x1
  slices_S32x32_o28_6_S1x1 : S32x32.Slices ![28, 6] S1x1
  slices_S32x32_o28_7_S1x1 : S32x32.Slices ![28, 7] S1x1
  slices_S32x32_o28_8_S1x1 : S32x32.Slices ![28, 8] S1x1
  slices_S32x32_o28_9_S1x1 : S32x32.Slices ![28, 9] S1x1
  slices_S32x32_o28_10_S1x1 : S32x32.Slices ![28, 10] S1x1
  slices_S32x32_o28_11_S1x1 : S32x32.Slices ![28, 11] S1x1
  slices_S32x32_o28_12_S1x1 : S32x32.Slices ![28, 12] S1x1
  slices_S32x32_o28_13_S1x1 : S32x32.Slices ![28, 13] S1x1
  slices_S32x32_o28_14_S1x1 : S32x32.Slices ![28, 14] S1x1
  slices_S32x32_o28_15_S1x1 : S32x32.Slices ![28, 15] S1x1
  slices_S32x32_o28_16_S1x1 : S32x32.Slices ![28, 16] S1x1
  slices_S32x32_o28_17_S1x1 : S32x32.Slices ![28, 17] S1x1
  slices_S32x32_o28_18_S1x1 : S32x32.Slices ![28, 18] S1x1
  slices_S32x32_o28_19_S1x1 : S32x32.Slices ![28, 19] S1x1
  slices_S32x32_o28_20_S1x1 : S32x32.Slices ![28, 20] S1x1
  slices_S32x32_o28_21_S1x1 : S32x32.Slices ![28, 21] S1x1
  slices_S32x32_o28_22_S1x1 : S32x32.Slices ![28, 22] S1x1
  slices_S32x32_o28_23_S1x1 : S32x32.Slices ![28, 23] S1x1
  slices_S32x32_o28_24_S1x1 : S32x32.Slices ![28, 24] S1x1
  slices_S32x32_o28_25_S1x1 : S32x32.Slices ![28, 25] S1x1
  slices_S32x32_o28_26_S1x1 : S32x32.Slices ![28, 26] S1x1
  slices_S32x32_o28_27_S1x1 : S32x32.Slices ![28, 27] S1x1
  slices_S32x32_o28_28_S1x1 : S32x32.Slices ![28, 28] S1x1
  slices_S32x32_o28_29_S1x1 : S32x32.Slices ![28, 29] S1x1
  slices_S32x32_o28_30_S1x1 : S32x32.Slices ![28, 30] S1x1
  slices_S32x32_o28_31_S1x1 : S32x32.Slices ![28, 31] S1x1
  slices_S32_o28_S1 : S32.Slices ![28] S1
  inb_S1x32x128x128_S1x1x128x128_0_28_0_0 : ∀ a, (![0, 28, 0, 0] : Fin 4 → Nat) a + S1x1x128x128.size a ≤ S1x32x128x128.size a
  slices_S32x32_o29_0_S1x1 : S32x32.Slices ![29, 0] S1x1
  slices_S32x32_o29_1_S1x1 : S32x32.Slices ![29, 1] S1x1
  slices_S32x32_o29_2_S1x1 : S32x32.Slices ![29, 2] S1x1
  slices_S32x32_o29_3_S1x1 : S32x32.Slices ![29, 3] S1x1
  slices_S32x32_o29_4_S1x1 : S32x32.Slices ![29, 4] S1x1
  slices_S32x32_o29_5_S1x1 : S32x32.Slices ![29, 5] S1x1
  slices_S32x32_o29_6_S1x1 : S32x32.Slices ![29, 6] S1x1
  slices_S32x32_o29_7_S1x1 : S32x32.Slices ![29, 7] S1x1
  slices_S32x32_o29_8_S1x1 : S32x32.Slices ![29, 8] S1x1
  slices_S32x32_o29_9_S1x1 : S32x32.Slices ![29, 9] S1x1
  slices_S32x32_o29_10_S1x1 : S32x32.Slices ![29, 10] S1x1
  slices_S32x32_o29_11_S1x1 : S32x32.Slices ![29, 11] S1x1
  slices_S32x32_o29_12_S1x1 : S32x32.Slices ![29, 12] S1x1
  slices_S32x32_o29_13_S1x1 : S32x32.Slices ![29, 13] S1x1
  slices_S32x32_o29_14_S1x1 : S32x32.Slices ![29, 14] S1x1
  slices_S32x32_o29_15_S1x1 : S32x32.Slices ![29, 15] S1x1
  slices_S32x32_o29_16_S1x1 : S32x32.Slices ![29, 16] S1x1
  slices_S32x32_o29_17_S1x1 : S32x32.Slices ![29, 17] S1x1
  slices_S32x32_o29_18_S1x1 : S32x32.Slices ![29, 18] S1x1
  slices_S32x32_o29_19_S1x1 : S32x32.Slices ![29, 19] S1x1
  slices_S32x32_o29_20_S1x1 : S32x32.Slices ![29, 20] S1x1
  slices_S32x32_o29_21_S1x1 : S32x32.Slices ![29, 21] S1x1
  slices_S32x32_o29_22_S1x1 : S32x32.Slices ![29, 22] S1x1
  slices_S32x32_o29_23_S1x1 : S32x32.Slices ![29, 23] S1x1
  slices_S32x32_o29_24_S1x1 : S32x32.Slices ![29, 24] S1x1
  slices_S32x32_o29_25_S1x1 : S32x32.Slices ![29, 25] S1x1
  slices_S32x32_o29_26_S1x1 : S32x32.Slices ![29, 26] S1x1
  slices_S32x32_o29_27_S1x1 : S32x32.Slices ![29, 27] S1x1
  slices_S32x32_o29_28_S1x1 : S32x32.Slices ![29, 28] S1x1
  slices_S32x32_o29_29_S1x1 : S32x32.Slices ![29, 29] S1x1
  slices_S32x32_o29_30_S1x1 : S32x32.Slices ![29, 30] S1x1
  slices_S32x32_o29_31_S1x1 : S32x32.Slices ![29, 31] S1x1
  slices_S32_o29_S1 : S32.Slices ![29] S1
  inb_S1x32x128x128_S1x1x128x128_0_29_0_0 : ∀ a, (![0, 29, 0, 0] : Fin 4 → Nat) a + S1x1x128x128.size a ≤ S1x32x128x128.size a
  slices_S32x32_o30_0_S1x1 : S32x32.Slices ![30, 0] S1x1
  slices_S32x32_o30_1_S1x1 : S32x32.Slices ![30, 1] S1x1
  slices_S32x32_o30_2_S1x1 : S32x32.Slices ![30, 2] S1x1
  slices_S32x32_o30_3_S1x1 : S32x32.Slices ![30, 3] S1x1
  slices_S32x32_o30_4_S1x1 : S32x32.Slices ![30, 4] S1x1
  slices_S32x32_o30_5_S1x1 : S32x32.Slices ![30, 5] S1x1
  slices_S32x32_o30_6_S1x1 : S32x32.Slices ![30, 6] S1x1
  slices_S32x32_o30_7_S1x1 : S32x32.Slices ![30, 7] S1x1
  slices_S32x32_o30_8_S1x1 : S32x32.Slices ![30, 8] S1x1
  slices_S32x32_o30_9_S1x1 : S32x32.Slices ![30, 9] S1x1
  slices_S32x32_o30_10_S1x1 : S32x32.Slices ![30, 10] S1x1
  slices_S32x32_o30_11_S1x1 : S32x32.Slices ![30, 11] S1x1
  slices_S32x32_o30_12_S1x1 : S32x32.Slices ![30, 12] S1x1
  slices_S32x32_o30_13_S1x1 : S32x32.Slices ![30, 13] S1x1
  slices_S32x32_o30_14_S1x1 : S32x32.Slices ![30, 14] S1x1
  slices_S32x32_o30_15_S1x1 : S32x32.Slices ![30, 15] S1x1
  slices_S32x32_o30_16_S1x1 : S32x32.Slices ![30, 16] S1x1
  slices_S32x32_o30_17_S1x1 : S32x32.Slices ![30, 17] S1x1
  slices_S32x32_o30_18_S1x1 : S32x32.Slices ![30, 18] S1x1
  slices_S32x32_o30_19_S1x1 : S32x32.Slices ![30, 19] S1x1
  slices_S32x32_o30_20_S1x1 : S32x32.Slices ![30, 20] S1x1
  slices_S32x32_o30_21_S1x1 : S32x32.Slices ![30, 21] S1x1
  slices_S32x32_o30_22_S1x1 : S32x32.Slices ![30, 22] S1x1
  slices_S32x32_o30_23_S1x1 : S32x32.Slices ![30, 23] S1x1
  slices_S32x32_o30_24_S1x1 : S32x32.Slices ![30, 24] S1x1
  slices_S32x32_o30_25_S1x1 : S32x32.Slices ![30, 25] S1x1
  slices_S32x32_o30_26_S1x1 : S32x32.Slices ![30, 26] S1x1
  slices_S32x32_o30_27_S1x1 : S32x32.Slices ![30, 27] S1x1
  slices_S32x32_o30_28_S1x1 : S32x32.Slices ![30, 28] S1x1
  slices_S32x32_o30_29_S1x1 : S32x32.Slices ![30, 29] S1x1
  slices_S32x32_o30_30_S1x1 : S32x32.Slices ![30, 30] S1x1
  slices_S32x32_o30_31_S1x1 : S32x32.Slices ![30, 31] S1x1
  slices_S32_o30_S1 : S32.Slices ![30] S1
  inb_S1x32x128x128_S1x1x128x128_0_30_0_0 : ∀ a, (![0, 30, 0, 0] : Fin 4 → Nat) a + S1x1x128x128.size a ≤ S1x32x128x128.size a
  slices_S32x32_o31_0_S1x1 : S32x32.Slices ![31, 0] S1x1
  slices_S32x32_o31_1_S1x1 : S32x32.Slices ![31, 1] S1x1
  slices_S32x32_o31_2_S1x1 : S32x32.Slices ![31, 2] S1x1
  slices_S32x32_o31_3_S1x1 : S32x32.Slices ![31, 3] S1x1
  slices_S32x32_o31_4_S1x1 : S32x32.Slices ![31, 4] S1x1
  slices_S32x32_o31_5_S1x1 : S32x32.Slices ![31, 5] S1x1
  slices_S32x32_o31_6_S1x1 : S32x32.Slices ![31, 6] S1x1
  slices_S32x32_o31_7_S1x1 : S32x32.Slices ![31, 7] S1x1
  slices_S32x32_o31_8_S1x1 : S32x32.Slices ![31, 8] S1x1
  slices_S32x32_o31_9_S1x1 : S32x32.Slices ![31, 9] S1x1
  slices_S32x32_o31_10_S1x1 : S32x32.Slices ![31, 10] S1x1
  slices_S32x32_o31_11_S1x1 : S32x32.Slices ![31, 11] S1x1
  slices_S32x32_o31_12_S1x1 : S32x32.Slices ![31, 12] S1x1
  slices_S32x32_o31_13_S1x1 : S32x32.Slices ![31, 13] S1x1
  slices_S32x32_o31_14_S1x1 : S32x32.Slices ![31, 14] S1x1
  slices_S32x32_o31_15_S1x1 : S32x32.Slices ![31, 15] S1x1
  slices_S32x32_o31_16_S1x1 : S32x32.Slices ![31, 16] S1x1
  slices_S32x32_o31_17_S1x1 : S32x32.Slices ![31, 17] S1x1
  slices_S32x32_o31_18_S1x1 : S32x32.Slices ![31, 18] S1x1
  slices_S32x32_o31_19_S1x1 : S32x32.Slices ![31, 19] S1x1
  slices_S32x32_o31_20_S1x1 : S32x32.Slices ![31, 20] S1x1
  slices_S32x32_o31_21_S1x1 : S32x32.Slices ![31, 21] S1x1
  slices_S32x32_o31_22_S1x1 : S32x32.Slices ![31, 22] S1x1
  slices_S32x32_o31_23_S1x1 : S32x32.Slices ![31, 23] S1x1
  slices_S32x32_o31_24_S1x1 : S32x32.Slices ![31, 24] S1x1
  slices_S32x32_o31_25_S1x1 : S32x32.Slices ![31, 25] S1x1
  slices_S32x32_o31_26_S1x1 : S32x32.Slices ![31, 26] S1x1
  slices_S32x32_o31_27_S1x1 : S32x32.Slices ![31, 27] S1x1
  slices_S32x32_o31_28_S1x1 : S32x32.Slices ![31, 28] S1x1
  slices_S32x32_o31_29_S1x1 : S32x32.Slices ![31, 29] S1x1
  slices_S32x32_o31_30_S1x1 : S32x32.Slices ![31, 30] S1x1
  slices_S32x32_o31_31_S1x1 : S32x32.Slices ![31, 31] S1x1
  slices_S32_o31_S1 : S32.Slices ![31] S1
  inb_S1x32x128x128_S1x1x128x128_0_31_0_0 : ∀ a, (![0, 31, 0, 0] : Fin 4 → Nat) a + S1x1x128x128.size a ≤ S1x32x128x128.size a

class Facts₀ : Prop where
  k0 : K0.Facts₀
  shapes1 : Shapes1.Facts₀
  shapes2 : Shapes2.Facts₀
attribute [instance] Facts₀.k0 Facts₀.shapes1 Facts₀.shapes2

variable [Facts₀]

abbrev win0_0 : Pipeline.Window sig grid0 :=
  Pipeline.Window.ofSpec (Memref.whole main_arg0) S1x32x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S32x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v17) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v18) S1x32x128x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x32x128x128 : Shape := ⟨4, ![8, 32, 128, 128]⟩
abbrev S32x32 : Shape := ⟨2, ![32, 32]⟩
abbrev S32 : Shape := ⟨1, ![32]⟩
abbrev S8x1x32x128x128 : Shape := ⟨5, ![8, 1, 32, 128, 128]⟩
abbrev S1x32x32x1x1 : Shape := ⟨5, ![1, 32, 32, 1, 1]⟩
abbrev S8x32x32x128x128 : Shape := ⟨5, ![8, 32, 32, 128, 128]⟩
abbrev S_ : Shape := ⟨0, ![]⟩
abbrev S1x32x1x1 : Shape := ⟨4, ![1, 32, 1, 1]⟩

abbrev nBuf : Space → Nat
  | .hbm => 64
  | .vmem => 0
  | .smem => 0
  | _ => 0

abbrev bufTy : (tb : Table) → Fin (tcTables nBuf tb) → BufTy
  | .hbm, ⟨0, _⟩ => ⟨S8x32x128x128, .f32⟩
  | .hbm, ⟨1, _⟩ => ⟨S32x32, .f32⟩
  | .hbm, ⟨2, _⟩ => ⟨S32x32, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S8x1x32x128x128, .f32⟩
  | .hbm, ⟨12, _⟩ => ⟨S1x32x32x1x1, .f32⟩
  | .hbm, ⟨13, _⟩ => ⟨S8x32x32x128x128, .f32⟩
  | .hbm, ⟨14, _⟩ => ⟨S8x32x32x128x128, .f32⟩
  | .hbm, ⟨15, _⟩ => ⟨S8x32x32x128x128, .f32⟩
  | .hbm, ⟨16, _⟩ => ⟨S8x32x32x128x128, .f32⟩
  | .hbm, ⟨17, _⟩ => ⟨S_, .f32⟩
  | .hbm, ⟨18, _⟩ => ⟨S8x32x128x128, .f32⟩
  | .hbm, ⟨19, _⟩ => ⟨S8x32x128x128, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S32, .f32⟩
  | .hbm, ⟨24, _⟩ => ⟨S1x32x1x1, .f32⟩
  | .hbm, ⟨25, _⟩ => ⟨S8x32x128x128, .f32⟩
  | .hbm, ⟨26, _⟩ => ⟨S8x32x128x128, .f32⟩
  | .hbm, ⟨27, _⟩ => ⟨S32, .f32⟩
  | .hbm, ⟨28, _⟩ => ⟨S1x32x1x1, .f32⟩
  | .hbm, ⟨29, _⟩ => ⟨S8x32x128x128, .f32⟩
  | .hbm, ⟨30, _⟩ => ⟨S8x32x128x128, .f32⟩
  | .hbm, ⟨31, _⟩ => ⟨S1x32x1x1, .f32⟩
  | .hbm, ⟨32, _⟩ => ⟨S8x32x128x128, .f32⟩
  | .hbm, ⟨33, _⟩ => ⟨S8x32x128x128, .f32⟩
  | .hbm, ⟨34, _⟩ => ⟨S_, .f32⟩
  | .hbm, ⟨35, _⟩ => ⟨S8x32x128x128, .f32⟩
  | .hbm, ⟨36, _⟩ => ⟨S8x32x128x128, .f32⟩
  | .hbm, ⟨37, _⟩ => ⟨S8x1x32x128x128, .f32⟩
  | .hbm, ⟨38, _⟩ => ⟨S1x32x32x1x1, .f32⟩
  | .hbm, ⟨39, _⟩ => ⟨S8x32x32x128x128, .f32⟩
  | .hbm, ⟨40, _⟩ => ⟨S8x32x32x128x128, .f32⟩
  | .hbm, ⟨41, _⟩ => ⟨S8x32x32x128x128, .f32⟩
  | .hbm, ⟨42, _⟩ => ⟨S8x32x32x128x128, .f32⟩
  | .hbm, ⟨43, _⟩ => ⟨S_, .f32⟩
  | .hbm, ⟨44, _⟩ => ⟨S8x32x128x128, .f32⟩
  | .hbm, ⟨45, _⟩ => ⟨S8x32x128x128, .f32⟩
  | .hbm, ⟨46, _⟩ => ⟨S_, .f32⟩
  | .hbm, ⟨47, _⟩ => ⟨S32, .f32⟩
  | .hbm, ⟨48, _⟩ => ⟨S32, .f32⟩
  | .hbm, ⟨49, _⟩ => ⟨S32, .f32⟩
  | .hbm, ⟨50, _⟩ => ⟨S1x32x1x1, .f32⟩
  | .hbm, ⟨51, _⟩ => ⟨S8x32x128x128, .f32⟩
  | .hbm, ⟨52, _⟩ => ⟨S8x32x128x128, .f32⟩
  | .hbm, ⟨53, _⟩ => ⟨S32, .f32⟩
  | .hbm, ⟨54, _⟩ => ⟨S1x32x1x1, .f32⟩
  | .hbm, ⟨55, _⟩ => ⟨S8x32x128x128, .f32⟩
  | .hbm, ⟨56, _⟩ => ⟨S8x32x128x128, .f32⟩
  | .hbm, ⟨57, _⟩ => ⟨S1x32x1x1, .f32⟩
  | .hbm, ⟨58, _⟩ => ⟨S8x32x128x128, .f32⟩
  | .hbm, ⟨59, _⟩ => ⟨S8x32x128x128, .f32⟩
  | .hbm, ⟨60, _⟩ => ⟨S8x32x128x128, .f32⟩
  | .hbm, ⟨61, _⟩ => ⟨S_, .f32⟩
  | .hbm, ⟨62, _⟩ => ⟨S8x32x128x128, .f32⟩
  | .hbm, ⟨63, _⟩ => ⟨S8x32x128x128, .f32⟩
  | _, _ => ⟨S8x32x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst : Ref sig .tc := ⟨.hbm, 17, rfl⟩
abbrev main_v6 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_call0_cst : Ref sig .tc := ⟨.hbm, 34, rfl⟩
abbrev main_call0_v0 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_cst_2 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_call1_cst : Ref sig .tc := ⟨.hbm, 61, rfl⟩
abbrev main_call1_v0 : Ref sig .tc := ⟨.hbm, 62, rfl⟩
abbrev main_v44 : Ref sig .tc := ⟨.hbm, 63, rfl⟩

abbrev nD : Nat := 1
abbrev τ : Topo := Topo.v7x

variable {F : FTy → Type} [FloatOps F]

class Facts₀ : Prop where
  bcast_S8x32x128x128_S8x1x32x128x128_0_2_3_4 : S8x32x128x128.BroadcastsInDim S8x1x32x128x128 (![0, 2, 3, 4] : Fin 4 → Fin S8x1x32x128x128.rank)
  bcast_S32x32_S1x32x32x1x1_1_2 : S32x32.BroadcastsInDim S1x32x32x1x1 (![1, 2] : Fin 2 → Fin S1x32x32x1x1.rank)
  bcast_S8x1x32x128x128_S8x32x32x128x128_0_1_2_3_4 : S8x1x32x128x128.BroadcastsInDim S8x32x32x128x128 (![0, 1, 2, 3, 4] : Fin 5 → Fin S8x32x32x128x128.rank)
  bcast_S1x32x32x1x1_S8x32x32x128x128_0_1_2_3_4 : S1x32x32x1x1.BroadcastsInDim S8x32x32x128x128 (![0, 1, 2, 3, 4] : Fin 5 → Fin S8x32x32x128x128.rank)
  reducesTo_S8x32x32x128x128_S8x32x128x128_d2 : S8x32x32x128x128.ReducesTo [2] S8x32x128x128
  h_S_ : 0 < S_.numel
  bcast_S_S32 : S_.BroadcastsInDim S32 (![] : Fin 0 → Fin S32.rank)
  bcast_S32_S1x32x1x1_1 : S32.BroadcastsInDim S1x32x1x1 (![1] : Fin 1 → Fin S1x32x1x1.rank)
  bcast_S1x32x1x1_S8x32x128x128_0_1_2_3 : S1x32x1x1.BroadcastsInDim S8x32x128x128 (![0, 1, 2, 3] : Fin 4 → Fin S8x32x128x128.rank)
  bcast_S_S8x32x128x128 : S_.BroadcastsInDim S8x32x128x128 (![] : Fin 0 → Fin S8x32x128x128.rank)

variable [Facts₀]

class Facts : Prop extends Facts₀ where

variable [Facts]
-- ==== Proof.PixelSpec.lean ====
/-
  The mathematics of one pixel of the residual block, on the extended reals, free of any program.

  At a pixel the block sees the 32 channel values `X ci`.  A stage takes, per output channel `co`, the L1 distance
  `Σ_ci |X ci − W[co, ci]|` to the weight row, negates it, applies a per-channel affine map (the folded batch norm),
  and clamps below at zero; the second stage does the same on the first stage's 32 outputs and adds the residual
  `X co` before the clamp.

  Two spellings of the affine map meet here.  With `inv = rsqrt(var + ε)`:
    * folded:   `(0 − A) · (γ · inv) + (β − (μ · γ) · inv)`
    * unfolded: `(−A − μ) · (γ · inv) + β`
  They are the same real number whenever `A, γ, inv, μ, β` are real (distributivity), which is where the
  finiteness of the inputs and the positivity of `var + ε` are used: on the extended reals the identity fails
  at an infinite `inv`.
-/
import Idealize.ShloMosaic.PureOps.Ideal
import Idealize.ShloMosaic.Lib.ValueIdx

noncomputable section

namespace Cert.Pixel

open Idealize.ShloMosaic Idealize.ShloMosaic.ValueIdx

/-- `|a|` as both programs compute it on the extended reals: the larger of `a` and `−a`. -/
def eabs (a : EReal) : EReal := max a (-a)

/-- Thirty-two terms added from the left onto zero, in the order of the channel index. -/
def lsum (f : Fin 32 → EReal) : EReal :=
  0 + f ⟨0, by decide⟩ + f ⟨1, by decide⟩ + f ⟨2, by decide⟩ + f ⟨3, by decide⟩ + f ⟨4, by decide⟩ + f ⟨5, by decide⟩ + f ⟨6, by decide⟩ + f ⟨7, by decide⟩ + f ⟨8, by decide⟩ + f ⟨9, by decide⟩ + f ⟨10, by decide⟩ + f ⟨11, by decide⟩ + f ⟨12, by decide⟩ + f ⟨13, by decide⟩ + f ⟨14, by decide⟩ + f ⟨15, by decide⟩ + f ⟨16, by decide⟩ + f ⟨17, by decide⟩ + f ⟨18, by decide⟩ + f ⟨19, by decide⟩ + f ⟨20, by decide⟩ + f ⟨21, by decide⟩ + f ⟨22, by decide⟩ + f ⟨23, by decide⟩ + f ⟨24, by decide⟩ + f ⟨25, by decide⟩ + f ⟨26, by decide⟩ + f ⟨27, by decide⟩ + f ⟨28, by decide⟩ + f ⟨29, by decide⟩ + f ⟨30, by decide⟩ + f ⟨31, by decide⟩

/-- The left-to-right sum is the sum over the channel index. -/
theorem lsum_eq_sum (f : Fin 32 → EReal) : lsum f = ∑ k, f k := by
  unfold lsum
  simp only [Fin.sum_univ_castSucc, Fin.sum_univ_zero]
  rfl

/-- An extended real that is a real number. -/
def IsReal (x : EReal) : Prop := ∃ r : ℝ, x = (r : EReal)

theorem isReal_coe (r : ℝ) : IsReal (r : EReal) := ⟨r, rfl⟩
theorem isReal_zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.max {x y : EReal} (hx : IsReal x) (hy : IsReal y) : IsReal (max x y) := by
  rcases le_total x y with h | h
  · rw [max_eq_right h]; exact hy
  · rw [max_eq_left h]; exact hx
theorem IsReal.eabs {x : EReal} (hx : IsReal x) : IsReal (eabs x) := hx.max hx.neg

/-- A left-to-right sum of real numbers is a real number. -/
theorem isReal_lsum {f : Fin 32 → EReal} (hf : ∀ k, IsReal (f k)) : IsReal (lsum f) := by
  unfold lsum
  repeat' first | exact isReal_zero | exact hf _ | apply IsReal.add

/-- THE LAW that joins the two spellings of the folded batch norm: on real numbers,
    `(0 − A)·(γ·inv) + (β − (μ·γ)·inv) = (−A − μ)·(γ·inv) + β`. -/
theorem affine_fold {A g i mu b : EReal} (hA : IsReal A) (hg : IsReal g) (hi : IsReal i) (hmu : IsReal mu) (hb : IsReal b) :
    (0 - A) * (g * i) + (b - (mu * g) * i) = (-A - mu) * (g * i) + b := by
  obtain ⟨A, rfl⟩ := hA; obtain ⟨g, rfl⟩ := hg; obtain ⟨i, rfl⟩ := hi; obtain ⟨mu, rfl⟩ := hmu; obtain ⟨b, rfl⟩ := hb
  have h : (((0 - A) * (g * i) + (b - (mu * g) * i) : ℝ) : EReal) = (((-A - mu) * (g * i) + b : ℝ) : EReal) := by
    congr 1; ring
  simpa only [EReal.coe_add, EReal.coe_sub, EReal.coe_mul, EReal.coe_neg, EReal.coe_zero] using h

/-! ## The two stages at a pixel, in the folded spelling (scale `s`, shift `t` per channel) -/

/-- First stage at output channel `co`: `max((0 − Σ_ci |X ci − W[co,ci]|)·s[co] + t[co], 0)`. -/
def stage1 (X : Fin 32 → EReal) (W : (⟨2, ![32, 32]⟩ : Shape).Idx → EReal) (s t : (⟨2, ![1, 32]⟩ : Shape).Idx → EReal)
    (co : Fin 32) : EReal :=
  max ((0 - lsum fun ci => eabs (X ci - W (ix2 co ci))) * s (ix2 0 co) + t (ix2 0 co)) 0

/-- Second stage at output channel `co`, on first-stage values `Y`, with the residual `r`:
    `max((0 − Σ_ci |Y ci − W[co,ci]|)·s[co] + t[co] + r, 0)`. -/
def stage2 (Y : Fin 32 → EReal) (W : (⟨2, ![32, 32]⟩ : Shape).Idx → EReal) (s t : (⟨2, ![1, 32]⟩ : Shape).Idx → EReal)
    (r : EReal) (co : Fin 32) : EReal :=
  max ((0 - lsum fun ci => eabs (Y ci - W (ix2 co ci))) * s (ix2 0 co) + t (ix2 0 co) + r) 0

/-- The whole block at a pixel: the second stage of the first stage's 32 outputs, residual `X co`. -/
def block (X : Fin 32 → EReal) (W1 : (⟨2, ![32, 32]⟩ : Shape).Idx → EReal) (s1 t1 : (⟨2, ![1, 32]⟩ : Shape).Idx → EReal)
    (W2 : (⟨2, ![32, 32]⟩ : Shape).Idx → EReal) (s2 t2 : (⟨2, ![1, 32]⟩ : Shape).Idx → EReal) (co : Fin 32) : EReal :=
  stage2 (fun ci => stage1 X W1 s1 t1 ci) W2 s2 t2 (X co) co

/-- The block over a whole `[8, 32, 128, 128]` array, index by index. -/
def blockArr (x : (⟨4, ![8, 32, 128, 128]⟩ : Shape).Idx → EReal) (W1 : (⟨2, ![32, 32]⟩ : Shape).Idx → EReal)
    (s1 t1 : (⟨2, ![1, 32]⟩ : Shape).Idx → EReal) (W2 : (⟨2, ![32, 32]⟩ : Shape).Idx → EReal)
    (s2 t2 : (⟨2, ![1, 32]⟩ : Shape).Idx → EReal) : (⟨4, ![8, 32, 128, 128]⟩ : Shape).Idx → EReal :=
  fun i => block (fun ci => x (ix4 (i 0) ci (i 2) (i 3))) W1 s1 t1 W2 s2 t2 (i 1)

/-- A first-stage value is a real number when its inputs are. -/
theorem isReal_stage1 {X : Fin 32 → EReal} {W : (⟨2, ![32, 32]⟩ : Shape).Idx → EReal} {s t : (⟨2, ![1, 32]⟩ : Shape).Idx → EReal}
    (hX : ∀ k, IsReal (X k)) (hW : ∀ j, IsReal (W j)) (hs : ∀ j, IsReal (s j)) (ht : ∀ j, IsReal (t j)) (co : Fin 32) :
    IsReal (stage1 X W s t co) :=
  ((((isReal_zero.sub (isReal_lsum fun k => ((hX k).sub (hW _)).eabs)).mul (hs _)).add (ht _))).max isReal_zero

/-! ## The two stages in the UNFOLDED spelling (mean `μ`, weight `γ`, `inv = rsqrt(var + ε)`, bias `β` per channel) -/

/-- First stage, unfolded: `max((−(0 + Σ_ci |X ci − W[co,ci]|) − μ[co])·(γ[co]·inv[co]) + β[co], 0)`. -/
def ustage1 (X : Fin 32 → EReal) (W : (⟨2, ![32, 32]⟩ : Shape).Idx → EReal) (g bt mu iv : Fin 32 → EReal) (co : Fin 32) : EReal :=
  max ((-(0 + ∑ ci, eabs (X ci - W (ix2 co ci))) - mu co) * (g co * iv co) + bt co) 0

/-- Second stage, unfolded, with the residual `r` added before the clamp. -/
def ustage2 (Y : Fin 32 → EReal) (W : (⟨2, ![32, 32]⟩ : Shape).Idx → EReal) (g bt mu iv : Fin 32 → EReal) (r : EReal)
    (co : Fin 32) : EReal :=
  max ((-(0 + ∑ ci, eabs (Y ci - W (ix2 co ci))) - mu co) * (g co * iv co) + bt co + r) 0

/-- On real data the unfolded first stage is the folded one, for the scale `γ·inv` and the shift `β − (μ·γ)·inv`. -/
theorem ustage1_eq {X : Fin 32 → EReal} {W : (⟨2, ![32, 32]⟩ : Shape).Idx → EReal} {g bt mu iv : Fin 32 → EReal}
    {s t : (⟨2, ![1, 32]⟩ : Shape).Idx → EReal}
    (hX : ∀ k, IsReal (X k)) (hW : ∀ j, IsReal (W j)) (hg : ∀ k, IsReal (g k)) (hb : ∀ k, IsReal (bt k))
    (hmu : ∀ k, IsReal (mu k)) (hiv : ∀ k, IsReal (iv k))
    (hs : ∀ co, s (ix2 0 co) = g co * iv co) (ht : ∀ co, t (ix2 0 co) = bt co - (mu co * g co) * iv co) (co : Fin 32) :
    ustage1 X W g bt mu iv co = stage1 X W s t co := by
  unfold ustage1 stage1
  rw [zero_add, ← lsum_eq_sum, hs, ht,
    affine_fold (isReal_lsum fun k => ((hX k).sub (hW _)).eabs) (hg co) (hiv co) (hmu co) (hb co)]

/-- The same for the second stage; the residual rides along. -/
theorem ustage2_eq {Y : Fin 32 → EReal} {W : (⟨2, ![32, 32]⟩ : Shape).Idx → EReal} {g bt mu iv : Fin 32 → EReal}
    {s t : (⟨2, ![1, 32]⟩ : Shape).Idx → EReal} (r : EReal)
    (hY : ∀ k, IsReal (Y k)) (hW : ∀ j, IsReal (W j)) (hg : ∀ k, IsReal (g k)) (hb : ∀ k, IsReal (bt k))
    (hmu : ∀ k, IsReal (mu k)) (hiv : ∀ k, IsReal (iv k))
    (hs : ∀ co, s (ix2 0 co) = g co * iv co) (ht : ∀ co, t (ix2 0 co) = bt co - (mu co * g co) * iv co) (co : Fin 32) :
    ustage2 Y W g bt mu iv r co = stage2 Y W s t r co := by
  unfold ustage2 stage2
  rw [zero_add, ← lsum_eq_sum, hs, ht,
    affine_fold (isReal_lsum fun k => ((hY k).sub (hW _)).eabs) (hg co) (hiv co) (hmu co) (hb co)]

/-- `rsqrt` of a nonnegative real plus a positive real is a real number. -/
theorem isReal_rsqrt_add {v e : EReal} (hv : ∃ r : ℝ, 0 ≤ r ∧ v = (r : EReal)) (he : ∃ r : ℝ, 0 < r ∧ e = (r : EReal)) :
    IsReal (Ideal.rsqrt (v + e)) := by
  obtain ⟨a, ha, rfl⟩ := hv; obtain ⟨b, hb, rfl⟩ := he
  have hpos : 0 < a + b := by linarith
  rw [← EReal.coe_add, Ideal.rsqrt_coe, if_neg (not_lt.2 hpos.le), if_neg hpos.ne']
  exact isReal_coe _

end Cert.Pixel

end
-- ==== Proof.LaneReads.lean ====
/-
  How the kernel body picks its operands out of the loaded blocks, read at an index.

  The body never indexes: it slices channel `o` out of a `[1, 32, 128, 128]` block and drops the unit axis, it
  slices one weight `W[a, b]` out of the `[32, 32]` matrix and extracts it as a scalar, and it slices entry `o` out of
  a per-channel row (loaded as `[1, 32]`, reshaped to `[32]`) and extracts it.  Each of these, read at a pixel
  `(h, w)`, is the block's element at the evident coordinates.
-/
import Idealize.ShloMosaic.Lib.ValueIdx
import Idealize.ShloMosaic.Lib.ValueLayout
import Idealize.ShloMosaic.Lib.Pipeline.Value

noncomputable section

namespace Cert.LaneReads

open Idealize.ShloMosaic Idealize.ShloMosaic.ValueIdx

variable {α : Type}

/-- A channel offset that a unit slice of the 32 channels admits is below 32. -/
theorem chan_lt {o : ℕ} (hs : (⟨4, ![1, 32, 128, 128]⟩ : Shape).Slices ![0, o, 0, 0] ⟨4, ![1, 1, 128, 128]⟩) : o < 32 :=
  Nat.lt_of_succ_le (show o + 1 ≤ 32 from hs.2 1)

/-- Channel `o` of a block, with the unit channel axis dropped, at pixel `(h, w)` is the block at `(0, o, h, w)`. -/
theorem chan_read (o : ℕ) (v : (⟨4, ![1, 32, 128, 128]⟩ : Shape).Idx → α)
    (hs : (⟨4, ![1, 32, 128, 128]⟩ : Shape).Slices ![0, o, 0, 0] ⟨4, ![1, 1, 128, 128]⟩)
    (hc : (⟨4, ![1, 1, 128, 128]⟩ : Shape).ShapeCasts ⟨3, ![1, 128, 128]⟩) (u : Fin 1) (h w : Fin 128) :
    shapeCast ⟨3, ![1, 128, 128]⟩ (extractStridedSlice ⟨4, ![1, 1, 128, 128]⟩ ![0, o, 0, 0] v hs) hc (ix3 u h w)
      = v (ix4 (0 : Fin 1) ⟨o, chan_lt hs⟩ h w) := by
  obtain rfl : u = 0 := Subsingleton.elim _ _
  rw [shapeCast_1abc_abc_apply]
  exact slice4_axis1_apply o v hs 0 0 h w ⟨o, chan_lt hs⟩ rfl

/-- The same slice kept at rank four (the residual channel). -/
theorem chan_read4 (o : ℕ) (v : (⟨4, ![1, 32, 128, 128]⟩ : Shape).Idx → α)
    (hs : (⟨4, ![1, 32, 128, 128]⟩ : Shape).Slices ![0, o, 0, 0] ⟨4, ![1, 1, 128, 128]⟩) (u u' : Fin 1) (h w : Fin 128) :
    extractStridedSlice ⟨4, ![1, 1, 128, 128]⟩ ![0, o, 0, 0] v hs (ix4 u u' h w) = v (ix4 (0 : Fin 1) ⟨o, chan_lt hs⟩ h w) := by
  obtain rfl : u = 0 := Subsingleton.elim _ _
  obtain rfl : u' = 0 := Subsingleton.elim _ _
  exact slice4_axis1_apply o v hs 0 0 h w ⟨o, chan_lt hs⟩ rfl

theorem row_lt {a b : ℕ} (hs : (⟨2, ![32, 32]⟩ : Shape).Slices ![a, b] ⟨2, ![1, 1]⟩) : a < 32 :=
  Nat.lt_of_succ_le (show a + 1 ≤ 32 from hs.2 0)
theorem col_lt {a b : ℕ} (hs : (⟨2, ![32, 32]⟩ : Shape).Slices ![a, b] ⟨2, ![1, 1]⟩) : b < 32 :=
  Nat.lt_of_succ_le (show b + 1 ≤ 32 from hs.2 1)

/-- The one weight sliced out at `[a, b]` and extracted is `W[a, b]`. -/
theorem weight_read (a b : ℕ) (v : (⟨2, ![32, 32]⟩ : Shape).Idx → α)
    (hs : (⟨2, ![32, 32]⟩ : Shape).Slices ![a, b] ⟨2, ![1, 1]⟩)
    (hp : ∀ d, (![0, 0] : Fin 2 → ℕ) d < (⟨2, ![1, 1]⟩ : Shape).size d) :
    extractAt ![0, 0] (extractStridedSlice ⟨2, ![1, 1]⟩ ![a, b] v hs) hp = v (ix2 ⟨a, row_lt hs⟩ ⟨b, col_lt hs⟩) := by
  show v _ = v _
  congr 1
  funext d
  match d with
  | ⟨0, _⟩ => rfl
  | ⟨1, _⟩ => rfl

theorem ent_lt {o : ℕ} (hs : (⟨1, ![32]⟩ : Shape).Slices ![o] ⟨1, ![1]⟩) : o < 32 :=
  Nat.lt_of_succ_le (show o + 1 ≤ 32 from hs.2 0)

/-- Entry `o` of a per-channel row loaded as `[1, 32]` and reshaped to `[32]`, sliced out and extracted, is the
    row at `(0, o)`. -/
theorem entry_read (o : ℕ) (v : (⟨2, ![1, 32]⟩ : Shape).Idx → α)
    (hc : (⟨2, ![1, 32]⟩ : Shape).ShapeCasts ⟨1, ![32]⟩)
    (hs : (⟨1, ![32]⟩ : Shape).Slices ![o] ⟨1, ![1]⟩)
    (hp : ∀ d, (![0] : Fin 1 → ℕ) d < (⟨1, ![1]⟩ : Shape).size d) :
    extractAt ![0] (extractStridedSlice ⟨1, ![1]⟩ ![o] (shapeCast ⟨1, ![32]⟩ v hc) hs) hp = v (ix2 (0 : Fin 1) ⟨o, ent_lt hs⟩) := by
  rw [← shapeCast_1a_a_apply v hc ⟨o, ent_lt hs⟩]
  show shapeCast _ v hc _ = shapeCast _ v hc _
  congr 1
  funext d
  match d with
  | ⟨0, _⟩ => rfl

end Cert.LaneReads

end
-- ==== Proof.KernelPixel.lean ====
/-
  What the kernel body leaves, at a pixel.

  The body is two rounds of 32 stores.  Round one writes, for each channel `co`, the `[1, 1, 128, 128]` plane
  `max((0 − Σ_ci |x[ci] − W1[co,ci]|)·s1[co] + t1[co], 0)` of the scratch block; the scratch is then read back whole;
  round two writes the same expression of the scratch with the second set of parameters and the residual plane
  `x[co]` added before the clamp.  The sums are spelt out term by term in the body, in channel order from zero, so
  each plane read at a pixel IS the folded stage of PixelSpec at that pixel, term for term: the proof only
  evaluates the body's vector operations at an index.
-/
import proofs.«160462_j15298673509110_2_alg».proof.Proof.Gen.KernelIdeal.Value
import proofs.«160462_j15298673509110_2_alg».proof.Proof.PixelSpec
import proofs.«160462_j15298673509110_2_alg».proof.Proof.LaneReads
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelPixel

open Cert.KernelIdeal Cert.KernelIdeal.Gen Idealize.ShloMosaic Idealize.ShloMosaic.ValueIdx Cert.Pixel Cert.LaneReads

theorem hz4 : (![0, 0, 0, 0] : Fin 4 → ℕ) = fun _ => 0 := funext fun a => by fin_cases a <;> rfl
theorem hz2 : (![0, 0] : Fin 2 → ℕ) = fun _ => 0 := funext fun a => by fin_cases a <;> rfl

/-- The absolute value of a vector, at an index. -/
theorem absf_apply {s : Shape} (a : FVec Ideal s .f32) (i : s.Idx) : absf a i = eabs (a i) := rfl

/-- The plane of channel `o` inside a `[1, 32, 128, 128]` block: local index `(·, ·, h, w)` sits at `(0, o, h, w)`. -/
theorem plane_emb (o : ℕ) (inb : ∀ a, (![0, o, 0, 0] : Fin 4 → ℕ) a + S1x1x128x128.size a ≤ S1x32x128x128.size a)
    (u0 u1 : Fin 1) (h w : Fin 128) :
    (Rect.unit (s := S1x32x128x128) ![0, o, 0, 0] S1x1x128x128.size inb).emb (ix4 u0 u1 h w)
      = ix4 (0 : Fin 1) ⟨o, Nat.lt_of_succ_le (show o + 1 ≤ 32 from inb 1)⟩ h w := by
  obtain rfl : u0 = 0 := Subsingleton.elim _ _
  obtain rfl : u1 = 0 := Subsingleton.elim _ _
  funext a
  apply Fin.ext
  match a with
  | ⟨0, _⟩ => rfl
  | ⟨1, _⟩ => show o + 1 * 0 = o; omega
  | ⟨2, _⟩ => show 0 + 1 * h.val = h.val; omega
  | ⟨3, _⟩ => show 0 + 1 * w.val = w.val; omega

/-- What round one leaves in the scratch block, as a function of the block index. -/
def scratchSpec (x0 : Vec Ideal S1x32x128x128 .f32) (x1 : Vec Ideal S32x32 .f32) (x2 x3 : Vec Ideal S1x32 .f32) :
    S1x32x128x128.Idx → EReal :=
  fun y => stage1 (fun cj => x0 (ix4 0 cj (y 2) (y 3))) x1 x2 x3 (y 1)

theorem scratchSpec_ix4 (x0 : Vec Ideal S1x32x128x128 .f32) (x1 : Vec Ideal S32x32 .f32) (x2 x3 : Vec Ideal S1x32 .f32)
    (u : Fin 1) (co : Fin 32) (h w : Fin 128) :
    scratchSpec x0 x1 x2 x3 (ix4 u co h w) = stage1 (fun cj => x0 (ix4 0 cj h w)) x1 x2 x3 co := rfl

/-- What round two leaves in the output block, as a function of the block index. -/
def outSpec (x0 : Vec Ideal S1x32x128x128 .f32) (x1 : Vec Ideal S32x32 .f32) (x2 x3 : Vec Ideal S1x32 .f32)
    (x4 : Vec Ideal S32x32 .f32) (x5 x6 : Vec Ideal S1x32 .f32) : S1x32x128x128.Idx → EReal :=
  fun y => block (fun cj => x0 (ix4 0 cj (y 2) (y 3))) x1 x2 x3 x4 x5 x6 (y 1)

theorem outSpec_ix4 (x0 : Vec Ideal S1x32x128x128 .f32) (x1 : Vec Ideal S32x32 .f32) (x2 x3 : Vec Ideal S1x32 .f32)
    (x4 : Vec Ideal S32x32 .f32) (x5 x6 : Vec Ideal S1x32 .f32) (u : Fin 1) (co : Fin 32) (h w : Fin 128) :
    outSpec x0 x1 x2 x3 x4 x5 x6 (ix4 u co h w)
      = stage2 (fun ci => stage1 (fun cj => x0 (ix4 0 cj h w)) x1 x2 x3 ci) x4 x5 x6 (x0 (ix4 0 co h w)) co := rfl

variable (c : Dev nD) (i : grid0.Coords) (arg1 : Memref sig .tc .vmem S1x32x128x128 .f32) (harg1 : arg1.IsWhole) (arg2 : Memref sig .tc .vmem S32x32 .f32) (harg2 : arg2.IsWhole) (arg3 : Memref sig .tc .vmem S1x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S1x32 .f32) (harg7 : arg7.IsWhole) (arg8 : Memref sig .tc .vmem S1x32x128x128 .f32) (harg8 : arg8.IsWhole) (arg9 : Memref sig .tc .vmem S1x32x128x128 .f32) (harg9 : arg9.IsWhole)
    (x0 : Vec Ideal S1x32x128x128 .f32) (x1 : Vec Ideal S32x32 .f32) (x2 : Vec Ideal S1x32 .f32) (x3 : Vec Ideal S1x32 .f32) (x4 : Vec Ideal S32x32 .f32) (x5 : Vec Ideal S1x32 .f32) (x6 : Vec Ideal S1x32 .f32)

/-! The body's arithmetic is opened and read at a pixel by ONE rewriting pass, used for each round below: every
    payload and every intermediate value of the body is unfolded, the loads of whole blocks are the blocks, the slices
    and casts are read by LaneReads, the vector operations are pointwise, and the zero pattern is zero. -/

set_option maxHeartbeats 40000000 in
/-- ROUND ONE: the scratch block read back whole is, at `(·, ci, h, w)`, the first stage at the pixel `(h, w)` of the
    `x` block, channel `ci`. -/
theorem scratch_read (u : Fin 1) (ci : Fin 32) (h w : Fin 128) :
    kernelRun0_A.sl.v8710 c arg1 harg1 arg2 harg2 arg3 harg3 arg4 harg4 arg9 x0 x1 x2 x3 (ix4 u ci h w)
      = stage1 (fun cj => x0 (ix4 0 cj h w)) x1 x2 x3 ci := by
  unfold kernelRun0_A.sl.v8710
  rw [View.readCov_eq_canon']
  show View.ld (View.canon (kernelRun0_A.sl.HS0_32 c arg1 harg1 arg2 harg2 arg3 harg3 arg4 harg4 x0 x1 x2 x3))
      (Rect.unit ![0, 0, 0, 0] S1x32x128x128.size inb_S1x32x128x128_S1x32x128x128_0_0_0_0) (ix4 u ci h w) = _
  rw [View.ld_unit_zero (S := S1x32x128x128) hz4, ← scratchSpec_ix4 x0 x1 x2 x3 u ci h w]
  refine View.canon_apply_of_pieces (Val := Elt Ideal) (e := .f32) (scratchSpec x0 x1 x2 x3) _ ?_ _
    (View.cover_of_tiledL (s := S1x32x128x128) _ S1x1x128x128.size (by sl_kernel_rfl) _)
  unfold kernelRun0_A.sl.HS0_32
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals first
    | (intro p hp; exact absurd hp List.not_mem_nil)
    | (intro x
       obtain ⟨u0, u1, h, w, rfl⟩ : ∃ (u0 u1 : Fin 1) (h w : Fin 128), x = ix4 u0 u1 h w := ⟨x 0, x 1, x 2, x 3, eq_ix4 x⟩
       rw [plane_emb, scratchSpec_ix4]
       simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.r_262, kernelRun0_A.sl.r_263, kernelRun0_A.sl.r_264, kernelRun0_A.sl.r_265, kernelRun0_A.sl.r_266, kernelRun0_A.sl.r_267, kernelRun0_A.sl.r_268, kernelRun0_A.sl.r_269, kernelRun0_A.sl.r_270, kernelRun0_A.sl.r_271, kernelRun0_A.sl.r_272, kernelRun0_A.sl.r_273, kernelRun0_A.sl.r_274, kernelRun0_A.sl.r_275, kernelRun0_A.sl.r_276, kernelRun0_A.sl.r_277, kernelRun0_A.sl.r_278, kernelRun0_A.sl.r_279, kernelRun0_A.sl.r_280, kernelRun0_A.sl.r_281, kernelRun0_A.sl.r_282, kernelRun0_A.sl.r_283, kernelRun0_A.sl.r_284, kernelRun0_A.sl.r_285, kernelRun0_A.sl.r_286, kernelRun0_A.sl.r_287, kernelRun0_A.sl.r_288, kernelRun0_A.sl.r_289, kernelRun0_A.sl.r_290, kernelRun0_A.sl.r_291, kernelRun0_A.sl.r_292, kernelRun0_A.sl.r_293, kernelRun0_A.sl.r_294, kernelRun0_A.sl.r_295, kernelRun0_A.sl.r_296, kernelRun0_A.sl.r_297, kernelRun0_A.sl.r_298, kernelRun0_A.sl.r_299, kernelRun0_A.sl.r_300, kernelRun0_A.sl.r_301, kernelRun0_A.sl.r_302, kernelRun0_A.sl.r_303, kernelRun0_A.sl.r_304, kernelRun0_A.sl.r_305, kernelRun0_A.sl.r_306, kernelRun0_A.sl.r_307, kernelRun0_A.sl.r_308, kernelRun0_A.sl.r_309, kernelRun0_A.sl.r_310, kernelRun0_A.sl.r_311, kernelRun0_A.sl.r_312, kernelRun0_A.sl.r_313, kernelRun0_A.sl.r_314, kernelRun0_A.sl.r_315, kernelRun0_A.sl.r_316, kernelRun0_A.sl.r_317, kernelRun0_A.sl.r_318, kernelRun0_A.sl.r_319, kernelRun0_A.sl.r_320, kernelRun0_A.sl.r_321, kernelRun0_A.sl.r_322, kernelRun0_A.sl.r_323, kernelRun0_A.sl.r_324, kernelRun0_A.sl.r_325, kernelRun0_A.sl.r_326, kernelRun0_A.sl.r_327, kernelRun0_A.sl.r_328, kernelRun0_A.sl.r_329, kernelRun0_A.sl.r_330, kernelRun0_A.sl.r_331, kernelRun0_A.sl.r_332, kernelRun0_A.sl.r_333, kernelRun0_A.sl.r_334, kernelRun0_A.sl.r_335, kernelRun0_A.sl.r_336, kernelRun0_A.sl.r_337, kernelRun0_A.sl.r_338, kernelRun0_A.sl.r_339, kernelRun0_A.sl.r_340, kernelRun0_A.sl.r_341, kernelRun0_A.sl.r_342, kernelRun0_A.sl.r_343, kernelRun0_A.sl.r_344, kernelRun0_A.sl.r_345, kernelRun0_A.sl.r_346, kernelRun0_A.sl.r_347, kernelRun0_A.sl.r_348, kernelRun0_A.sl.r_349, kernelRun0_A.sl.r_350, kernelRun0_A.sl.r_351, kernelRun0_A.sl.r_352, kernelRun0_A.sl.r_353, kernelRun0_A.sl.r_354, kernelRun0_A.sl.r_355, kernelRun0_A.sl.r_356, kernelRun0_A.sl.r_357, kernelRun0_A.sl.r_358, kernelRun0_A.sl.r_359, kernelRun0_A.sl.r_360, kernelRun0_A.sl.r_361, kernelRun0_A.sl.r_362, kernelRun0_A.sl.r_363, kernelRun0_A.sl.r_364, kernelRun0_A.sl.r_365, kernelRun0_A.sl.r_366, kernelRun0_A.sl.r_367, kernelRun0_A.sl.r_368, kernelRun0_A.sl.r_369, kernelRun0_A.sl.r_370, kernelRun0_A.sl.r_371, kernelRun0_A.sl.r_372, kernelRun0_A.sl.r_373, kernelRun0_A.sl.r_374, kernelRun0_A.sl.r_375, kernelRun0_A.sl.r_376, kernelRun0_A.sl.r_377, kernelRun0_A.sl.r_378, kernelRun0_A.sl.r_379, kernelRun0_A.sl.r_380, kernelRun0_A.sl.r_381, kernelRun0_A.sl.r_382, kernelRun0_A.sl.r_383, kernelRun0_A.sl.r_384, kernelRun0_A.sl.r_385, kernelRun0_A.sl.r_386, kernelRun0_A.sl.r_387, kernelRun0_A.sl.r_388, kernelRun0_A.sl.r_389, kernelRun0_A.sl.r_390, kernelRun0_A.sl.r_391, kernelRun0_A.sl.r_392, kernelRun0_A.sl.r_393, kernelRun0_A.sl.r_394, kernelRun0_A.sl.r_395, kernelRun0_A.sl.r_396, kernelRun0_A.sl.r_397, kernelRun0_A.sl.r_398, kernelRun0_A.sl.r_399, kernelRun0_A.sl.r_400, kernelRun0_A.sl.r_401, kernelRun0_A.sl.r_402, kernelRun0_A.sl.r_403, kernelRun0_A.sl.r_404, kernelRun0_A.sl.r_405, kernelRun0_A.sl.r_406, kernelRun0_A.sl.r_407, kernelRun0_A.sl.r_408, kernelRun0_A.sl.r_409, kernelRun0_A.sl.r_410, kernelRun0_A.sl.r_411, kernelRun0_A.sl.r_412, kernelRun0_A.sl.r_413, kernelRun0_A.sl.r_414, kernelRun0_A.sl.r_415, kernelRun0_A.sl.r_416, kernelRun0_A.sl.r_417, kernelRun0_A.sl.r_418, kernelRun0_A.sl.r_419, kernelRun0_A.sl.r_420, kernelRun0_A.sl.r_421, kernelRun0_A.sl.r_422, kernelRun0_A.sl.r_423, kernelRun0_A.sl.r_424, kernelRun0_A.sl.r_425, kernelRun0_A.sl.r_426, kernelRun0_A.sl.r_427, kernelRun0_A.sl.r_428, kernelRun0_A.sl.r_429, kernelRun0_A.sl.r_430, kernelRun0_A.sl.r_431, kernelRun0_A.sl.r_432, kernelRun0_A.sl.r_433, kernelRun0_A.sl.r_434, kernelRun0_A.sl.r_435, kernelRun0_A.sl.r_436, kernelRun0_A.sl.r_437, kernelRun0_A.sl.r_438, kernelRun0_A.sl.r_439, kernelRun0_A.sl.r_440, kernelRun0_A.sl.r_441, kernelRun0_A.sl.r_442, kernelRun0_A.sl.r_443, kernelRun0_A.sl.r_444, kernelRun0_A.sl.r_445, kernelRun0_A.sl.r_446, kernelRun0_A.sl.r_447, kernelRun0_A.sl.r_448, kernelRun0_A.sl.r_449, kernelRun0_A.sl.r_450, kernelRun0_A.sl.r_451, kernelRun0_A.sl.r_452, kernelRun0_A.sl.r_453, kernelRun0_A.sl.r_454, kernelRun0_A.sl.r_455, kernelRun0_A.sl.r_456, kernelRun0_A.sl.r_457, kernelRun0_A.sl.r_458, kernelRun0_A.sl.r_459, kernelRun0_A.sl.r_460, kernelRun0_A.sl.r_461, kernelRun0_A.sl.r_462, kernelRun0_A.sl.r_463, kernelRun0_A.sl.r_464, kernelRun0_A.sl.r_465, kernelRun0_A.sl.r_466, kernelRun0_A.sl.r_467, kernelRun0_A.sl.r_468, kernelRun0_A.sl.r_469, kernelRun0_A.sl.r_470, kernelRun0_A.sl.r_471, kernelRun0_A.sl.r_472, kernelRun0_A.sl.r_473, kernelRun0_A.sl.r_474, kernelRun0_A.sl.r_475, kernelRun0_A.sl.r_476, kernelRun0_A.sl.r_477, kernelRun0_A.sl.r_478, kernelRun0_A.sl.r_479, kernelRun0_A.sl.r_480, kernelRun0_A.sl.r_481, kernelRun0_A.sl.r_482, kernelRun0_A.sl.r_483, kernelRun0_A.sl.r_484, kernelRun0_A.sl.r_485, kernelRun0_A.sl.r_486, kernelRun0_A.sl.r_487, kernelRun0_A.sl.r_488, kernelRun0_A.sl.r_489, kernelRun0_A.sl.r_490, kernelRun0_A.sl.r_491, kernelRun0_A.sl.r_492, kernelRun0_A.sl.r_493, kernelRun0_A.sl.r_494, kernelRun0_A.sl.r_495, kernelRun0_A.sl.r_496, kernelRun0_A.sl.r_497, kernelRun0_A.sl.r_498, kernelRun0_A.sl.r_499, kernelRun0_A.sl.r_500, kernelRun0_A.sl.r_501, kernelRun0_A.sl.r_502, kernelRun0_A.sl.r_503, kernelRun0_A.sl.r_504, kernelRun0_A.sl.r_505, kernelRun0_A.sl.r_506, kernelRun0_A.sl.r_507, kernelRun0_A.sl.r_508, kernelRun0_A.sl.r_509, kernelRun0_A.sl.r_510, kernelRun0_A.sl.r_511, kernelRun0_A.sl.r_512, kernelRun0_A.sl.r_513, kernelRun0_A.sl.r_514, kernelRun0_A.sl.r_515, kernelRun0_A.sl.r_516, kernelRun0_A.sl.r_517, kernelRun0_A.sl.r_518, kernelRun0_A.sl.r_519, kernelRun0_A.sl.r_520, kernelRun0_A.sl.r_521, kernelRun0_A.sl.r_522, kernelRun0_A.sl.r_523, kernelRun0_A.sl.r_524, kernelRun0_A.sl.r_525, kernelRun0_A.sl.r_526, kernelRun0_A.sl.r_527, kernelRun0_A.sl.r_528, kernelRun0_A.sl.r_529, kernelRun0_A.sl.r_530, kernelRun0_A.sl.r_531, kernelRun0_A.sl.r_532, kernelRun0_A.sl.r_533, kernelRun0_A.sl.r_534, kernelRun0_A.sl.r_535, kernelRun0_A.sl.r_536, kernelRun0_A.sl.r_537, kernelRun0_A.sl.r_538, kernelRun0_A.sl.r_539, kernelRun0_A.sl.r_540, kernelRun0_A.sl.r_541, kernelRun0_A.sl.r_542, kernelRun0_A.sl.r_543, kernelRun0_A.sl.r_544, kernelRun0_A.sl.r_545, kernelRun0_A.sl.r_546, kernelRun0_A.sl.r_547, kernelRun0_A.sl.r_548, kernelRun0_A.sl.r_549, kernelRun0_A.sl.r_550, kernelRun0_A.sl.r_551, kernelRun0_A.sl.r_552, kernelRun0_A.sl.r_553, kernelRun0_A.sl.r_554, kernelRun0_A.sl.r_555, kernelRun0_A.sl.r_556, kernelRun0_A.sl.r_557, kernelRun0_A.sl.r_558, kernelRun0_A.sl.r_559, kernelRun0_A.sl.r_560, kernelRun0_A.sl.r_561, kernelRun0_A.sl.r_562, kernelRun0_A.sl.r_563, kernelRun0_A.sl.r_564, kernelRun0_A.sl.r_565, kernelRun0_A.sl.r_566, kernelRun0_A.sl.r_567, kernelRun0_A.sl.r_568, kernelRun0_A.sl.r_569, kernelRun0_A.sl.r_570, kernelRun0_A.sl.r_571, kernelRun0_A.sl.r_572, kernelRun0_A.sl.r_573, kernelRun0_A.sl.r_574, kernelRun0_A.sl.r_575, kernelRun0_A.sl.r_576, kernelRun0_A.sl.r_577, kernelRun0_A.sl.r_578, kernelRun0_A.sl.r_579, kernelRun0_A.sl.r_580, kernelRun0_A.sl.r_581, kernelRun0_A.sl.r_582, kernelRun0_A.sl.r_583, kernelRun0_A.sl.r_584, kernelRun0_A.sl.r_585, kernelRun0_A.sl.r_586, kernelRun0_A.sl.r_587, kernelRun0_A.sl.r_588, kernelRun0_A.sl.r_589, kernelRun0_A.sl.r_590, kernelRun0_A.sl.r_591, kernelRun0_A.sl.r_592, kernelRun0_A.sl.r_593, kernelRun0_A.sl.r_594, kernelRun0_A.sl.r_595, kernelRun0_A.sl.r_596, kernelRun0_A.sl.r_597, kernelRun0_A.sl.r_598, kernelRun0_A.sl.r_599, kernelRun0_A.sl.r_600, kernelRun0_A.sl.r_601, kernelRun0_A.sl.r_602, kernelRun0_A.sl.r_603, kernelRun0_A.sl.r_604, kernelRun0_A.sl.r_605, kernelRun0_A.sl.r_606, kernelRun0_A.sl.r_607, kernelRun0_A.sl.r_608, kernelRun0_A.sl.r_609, kernelRun0_A.sl.r_610, kernelRun0_A.sl.r_611, kernelRun0_A.sl.r_612, kernelRun0_A.sl.r_613, kernelRun0_A.sl.r_614, kernelRun0_A.sl.r_615, kernelRun0_A.sl.r_616, kernelRun0_A.sl.r_617, kernelRun0_A.sl.r_618, kernelRun0_A.sl.r_619, kernelRun0_A.sl.r_620, kernelRun0_A.sl.r_621, kernelRun0_A.sl.r_622, kernelRun0_A.sl.r_623, kernelRun0_A.sl.r_624, kernelRun0_A.sl.r_625, kernelRun0_A.sl.r_626, kernelRun0_A.sl.r_627, kernelRun0_A.sl.r_628, kernelRun0_A.sl.r_629, kernelRun0_A.sl.r_630, kernelRun0_A.sl.r_631, kernelRun0_A.sl.r_632, kernelRun0_A.sl.r_633, kernelRun0_A.sl.r_634, kernelRun0_A.sl.r_635, kernelRun0_A.sl.r_636, kernelRun0_A.sl.r_637, kernelRun0_A.sl.r_638, kernelRun0_A.sl.r_639, kernelRun0_A.sl.r_640, kernelRun0_A.sl.r_641, kernelRun0_A.sl.r_642, kernelRun0_A.sl.r_643, kernelRun0_A.sl.r_644, kernelRun0_A.sl.r_645, kernelRun0_A.sl.r_646, kernelRun0_A.sl.r_647, kernelRun0_A.sl.r_648, kernelRun0_A.sl.r_649, kernelRun0_A.sl.r_650, kernelRun0_A.sl.r_651, kernelRun0_A.sl.r_652, kernelRun0_A.sl.r_653, kernelRun0_A.sl.r_654, kernelRun0_A.sl.r_655, kernelRun0_A.sl.r_656, kernelRun0_A.sl.r_657, kernelRun0_A.sl.r_658, kernelRun0_A.sl.r_659, kernelRun0_A.sl.r_660, kernelRun0_A.sl.r_661, kernelRun0_A.sl.r_662, kernelRun0_A.sl.r_663, kernelRun0_A.sl.r_664, kernelRun0_A.sl.r_665, kernelRun0_A.sl.r_666, kernelRun0_A.sl.r_667, kernelRun0_A.sl.r_668, kernelRun0_A.sl.r_669, kernelRun0_A.sl.r_670, kernelRun0_A.sl.r_671, kernelRun0_A.sl.r_672, kernelRun0_A.sl.r_673, kernelRun0_A.sl.r_674, kernelRun0_A.sl.r_675, kernelRun0_A.sl.r_676, kernelRun0_A.sl.r_677, kernelRun0_A.sl.r_678, kernelRun0_A.sl.r_679, kernelRun0_A.sl.r_680, kernelRun0_A.sl.r_681, kernelRun0_A.sl.r_682, kernelRun0_A.sl.r_683,
         View.readAt_eq_ld, Memref.IsWhole.read_unread,
         View.ld_unit_zero (S := S1x32x128x128) hz4, View.ld_unit_zero (S := S32x32) hz2, View.ld_unit_zero (S := S1x32) hz2,
         shapeCast_abc_1abc_apply, chan_read, chan_read4, weight_read, entry_read,
         broadcast_apply, addf_apply, subf_apply, mulf_apply, maximumf_apply, absf_apply,
         Ideal.ofBits_def, Ideal.ofBits_zero_f32, stage1, stage2, lsum])

set_option maxHeartbeats 40000000 in
/-- ROUND TWO: the output block the body leaves is, at `(·, co, h, w)`, the second stage of the 32 first-stage values at
    the pixel `(h, w)`, with the residual `x[co]` at the pixel. -/
theorem out_read (u : Fin 1) (co : Fin 32) (h w : Fin 128) :
    out0_A_7 (F := Ideal) c i arg1 harg1 arg2 harg2 arg3 harg3 arg4 harg4 arg5 harg5 arg6 harg6 arg7 harg7 arg8 harg8 arg9 harg9
        x0 x1 x2 x3 x4 x5 x6 (ix4 u co h w)
      = stage2 (fun ci => stage1 (fun cj => x0 (ix4 0 cj h w)) x1 x2 x3 ci) x4 x5 x6 (x0 (ix4 0 co h w)) co := by
  unfold out0_A_7
  rw [View.read_writes_junk_eq_canon, ← outSpec_ix4 x0 x1 x2 x3 x4 x5 x6 u co h w]
  refine View.canon_apply_of_pieces (Val := Elt Ideal) (e := .f32) (outSpec x0 x1 x2 x3 x4 x5 x6) _ ?_ _
    (cover0_A_7 c i arg1 harg1 arg2 harg2 arg3 harg3 arg4 harg4 arg5 harg5 arg6 harg6 arg7 harg7 arg8 harg8 arg9 harg9
      x0 x1 x2 x3 x4 x5 x6 _)
  unfold kernelRun0_A
  dsimp only
  simp only [List.forall_mem_cons]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  all_goals first
    | (intro p hp; exact absurd hp List.not_mem_nil)
    | (intro x
       obtain ⟨u0, u1, h, w, rfl⟩ : ∃ (u0 u1 : Fin 1) (h w : Fin 128), x = ix4 u0 u1 h w := ⟨x 0, x 1, x 2, x 3, eq_ix4 x⟩
       rw [plane_emb, outSpec_ix4]
       simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay138, k0_pay139, k0_pay140, k0_pay141, k0_pay142, k0_pay143, k0_pay144, k0_pay145, k0_pay146, k0_pay147, k0_pay148, k0_pay149, k0_pay150, k0_pay151, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, k0_pay209, k0_pay210, k0_pay211, k0_pay212, k0_pay213, k0_pay214, k0_pay215, k0_pay216, k0_pay217, k0_pay218, k0_pay219, k0_pay220, k0_pay221, k0_pay222, k0_pay223, k0_pay224, k0_pay225, k0_pay226, k0_pay227, k0_pay228, k0_pay229, k0_pay230, k0_pay231, k0_pay232, k0_pay233, k0_pay234, k0_pay235, k0_pay236, k0_pay237, k0_pay238, k0_pay239, k0_pay240, k0_pay241, k0_pay242, k0_pay243, k0_pay244, k0_pay245, k0_pay246, k0_pay247, k0_pay248, k0_pay249, k0_pay250, k0_pay251, k0_pay252, k0_pay253, k0_pay254, k0_pay255, k0_pay256, k0_pay257, k0_pay258, k0_pay259, k0_pay260, k0_pay261, k0_pay262, k0_pay263, k0_pay264, k0_pay265, k0_pay266, k0_pay267, k0_pay268, k0_pay269, k0_pay270, k0_pay271, k0_pay272, k0_pay273, k0_pay274, k0_pay275, k0_pay276, k0_pay277, k0_pay278, k0_pay279, k0_pay280, k0_pay281, k0_pay282, k0_pay283, k0_pay284, k0_pay285, k0_pay286, k0_pay287, k0_pay288, k0_pay289, k0_pay290, k0_pay291, k0_pay292, k0_pay293, k0_pay294, k0_pay295, k0_pay296, k0_pay297, k0_pay298, k0_pay299, k0_pay300, k0_pay301, k0_pay302, k0_pay303, k0_pay304, k0_pay305, k0_pay306, k0_pay307, k0_pay308, k0_pay309, k0_pay310, k0_pay311, k0_pay312, k0_pay313, k0_pay314, k0_pay315, k0_pay316, k0_pay317, k0_pay318, k0_pay319, k0_pay320, k0_pay321, k0_pay322, k0_pay323, k0_pay324, k0_pay325, k0_pay326, k0_pay327, k0_pay328, k0_pay329, k0_pay330, k0_pay331, k0_pay332, k0_pay333, k0_pay334, k0_pay335, k0_pay336, k0_pay337, k0_pay338, k0_pay339, k0_pay340, k0_pay341, k0_pay342, k0_pay343, k0_pay344, k0_pay345, k0_pay346, k0_pay347, k0_pay348, k0_pay349, k0_pay350, k0_pay351, k0_pay352, k0_pay353, k0_pay354, k0_pay355, k0_pay356, k0_pay357, k0_pay358, k0_pay359, k0_pay360, k0_pay361, k0_pay362, k0_pay363, k0_pay364, k0_pay365, k0_pay366, k0_pay367, k0_pay368, k0_pay369, k0_pay370, k0_pay371, k0_pay372, k0_pay373, k0_pay374, k0_pay375, k0_pay376, k0_pay377, k0_pay378, k0_pay379, k0_pay380, k0_pay381, k0_pay382, k0_pay383, k0_pay384, k0_pay385, k0_pay386, k0_pay387, k0_pay388, k0_pay389, k0_pay390, k0_pay391, k0_pay392, k0_pay393, k0_pay394, k0_pay395, k0_pay396, k0_pay397, k0_pay398, k0_pay399, k0_pay400, k0_pay401, k0_pay402, k0_pay403, k0_pay404, k0_pay405, k0_pay406, k0_pay407, k0_pay408, k0_pay409, k0_pay410, k0_pay411, k0_pay412, k0_pay413, k0_pay414, k0_pay415, k0_pay416, k0_pay417, k0_pay418, k0_pay419, k0_pay420, k0_pay421, k0_pay422, k0_pay423, k0_pay424, k0_pay425, k0_pay426, k0_pay427, k0_pay428, k0_pay429, k0_pay430, k0_pay431, k0_pay432, k0_pay433, k0_pay434, k0_pay435, k0_pay436, k0_pay437, k0_pay438, k0_pay439, k0_pay440, k0_pay441, k0_pay442, k0_pay443, k0_pay444, k0_pay445, k0_pay446, k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, k0_pay469, k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay500, k0_pay501, k0_pay502, k0_pay503, k0_pay504, k0_pay505, k0_pay506, k0_pay507, k0_pay508, k0_pay509, k0_pay510, k0_pay511, k0_pay512, k0_pay513, k0_pay514, k0_pay515, k0_pay516, k0_pay517, k0_pay518, k0_pay519, k0_pay520, k0_pay521, k0_pay522, k0_pay523, k0_pay524, k0_pay525, k0_pay526, k0_pay527, k0_pay528, k0_pay529, k0_pay530, k0_pay531, k0_pay532, k0_pay533, k0_pay534, k0_pay535, k0_pay536, k0_pay537, k0_pay538, k0_pay539, k0_pay540, k0_pay541, k0_pay542, k0_pay543, k0_pay544, k0_pay545, k0_pay546, k0_pay547, k0_pay548, k0_pay549, k0_pay550, k0_pay551, k0_pay552, k0_pay553, k0_pay554, k0_pay555, k0_pay556, k0_pay557, k0_pay558, k0_pay559, k0_pay560, k0_pay561, k0_pay562, k0_pay563, k0_pay564, k0_pay565, k0_pay566, k0_pay567, k0_pay568, k0_pay569, k0_pay570, k0_pay571, k0_pay572, k0_pay573, k0_pay574, k0_pay575, k0_pay576, k0_pay577, k0_pay578, k0_pay579, k0_pay580, k0_pay581, k0_pay582, k0_pay583, k0_pay584, k0_pay585, k0_pay586, k0_pay587, k0_pay588, k0_pay589, k0_pay590, k0_pay591, k0_pay592, k0_pay593, k0_pay594, k0_pay595, k0_pay596, k0_pay597, k0_pay598, k0_pay599, k0_pay600, k0_pay601, k0_pay602, k0_pay603, k0_pay604, k0_pay605, k0_pay606, k0_pay607, k0_pay608, k0_pay609, k0_pay610, k0_pay611, k0_pay612, k0_pay613, k0_pay614, k0_pay615, k0_pay616, k0_pay617, k0_pay618, k0_pay619, k0_pay620, k0_pay621, k0_pay622, k0_pay623, k0_pay624, k0_pay625, k0_pay626, k0_pay627, k0_pay628, k0_pay629, k0_pay630, k0_pay631, k0_pay632, k0_pay633, k0_pay634, k0_pay635, k0_pay636, k0_pay637, k0_pay638, k0_pay639, k0_pay640, k0_pay641, k0_pay642, k0_pay643, k0_pay644, k0_pay645, k0_pay646, k0_pay647, k0_pay648, k0_pay649, k0_pay650, k0_pay651, k0_pay652, k0_pay653, k0_pay654, k0_pay655, k0_pay656, k0_pay657, k0_pay658, k0_pay659, k0_pay660, k0_pay661, k0_pay662, k0_pay663, k0_pay664, k0_pay665, k0_pay666, k0_pay667, k0_pay668, k0_pay669, k0_pay670, k0_pay671, k0_pay672, k0_pay673, k0_pay674, k0_pay675, k0_pay676, k0_pay677, k0_pay678, k0_pay679, k0_pay680, k0_pay681, k0_pay682, k0_pay683, k0_pay684, k0_pay685, k0_pay686, k0_pay687, k0_pay688, k0_pay689, k0_pay690, k0_pay691, k0_pay692, k0_pay693, k0_pay694, k0_pay695, k0_pay696, k0_pay697, k0_pay698, k0_pay699, k0_pay700, k0_pay701, k0_pay702, k0_pay703, k0_pay704, k0_pay705, k0_pay706, k0_pay707, k0_pay708, k0_pay709, k0_pay710, k0_pay711, k0_pay712, k0_pay713, k0_pay714, k0_pay715, k0_pay716, k0_pay717, k0_pay718, k0_pay719, k0_pay720, k0_pay721, k0_pay722, k0_pay723, k0_pay724, k0_pay725, k0_pay726, k0_pay727, k0_pay728, k0_pay729, k0_pay730, k0_pay731, k0_pay732, k0_pay733, k0_pay734, k0_pay735, k0_pay736, k0_pay737, k0_pay738, k0_pay739, k0_pay740, k0_pay741, k0_pay742, k0_pay743, k0_pay744, k0_pay745, k0_pay746, k0_pay747, k0_pay748, k0_pay749, k0_pay750, k0_pay751, k0_pay752, k0_pay753, k0_pay754, k0_pay755, k0_pay756, k0_pay757, k0_pay758, k0_pay759, k0_pay760, k0_pay761, k0_pay762, kernelRun0_A.sl.r, kernelRun0_A.sl.r_1, kernelRun0_A.sl.r_2, kernelRun0_A.sl.r_3, kernelRun0_A.sl.r_4, kernelRun0_A.sl.r_5, kernelRun0_A.sl.r_6, kernelRun0_A.sl.r_7, kernelRun0_A.sl.r_8, kernelRun0_A.sl.r_9, kernelRun0_A.sl.r_10, kernelRun0_A.sl.r_11, kernelRun0_A.sl.r_12, kernelRun0_A.sl.r_13, kernelRun0_A.sl.r_14, kernelRun0_A.sl.r_15, kernelRun0_A.sl.r_16, kernelRun0_A.sl.r_17, kernelRun0_A.sl.r_18, kernelRun0_A.sl.r_19, kernelRun0_A.sl.r_20, kernelRun0_A.sl.r_21, kernelRun0_A.sl.r_22, kernelRun0_A.sl.r_23, kernelRun0_A.sl.r_24, kernelRun0_A.sl.r_25, kernelRun0_A.sl.r_26, kernelRun0_A.sl.r_27, kernelRun0_A.sl.r_28, kernelRun0_A.sl.r_29, kernelRun0_A.sl.r_30, kernelRun0_A.sl.r_31, kernelRun0_A.sl.r_32, kernelRun0_A.sl.r_33, kernelRun0_A.sl.r_34, kernelRun0_A.sl.r_35, kernelRun0_A.sl.r_36, kernelRun0_A.sl.r_37, kernelRun0_A.sl.r_38, kernelRun0_A.sl.r_39, kernelRun0_A.sl.r_40, kernelRun0_A.sl.r_41, kernelRun0_A.sl.r_42, kernelRun0_A.sl.r_43, kernelRun0_A.sl.r_44, kernelRun0_A.sl.r_45, kernelRun0_A.sl.r_46, kernelRun0_A.sl.r_47, kernelRun0_A.sl.r_48, kernelRun0_A.sl.r_49, kernelRun0_A.sl.r_50, kernelRun0_A.sl.r_51, kernelRun0_A.sl.r_52, kernelRun0_A.sl.r_53, kernelRun0_A.sl.r_54, kernelRun0_A.sl.r_55, kernelRun0_A.sl.r_56, kernelRun0_A.sl.r_57, kernelRun0_A.sl.r_58, kernelRun0_A.sl.r_59, kernelRun0_A.sl.r_60, kernelRun0_A.sl.r_61, kernelRun0_A.sl.r_62, kernelRun0_A.sl.r_63, kernelRun0_A.sl.r_64, kernelRun0_A.sl.r_65, kernelRun0_A.sl.r_66, kernelRun0_A.sl.r_67, kernelRun0_A.sl.r_68, kernelRun0_A.sl.r_69, kernelRun0_A.sl.r_70, kernelRun0_A.sl.r_71, kernelRun0_A.sl.r_72, kernelRun0_A.sl.r_73, kernelRun0_A.sl.r_74, kernelRun0_A.sl.r_75, kernelRun0_A.sl.r_76, kernelRun0_A.sl.r_77, kernelRun0_A.sl.r_78, kernelRun0_A.sl.r_79, kernelRun0_A.sl.r_80, kernelRun0_A.sl.r_81, kernelRun0_A.sl.r_82, kernelRun0_A.sl.r_83, kernelRun0_A.sl.r_84, kernelRun0_A.sl.r_85, kernelRun0_A.sl.r_86, kernelRun0_A.sl.r_87, kernelRun0_A.sl.r_88, kernelRun0_A.sl.r_89, kernelRun0_A.sl.r_90, kernelRun0_A.sl.r_91, kernelRun0_A.sl.r_92, kernelRun0_A.sl.r_93, kernelRun0_A.sl.r_94, kernelRun0_A.sl.r_95, kernelRun0_A.sl.r_96, kernelRun0_A.sl.r_97, kernelRun0_A.sl.r_98, kernelRun0_A.sl.r_99, kernelRun0_A.sl.r_100, kernelRun0_A.sl.r_101, kernelRun0_A.sl.r_102, kernelRun0_A.sl.r_103, kernelRun0_A.sl.r_104, kernelRun0_A.sl.r_105, kernelRun0_A.sl.r_106, kernelRun0_A.sl.r_107, kernelRun0_A.sl.r_108, kernelRun0_A.sl.r_109, kernelRun0_A.sl.r_110, kernelRun0_A.sl.r_111, kernelRun0_A.sl.r_112, kernelRun0_A.sl.r_113, kernelRun0_A.sl.r_114, kernelRun0_A.sl.r_115, kernelRun0_A.sl.r_116, kernelRun0_A.sl.r_117, kernelRun0_A.sl.r_118, kernelRun0_A.sl.r_119, kernelRun0_A.sl.r_120, kernelRun0_A.sl.r_121, kernelRun0_A.sl.r_122, kernelRun0_A.sl.r_123, kernelRun0_A.sl.r_124, kernelRun0_A.sl.r_125, kernelRun0_A.sl.r_126, kernelRun0_A.sl.r_127, kernelRun0_A.sl.r_128, kernelRun0_A.sl.r_129, kernelRun0_A.sl.r_130, kernelRun0_A.sl.r_131, kernelRun0_A.sl.r_132, kernelRun0_A.sl.r_133, kernelRun0_A.sl.r_134, kernelRun0_A.sl.r_135, kernelRun0_A.sl.r_136, kernelRun0_A.sl.r_137, kernelRun0_A.sl.r_138, kernelRun0_A.sl.r_139, kernelRun0_A.sl.r_140, kernelRun0_A.sl.r_141, kernelRun0_A.sl.r_142, kernelRun0_A.sl.r_143, kernelRun0_A.sl.r_144, kernelRun0_A.sl.r_145, kernelRun0_A.sl.r_146, kernelRun0_A.sl.r_147, kernelRun0_A.sl.r_148, kernelRun0_A.sl.r_149, kernelRun0_A.sl.r_150, kernelRun0_A.sl.r_151, kernelRun0_A.sl.r_152, kernelRun0_A.sl.r_153, kernelRun0_A.sl.r_154, kernelRun0_A.sl.r_155, kernelRun0_A.sl.r_156, kernelRun0_A.sl.r_157, kernelRun0_A.sl.r_158, kernelRun0_A.sl.r_159, kernelRun0_A.sl.r_160, kernelRun0_A.sl.r_161, kernelRun0_A.sl.r_162, kernelRun0_A.sl.r_163, kernelRun0_A.sl.r_164, kernelRun0_A.sl.r_165, kernelRun0_A.sl.r_166, kernelRun0_A.sl.r_167, kernelRun0_A.sl.r_168, kernelRun0_A.sl.r_169, kernelRun0_A.sl.r_170, kernelRun0_A.sl.r_171, kernelRun0_A.sl.r_172, kernelRun0_A.sl.r_173, kernelRun0_A.sl.r_174, kernelRun0_A.sl.r_175, kernelRun0_A.sl.r_176, kernelRun0_A.sl.r_177, kernelRun0_A.sl.r_178, kernelRun0_A.sl.r_179, kernelRun0_A.sl.r_180, kernelRun0_A.sl.r_181, kernelRun0_A.sl.r_182, kernelRun0_A.sl.r_183, kernelRun0_A.sl.r_184, kernelRun0_A.sl.r_185, kernelRun0_A.sl.r_186, kernelRun0_A.sl.r_187, kernelRun0_A.sl.r_188, kernelRun0_A.sl.r_189, kernelRun0_A.sl.r_190, kernelRun0_A.sl.r_191, kernelRun0_A.sl.r_192, kernelRun0_A.sl.r_193, kernelRun0_A.sl.r_194, kernelRun0_A.sl.r_195, kernelRun0_A.sl.r_196, kernelRun0_A.sl.r_197, kernelRun0_A.sl.r_198, kernelRun0_A.sl.r_199, kernelRun0_A.sl.r_200, kernelRun0_A.sl.r_201, kernelRun0_A.sl.r_202, kernelRun0_A.sl.r_203, kernelRun0_A.sl.r_204, kernelRun0_A.sl.r_205, kernelRun0_A.sl.r_206, kernelRun0_A.sl.r_207, kernelRun0_A.sl.r_208, kernelRun0_A.sl.r_209, kernelRun0_A.sl.r_210, kernelRun0_A.sl.r_211, kernelRun0_A.sl.r_212, kernelRun0_A.sl.r_213, kernelRun0_A.sl.r_214, kernelRun0_A.sl.r_215, kernelRun0_A.sl.r_216, kernelRun0_A.sl.r_217, kernelRun0_A.sl.r_218, kernelRun0_A.sl.r_219, kernelRun0_A.sl.r_220, kernelRun0_A.sl.r_221, kernelRun0_A.sl.r_222, kernelRun0_A.sl.r_223, kernelRun0_A.sl.r_224, kernelRun0_A.sl.r_225, kernelRun0_A.sl.r_226, kernelRun0_A.sl.r_227, kernelRun0_A.sl.r_228, kernelRun0_A.sl.r_229, kernelRun0_A.sl.r_230, kernelRun0_A.sl.r_231, kernelRun0_A.sl.r_232, kernelRun0_A.sl.r_233, kernelRun0_A.sl.r_234, kernelRun0_A.sl.r_235, kernelRun0_A.sl.r_236, kernelRun0_A.sl.r_237, kernelRun0_A.sl.r_238, kernelRun0_A.sl.r_239, kernelRun0_A.sl.r_240, kernelRun0_A.sl.r_241, kernelRun0_A.sl.r_242, kernelRun0_A.sl.r_243, kernelRun0_A.sl.r_244, kernelRun0_A.sl.r_245, kernelRun0_A.sl.r_246, kernelRun0_A.sl.r_247, kernelRun0_A.sl.r_248, kernelRun0_A.sl.r_249, kernelRun0_A.sl.r_250, kernelRun0_A.sl.r_251, kernelRun0_A.sl.r_252, kernelRun0_A.sl.r_253, kernelRun0_A.sl.r_254, kernelRun0_A.sl.r_255, kernelRun0_A.sl.r_256, kernelRun0_A.sl.r_257, kernelRun0_A.sl.r_258, kernelRun0_A.sl.r_259, kernelRun0_A.sl.r_260, kernelRun0_A.sl.r_261, kernelRun0_A.sl.r_262, kernelRun0_A.sl.r_263, kernelRun0_A.sl.r_264, kernelRun0_A.sl.r_265, kernelRun0_A.sl.r_266, kernelRun0_A.sl.r_267, kernelRun0_A.sl.r_268, kernelRun0_A.sl.r_269, kernelRun0_A.sl.r_270, kernelRun0_A.sl.r_271, kernelRun0_A.sl.r_272, kernelRun0_A.sl.r_273, kernelRun0_A.sl.r_274, kernelRun0_A.sl.r_275, kernelRun0_A.sl.r_276, kernelRun0_A.sl.r_277, kernelRun0_A.sl.r_278, kernelRun0_A.sl.r_279, kernelRun0_A.sl.r_280, kernelRun0_A.sl.r_281, kernelRun0_A.sl.r_282, kernelRun0_A.sl.r_283, kernelRun0_A.sl.r_284, kernelRun0_A.sl.r_285, kernelRun0_A.sl.r_286, kernelRun0_A.sl.r_287, kernelRun0_A.sl.r_288, kernelRun0_A.sl.r_289, kernelRun0_A.sl.r_290, kernelRun0_A.sl.r_291, kernelRun0_A.sl.r_292, kernelRun0_A.sl.r_293, kernelRun0_A.sl.r_294, kernelRun0_A.sl.r_295, kernelRun0_A.sl.r_296, kernelRun0_A.sl.r_297, kernelRun0_A.sl.r_298, kernelRun0_A.sl.r_299, kernelRun0_A.sl.r_300, kernelRun0_A.sl.r_301, kernelRun0_A.sl.r_302, kernelRun0_A.sl.r_303, kernelRun0_A.sl.r_304, kernelRun0_A.sl.r_305, kernelRun0_A.sl.r_306, kernelRun0_A.sl.r_307, kernelRun0_A.sl.r_308, kernelRun0_A.sl.r_309, kernelRun0_A.sl.r_310, kernelRun0_A.sl.r_311, kernelRun0_A.sl.r_312, kernelRun0_A.sl.r_313, kernelRun0_A.sl.r_314, kernelRun0_A.sl.r_315, kernelRun0_A.sl.r_316, kernelRun0_A.sl.r_317, kernelRun0_A.sl.r_318, kernelRun0_A.sl.r_319, kernelRun0_A.sl.r_320, kernelRun0_A.sl.r_321, kernelRun0_A.sl.r_322, kernelRun0_A.sl.r_323, kernelRun0_A.sl.r_324, kernelRun0_A.sl.r_325, kernelRun0_A.sl.r_326, kernelRun0_A.sl.r_327, kernelRun0_A.sl.r_328, kernelRun0_A.sl.r_329, kernelRun0_A.sl.r_330, kernelRun0_A.sl.r_331, kernelRun0_A.sl.r_332, kernelRun0_A.sl.r_333, kernelRun0_A.sl.r_334, kernelRun0_A.sl.r_335, kernelRun0_A.sl.r_336, kernelRun0_A.sl.r_337, kernelRun0_A.sl.r_338, kernelRun0_A.sl.r_339, kernelRun0_A.sl.r_340, kernelRun0_A.sl.r_341, kernelRun0_A.sl.r_342, kernelRun0_A.sl.r_343, kernelRun0_A.sl.r_344, kernelRun0_A.sl.r_345, kernelRun0_A.sl.r_346, kernelRun0_A.sl.r_347, kernelRun0_A.sl.r_348, kernelRun0_A.sl.r_349, kernelRun0_A.sl.r_350, kernelRun0_A.sl.r_351, kernelRun0_A.sl.r_352, kernelRun0_A.sl.r_353, kernelRun0_A.sl.r_354, kernelRun0_A.sl.r_355, kernelRun0_A.sl.r_356, kernelRun0_A.sl.r_357, kernelRun0_A.sl.r_358, kernelRun0_A.sl.r_359, kernelRun0_A.sl.r_360, kernelRun0_A.sl.r_361, kernelRun0_A.sl.r_362, kernelRun0_A.sl.r_363, kernelRun0_A.sl.r_364, kernelRun0_A.sl.r_365, kernelRun0_A.sl.r_366, kernelRun0_A.sl.r_367, kernelRun0_A.sl.r_368, kernelRun0_A.sl.r_369, kernelRun0_A.sl.r_370, kernelRun0_A.sl.r_371, kernelRun0_A.sl.r_372, kernelRun0_A.sl.r_373, kernelRun0_A.sl.r_374, kernelRun0_A.sl.r_375, kernelRun0_A.sl.r_376, kernelRun0_A.sl.r_377, kernelRun0_A.sl.r_378, kernelRun0_A.sl.r_379, kernelRun0_A.sl.r_380, kernelRun0_A.sl.r_381, kernelRun0_A.sl.r_382, kernelRun0_A.sl.r_383, kernelRun0_A.sl.r_384, kernelRun0_A.sl.r_385, kernelRun0_A.sl.r_386, kernelRun0_A.sl.r_387, kernelRun0_A.sl.r_388, kernelRun0_A.sl.r_389, kernelRun0_A.sl.r_390, kernelRun0_A.sl.r_391, kernelRun0_A.sl.r_392, kernelRun0_A.sl.r_393, kernelRun0_A.sl.r_394, kernelRun0_A.sl.r_395, kernelRun0_A.sl.r_396, kernelRun0_A.sl.r_397, kernelRun0_A.sl.r_398, kernelRun0_A.sl.r_399, kernelRun0_A.sl.r_400, kernelRun0_A.sl.r_401, kernelRun0_A.sl.r_402, kernelRun0_A.sl.r_403, kernelRun0_A.sl.r_404, kernelRun0_A.sl.r_405, kernelRun0_A.sl.r_406, kernelRun0_A.sl.r_407, kernelRun0_A.sl.r_408, kernelRun0_A.sl.r_409, kernelRun0_A.sl.r_410, kernelRun0_A.sl.r_411, kernelRun0_A.sl.r_412, kernelRun0_A.sl.r_413, kernelRun0_A.sl.r_414, kernelRun0_A.sl.r_415, kernelRun0_A.sl.r_416, kernelRun0_A.sl.r_417, kernelRun0_A.sl.r_418, kernelRun0_A.sl.r_419, kernelRun0_A.sl.r_420, kernelRun0_A.sl.r_421, kernelRun0_A.sl.r_422, kernelRun0_A.sl.r_423, kernelRun0_A.sl.r_424, kernelRun0_A.sl.r_425, kernelRun0_A.sl.r_426, kernelRun0_A.sl.r_427, kernelRun0_A.sl.r_428, kernelRun0_A.sl.r_429, kernelRun0_A.sl.r_430, kernelRun0_A.sl.r_431, kernelRun0_A.sl.r_432, kernelRun0_A.sl.r_433, kernelRun0_A.sl.r_434, kernelRun0_A.sl.r_435, kernelRun0_A.sl.r_436, kernelRun0_A.sl.r_437, kernelRun0_A.sl.r_438, kernelRun0_A.sl.r_439, kernelRun0_A.sl.r_440, kernelRun0_A.sl.r_441, kernelRun0_A.sl.r_442, kernelRun0_A.sl.r_443, kernelRun0_A.sl.r_444, kernelRun0_A.sl.r_445, kernelRun0_A.sl.r_446, kernelRun0_A.sl.r_447, kernelRun0_A.sl.r_448, kernelRun0_A.sl.r_449, kernelRun0_A.sl.r_450, kernelRun0_A.sl.r_451, kernelRun0_A.sl.r_452, kernelRun0_A.sl.r_453, kernelRun0_A.sl.r_454, kernelRun0_A.sl.r_455, kernelRun0_A.sl.r_456, kernelRun0_A.sl.r_457, kernelRun0_A.sl.r_458, kernelRun0_A.sl.r_459, kernelRun0_A.sl.r_460, kernelRun0_A.sl.r_461, kernelRun0_A.sl.r_462, kernelRun0_A.sl.r_463, kernelRun0_A.sl.r_464, kernelRun0_A.sl.r_465, kernelRun0_A.sl.r_466, kernelRun0_A.sl.r_467, kernelRun0_A.sl.r_468, kernelRun0_A.sl.r_469, kernelRun0_A.sl.r_470, kernelRun0_A.sl.r_471, kernelRun0_A.sl.r_472, kernelRun0_A.sl.r_473, kernelRun0_A.sl.r_474, kernelRun0_A.sl.r_475, kernelRun0_A.sl.r_476, kernelRun0_A.sl.r_477, kernelRun0_A.sl.r_478, kernelRun0_A.sl.r_479, kernelRun0_A.sl.r_480, kernelRun0_A.sl.r_481, kernelRun0_A.sl.r_482, kernelRun0_A.sl.r_483, kernelRun0_A.sl.r_484, kernelRun0_A.sl.r_485, kernelRun0_A.sl.r_486, kernelRun0_A.sl.r_487, kernelRun0_A.sl.r_488, kernelRun0_A.sl.r_489, kernelRun0_A.sl.r_490, kernelRun0_A.sl.r_491, kernelRun0_A.sl.r_492, kernelRun0_A.sl.r_493, kernelRun0_A.sl.r_494, kernelRun0_A.sl.r_495, kernelRun0_A.sl.r_496, kernelRun0_A.sl.r_497, kernelRun0_A.sl.r_498, kernelRun0_A.sl.r_499, kernelRun0_A.sl.r_500, kernelRun0_A.sl.r_501, kernelRun0_A.sl.r_502, kernelRun0_A.sl.r_503, kernelRun0_A.sl.r_504, kernelRun0_A.sl.r_505, kernelRun0_A.sl.r_506, kernelRun0_A.sl.r_507, kernelRun0_A.sl.r_508, kernelRun0_A.sl.r_509, kernelRun0_A.sl.r_510, kernelRun0_A.sl.r_511, kernelRun0_A.sl.r_512, kernelRun0_A.sl.r_513, kernelRun0_A.sl.r_514, kernelRun0_A.sl.r_515, kernelRun0_A.sl.r_516, kernelRun0_A.sl.r_517, kernelRun0_A.sl.r_518, kernelRun0_A.sl.r_519, kernelRun0_A.sl.r_520, kernelRun0_A.sl.r_521, kernelRun0_A.sl.r_522, kernelRun0_A.sl.r_523, kernelRun0_A.sl.r_524, kernelRun0_A.sl.r_525, kernelRun0_A.sl.r_526, kernelRun0_A.sl.r_527, kernelRun0_A.sl.r_528, kernelRun0_A.sl.r_529, kernelRun0_A.sl.r_530, kernelRun0_A.sl.r_531, kernelRun0_A.sl.r_532, kernelRun0_A.sl.r_533, kernelRun0_A.sl.r_534, kernelRun0_A.sl.r_535, kernelRun0_A.sl.r_536, kernelRun0_A.sl.r_537, kernelRun0_A.sl.r_538, kernelRun0_A.sl.r_539, kernelRun0_A.sl.r_540, kernelRun0_A.sl.r_541, kernelRun0_A.sl.r_542, kernelRun0_A.sl.r_543, kernelRun0_A.sl.r_544, kernelRun0_A.sl.r_545, kernelRun0_A.sl.r_546, kernelRun0_A.sl.r_547, kernelRun0_A.sl.r_548, kernelRun0_A.sl.r_549, kernelRun0_A.sl.r_550, kernelRun0_A.sl.r_551, kernelRun0_A.sl.r_552, kernelRun0_A.sl.r_553, kernelRun0_A.sl.r_554, kernelRun0_A.sl.r_555, kernelRun0_A.sl.r_556, kernelRun0_A.sl.r_557, kernelRun0_A.sl.r_558, kernelRun0_A.sl.r_559, kernelRun0_A.sl.r_560, kernelRun0_A.sl.r_561, kernelRun0_A.sl.r_562, kernelRun0_A.sl.r_563, kernelRun0_A.sl.r_564, kernelRun0_A.sl.r_565, kernelRun0_A.sl.r_566, kernelRun0_A.sl.r_567, kernelRun0_A.sl.r_568, kernelRun0_A.sl.r_569, kernelRun0_A.sl.r_570, kernelRun0_A.sl.r_571, kernelRun0_A.sl.r_572, kernelRun0_A.sl.r_573, kernelRun0_A.sl.r_574, kernelRun0_A.sl.r_575, kernelRun0_A.sl.r_576, kernelRun0_A.sl.r_577, kernelRun0_A.sl.r_578, kernelRun0_A.sl.r_579, kernelRun0_A.sl.r_580, kernelRun0_A.sl.r_581, kernelRun0_A.sl.r_582, kernelRun0_A.sl.r_583, kernelRun0_A.sl.r_584, kernelRun0_A.sl.r_585, kernelRun0_A.sl.r_586, kernelRun0_A.sl.r_587, kernelRun0_A.sl.r_588, kernelRun0_A.sl.r_589, kernelRun0_A.sl.r_590, kernelRun0_A.sl.r_591, kernelRun0_A.sl.r_592, kernelRun0_A.sl.r_593, kernelRun0_A.sl.r_594, kernelRun0_A.sl.r_595, kernelRun0_A.sl.r_596, kernelRun0_A.sl.r_597, kernelRun0_A.sl.r_598, kernelRun0_A.sl.r_599, kernelRun0_A.sl.r_600, kernelRun0_A.sl.r_601, kernelRun0_A.sl.r_602, kernelRun0_A.sl.r_603, kernelRun0_A.sl.r_604, kernelRun0_A.sl.r_605, kernelRun0_A.sl.r_606, kernelRun0_A.sl.r_607, kernelRun0_A.sl.r_608, kernelRun0_A.sl.r_609, kernelRun0_A.sl.r_610, kernelRun0_A.sl.r_611, kernelRun0_A.sl.r_612, kernelRun0_A.sl.r_613, kernelRun0_A.sl.r_614, kernelRun0_A.sl.r_615, kernelRun0_A.sl.r_616, kernelRun0_A.sl.r_617, kernelRun0_A.sl.r_618, kernelRun0_A.sl.r_619, kernelRun0_A.sl.r_620, kernelRun0_A.sl.r_621, kernelRun0_A.sl.r_622, kernelRun0_A.sl.r_623, kernelRun0_A.sl.r_624, kernelRun0_A.sl.r_625, kernelRun0_A.sl.r_626, kernelRun0_A.sl.r_627, kernelRun0_A.sl.r_628, kernelRun0_A.sl.r_629, kernelRun0_A.sl.r_630, kernelRun0_A.sl.r_631, kernelRun0_A.sl.r_632, kernelRun0_A.sl.r_633, kernelRun0_A.sl.r_634, kernelRun0_A.sl.r_635, kernelRun0_A.sl.r_636, kernelRun0_A.sl.r_637, kernelRun0_A.sl.r_638, kernelRun0_A.sl.r_639, kernelRun0_A.sl.r_640, kernelRun0_A.sl.r_641, kernelRun0_A.sl.r_642, kernelRun0_A.sl.r_643, kernelRun0_A.sl.r_644, kernelRun0_A.sl.r_645, kernelRun0_A.sl.r_646, kernelRun0_A.sl.r_647, kernelRun0_A.sl.r_648, kernelRun0_A.sl.r_649, kernelRun0_A.sl.r_650, kernelRun0_A.sl.r_651, kernelRun0_A.sl.r_652, kernelRun0_A.sl.r_653, kernelRun0_A.sl.r_654, kernelRun0_A.sl.r_655, kernelRun0_A.sl.r_656, kernelRun0_A.sl.r_657, kernelRun0_A.sl.r_658, kernelRun0_A.sl.r_659, kernelRun0_A.sl.r_660, kernelRun0_A.sl.r_661, kernelRun0_A.sl.r_662, kernelRun0_A.sl.r_663, kernelRun0_A.sl.r_664, kernelRun0_A.sl.r_665, kernelRun0_A.sl.r_666, kernelRun0_A.sl.r_667, kernelRun0_A.sl.r_668, kernelRun0_A.sl.r_669, kernelRun0_A.sl.r_670, kernelRun0_A.sl.r_671, kernelRun0_A.sl.r_672, kernelRun0_A.sl.r_673, kernelRun0_A.sl.r_674, kernelRun0_A.sl.r_675, kernelRun0_A.sl.r_676, kernelRun0_A.sl.r_677, kernelRun0_A.sl.r_678, kernelRun0_A.sl.r_679, kernelRun0_A.sl.r_680, kernelRun0_A.sl.r_681, kernelRun0_A.sl.r_682, kernelRun0_A.sl.r_683,
         View.readAt_eq_ld, Memref.IsWhole.read_unread,
         View.ld_unit_zero (S := S1x32x128x128) hz4, View.ld_unit_zero (S := S32x32) hz2, View.ld_unit_zero (S := S1x32) hz2,
         shapeCast_abc_1abc_apply, chan_read, chan_read4, weight_read, entry_read,
         broadcast_apply, addf_apply, subf_apply, mulf_apply, maximumf_apply, absf_apply,
         Ideal.ofBits_def, Ideal.ofBits_zero_f32, scratch_read, stage2, lsum])

end Cert.KernelPixel

end
-- ==== Proof.KernelArray.lean ====
/-
  From the blocks to the array.  Grid point `t` (of 8) stages batch `t` of `x` (window 0) and all of the six
  parameter arrays (windows 1–6, the same whole block at every point), runs the body, and writes the output block
  back as batch `t` of the result (window 7).  The body leaves the residual block of its `x` block (KernelPixel),
  which is batch `t` of the residual block of the whole array; the eight batches cover the result.
-/
import proofs.«160462_j15298673509110_2_alg».proof.Proof.Gen.KernelIdeal.Value
import proofs.«160462_j15298673509110_2_alg».proof.Proof.KernelPixel

set_option maxRecDepth 16384

noncomputable section

namespace Cert.KernelArray

open Cert.KernelIdeal Cert.KernelIdeal.Gen Cert.KernelIdeal.Value Idealize.ShloMosaic Idealize.ShloMosaic.TcCoe Idealize.SL.Sem
open Idealize.ShloMosaic.ValueIdx Cert.Pixel Cert.KernelPixel
open Idealize.ShloMosaic.Pipeline (Dat)

variable (m : (ℓ : Loc nD τ sig) → Buf (Elt Ideal) ℓ) (ρ : Dev nD → PrngReg)

/-- The printed index maps, decided over the eight grid points: window 0 and window 7 take batch `t` (block index
    `t` on axis 0, zero elsewhere), windows 1–6 the one whole block. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_7.index t (0 : Fin 4) = t.val ∧ win0_7.index t (1 : Fin 4) = 0 ∧ win0_7.index t (2 : Fin 4) = 0 ∧ win0_7.index t (3 : Fin 4) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

theorem t_lt (t : Fin cfg0.N) : t.val < 8 := by have := t.isLt; have h8 : cfg0.N = 8 := N_0; omega

/-- The batch a grid point works on. -/
def batch (t : Fin cfg0.N) : Fin 8 := ⟨t.val, t_lt t⟩

/-- The `x` block at point `t` is batch `t` of `x`. -/
theorem xblk_apply (c : Dev nD) (t : Fin cfg0.N) (u : Fin 1) (cj : Fin 32) (h w : Fin 128) :
    iblk m c 0 t (ix4 u cj h w) = V m c main_arg0 (ix4 (batch t) cj h w) := by
  show V m c main_arg0 (((cfg0.win 0).blk t).view.emb (ix4 u cj h w)) = V m c main_arg0 (ix4 (batch t) cj h w)
  obtain ⟨e0, e1, e2, e3, -⟩ := idx_facts t
  have hu : u.val = 0 := by omega
  congr 1; funext a; apply Fin.ext
  match a with
  | ⟨0, _⟩ => show win0_0.index t (0 : Fin 4) * 1 + 1 * u.val = t.val; omega
  | ⟨1, _⟩ => show win0_0.index t (1 : Fin 4) * 32 + 1 * cj.val = cj.val; omega
  | ⟨2, _⟩ => show win0_0.index t (2 : Fin 4) * 128 + 1 * h.val = h.val; omega
  | ⟨3, _⟩ => show win0_0.index t (3 : Fin 4) * 128 + 1 * w.val = w.val; omega

/-- Where the output block's local index `(·, co, h, w)` sits in the result: `(t, co, h, w)`. -/
theorem oblk_emb (t : Fin cfg0.N) (u : Fin 1) (co : Fin 32) (h w : Fin 128) :
    ((cfg0.win 7).blk t).view.emb (ix4 u co h w) = ix4 (batch t) co h w := by
  obtain ⟨-, -, -, -, e0, e1, e2, e3, -⟩ := idx_facts t
  have hu : u.val = 0 := by omega
  funext a; apply Fin.ext
  match a with
  | ⟨0, _⟩ => show win0_7.index t (0 : Fin 4) * 1 + 1 * u.val = t.val; omega
  | ⟨1, _⟩ => show win0_7.index t (1 : Fin 4) * 32 + 1 * co.val = co.val; omega
  | ⟨2, _⟩ => show win0_7.index t (2 : Fin 4) * 128 + 1 * h.val = h.val; omega
  | ⟨3, _⟩ => show win0_7.index t (3 : Fin 4) * 128 + 1 * w.val = w.val; omega

/-- The weight blocks are the whole weight arrays, -/
theorem wblk1 (c : Dev nD) (t : Fin cfg0.N) : iblk m c 1 t = V m c main_arg1 := by
  obtain ⟨-, -, -, -, -, -, -, -, e0, e1, -⟩ := idx_facts t
  funext j
  show V m c main_arg1 (((cfg0.win 1).blk t).view.emb j) = V m c main_arg1 j
  congr 1; funext a; apply Fin.ext
  match a with
  | ⟨0, _⟩ => show win0_1.index t (0 : Fin 2) * 32 + 1 * (j 0).val = (j 0).val; omega
  | ⟨1, _⟩ => show win0_1.index t (1 : Fin 2) * 32 + 1 * (j 1).val = (j 1).val; omega
theorem wblk4 (c : Dev nD) (t : Fin cfg0.N) : iblk m c 4 t = V m c main_arg2 := by
  obtain ⟨-, -, -, -, -, -, -, -, -, -, -, -, -, -, e0, e1, -⟩ := idx_facts t
  funext j
  show V m c main_arg2 (((cfg0.win 4).blk t).view.emb j) = V m c main_arg2 j
  congr 1; funext a; apply Fin.ext
  match a with
  | ⟨0, _⟩ => show win0_4.index t (0 : Fin 2) * 32 + 1 * (j 0).val = (j 0).val; omega
  | ⟨1, _⟩ => show win0_4.index t (1 : Fin 2) * 32 + 1 * (j 1).val = (j 1).val; omega

/-- and the scale and shift blocks the whole `[1, 32]` rows the host computed. -/
theorem pblk2 (c : Dev nD) (t : Fin cfg0.N) : iblk m c 2 t = V m c main_v4 := by
  obtain ⟨-, -, -, -, -, -, -, -, -, -, e0, e1, -⟩ := idx_facts t
  funext j
  show V m c main_v4 (((cfg0.win 2).blk t).view.emb j) = V m c main_v4 j
  congr 1; funext a; apply Fin.ext
  match a with
  | ⟨0, _⟩ => show win0_2.index t (0 : Fin 2) * 1 + 1 * (j 0).val = (j 0).val; omega
  | ⟨1, _⟩ => show win0_2.index t (1 : Fin 2) * 32 + 1 * (j 1).val = (j 1).val; omega
theorem pblk3 (c : Dev nD) (t : Fin cfg0.N) : iblk m c 3 t = V m c main_v8 := by
  obtain ⟨-, -, -, -, -, -, -, -, -, -, -, -, e0, e1, -⟩ := idx_facts t
  funext j
  show V m c main_v8 (((cfg0.win 3).blk t).view.emb j) = V m c main_v8 j
  congr 1; funext a; apply Fin.ext
  match a with
  | ⟨0, _⟩ => show win0_3.index t (0 : Fin 2) * 1 + 1 * (j 0).val = (j 0).val; omega
  | ⟨1, _⟩ => show win0_3.index t (1 : Fin 2) * 32 + 1 * (j 1).val = (j 1).val; omega
theorem pblk5 (c : Dev nD) (t : Fin cfg0.N) : iblk m c 5 t = V m c main_v13 := by
  obtain ⟨-, -, -, -, -, -, -, -, -, -, -, -, -, -, -, -, e0, e1, -⟩ := idx_facts t
  funext j
  show V m c main_v13 (((cfg0.win 5).blk t).view.emb j) = V m c main_v13 j
  congr 1; funext a; apply Fin.ext
  match a with
  | ⟨0, _⟩ => show win0_5.index t (0 : Fin 2) * 1 + 1 * (j 0).val = (j 0).val; omega
  | ⟨1, _⟩ => show win0_5.index t (1 : Fin 2) * 32 + 1 * (j 1).val = (j 1).val; omega
theorem pblk6 (c : Dev nD) (t : Fin cfg0.N) : iblk m c 6 t = V m c main_v17 := by
  obtain ⟨-, -, -, -, -, -, -, -, -, -, -, -, -, -, -, -, -, -, e0, e1⟩ := idx_facts t
  funext j
  show V m c main_v17 (((cfg0.win 6).blk t).view.emb j) = V m c main_v17 j
  congr 1; funext a; apply Fin.ext
  match a with
  | ⟨0, _⟩ => show win0_6.index t (0 : Fin 2) * 1 + 1 * (j 0).val = (j 0).val; omega
  | ⟨1, _⟩ => show win0_6.index t (1 : Fin 2) * 32 + 1 * (j 1).val = (j 1).val; omega

/-- The residual block over the whole array at `(b, co, h, w)` is the block at that pixel of batch `b`. -/
theorem blockArr_ix4 (x : S8x32x128x128.Idx → EReal) (W1 : S32x32.Idx → EReal) (s1 t1 : S1x32.Idx → EReal)
    (W2 : S32x32.Idx → EReal) (s2 t2 : S1x32.Idx → EReal) (b : Fin 8) (co : Fin 32) (h w : Fin 128) :
    blockArr x W1 s1 t1 W2 s2 t2 (ix4 b co h w)
      = stage2 (fun ci => stage1 (fun cj => x (ix4 b cj h w)) W1 s1 t1 ci) W2 s2 t2 (x (ix4 b co h w)) co := rfl

/-- The result the kernel leaves, as one function of the arrays the region finds. -/
abbrev result (c : Dev nD) : S8x32x128x128.Idx → EReal :=
  blockArr (V m c main_arg0) (V m c main_arg1) (V m c main_v4) (V m c main_v8) (V m c main_arg2) (V m c main_v13) (V m c main_v17)

/-- WHAT POINT `t` WRITES BACK is block `t` of the residual block of the arrays the region finds. -/
theorem flushed_eq (c : Dev nD) (t : Fin cfg0.N) :
    (dats m 0 c).flushed 7 t = ((cfg0.win 7).blk t).view.read (Elt Ideal) (result m c) := by
  rw [flushed7_A]
  funext j
  obtain ⟨u, co, h, w, rfl⟩ : ∃ (u : Fin 1) (co : Fin 32) (h w : Fin 128), j = ix4 u co h w := ⟨j 0, j 1, j 2, j 3, eq_ix4 j⟩
  show out0_A_7 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (ms0_7 t) (hs0_7 t) scM0_0 (Memref.isWhole_whole _)
      (iblk m c 0 t) (iblk m c 1 t) (iblk m c 2 t) (iblk m c 3 t) (iblk m c 4 t) (iblk m c 5 t) (iblk m c 6 t) (ix4 u co h w)
    = result m c (((cfg0.win 7).blk t).view.emb (ix4 u co h w))
  rw [out_read, oblk_emb]
  show _ = blockArr (V m c main_arg0) (V m c main_arg1) (V m c main_v4) (V m c main_v8) (V m c main_arg2) (V m c main_v13)
    (V m c main_v17) (ix4 (batch t) co h w)
  rw [blockArr_ix4, wblk1, pblk2, pblk3, wblk4, pblk5, pblk6]
  simp only [xblk_apply]

/-- An index of the result is in point `t`'s block iff each coordinate is in the block's range on its axis. -/
theorem mem_blk (t : Fin cfg0.N) (i : S8x32x128x128.Idx) :
    i ∈ ((cfg0.win 7).blk t).view.set ↔ ∀ a : Fin 4, win0_7.index t a * S1x32x128x128.size a ≤ (i a).val
      ∧ (i a).val < win0_7.index t a * S1x32x128x128.size a + S1x32x128x128.size a := by
  show i ∈ ((View.whole main_v18).slice (win0_7.rect t)).set ↔ _
  rw [View.set_slice_whole, Rect.mem_set_unit]
  exact Iff.rfl

/-- Every index of the result lies in the block of the point of its batch. -/
theorem covered (i : S8x32x128x128.Idx) :
    ∃ t : Fin cfg0.N, (cfg0.win 7).flush t = true ∧ i ∈ ((cfg0.win 7).blk t).view.set := by
  have h8 : cfg0.N = 8 := N_0
  have h0 : (i 0).val < 8 := (i 0).isLt
  have h1 : (i 1).val < 32 := (i 1).isLt
  have h2 : (i 2).val < 128 := (i 2).isLt
  have h3 : (i 3).val < 128 := (i 3).isLt
  refine ⟨⟨(i 0).val, by omega⟩, flush0_7 _, ?_⟩
  rw [mem_blk]
  obtain ⟨-, -, -, -, e0, e1, e2, e3, -⟩ := idx_facts ⟨(i 0).val, by omega⟩
  intro a
  match a with
  | ⟨0, _⟩ =>
    show win0_7.index _ (0 : Fin 4) * 1 ≤ (i 0).val ∧ (i 0).val < win0_7.index _ (0 : Fin 4) * 1 + 1
    rw [e0]; show (i 0).val * 1 ≤ (i 0).val ∧ (i 0).val < (i 0).val * 1 + 1; omega
  | ⟨1, _⟩ =>
    show win0_7.index _ (1 : Fin 4) * 32 ≤ (i 1).val ∧ (i 1).val < win0_7.index _ (1 : Fin 4) * 32 + 32
    rw [e1]; omega
  | ⟨2, _⟩ =>
    show win0_7.index _ (2 : Fin 4) * 128 ≤ (i 2).val ∧ (i 2).val < win0_7.index _ (2 : Fin 4) * 128 + 128
    rw [e2]; omega
  | ⟨3, _⟩ =>
    show win0_7.index _ (3 : Fin 4) * 128 ≤ (i 3).val ∧ (i 3).val < win0_7.index _ (3 : Fin 4) * 128 + 128
    rw [e3]; omega

/-- THE RESULT after the run is the residual block of the arrays the region finds, index by index. -/
theorem final (c : Dev nD) : (dats m 0 c).arrAt 7 cfg0.N = result m c :=
  (dats m 0 c).arrAt_eq_of_cover 7 (result m c) (fun t _ => flushed_eq m c t) covered

/-- The kernel's run, read: the result at its function of the region's arrays, the arguments unchanged. -/
theorem run : θ_run defs (onTc (τ := τ) (main (F := Ideal))) ⟨m, fun _ => 0, ρ⟩ fun r => ∀ c : Dev nD,
      r.2.mem ((c : Thread nD τ).loc main_v18) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨(h c).1.trans (final m c), (h c).2⟩) (run_blocks m ρ)

end Cert.KernelArray

end
-- ==== Proof.RefPixel.lean ====
/-
  The reference at a pixel.  Read one operation at a time, the reference's result at `(b, co, h, w)` is the
  residual block in the UNFOLDED spelling of the batch norm: the 32 channel values of `x` at the pixel go through
  `max((−(0 + Σ|·−W1|) − μ1)·(γ1·inv1) + β1, 0)`, those 32 values through the same with the second set of
  parameters and `x[b, co, h, w]` added before the clamp, `inv = rsqrt(var + ε)`.
-/
import proofs.«160462_j15298673509110_2_alg».proof.Proof.Gen.ReferenceIdeal.Read
import proofs.«160462_j15298673509110_2_alg».proof.Proof.PixelSpec
import Idealize.ShloMosaic.Lib.ValueIdx

noncomputable section

namespace Cert.RefPixel

open Cert.ReferenceIdeal Cert.ReferenceIdeal.Gen Cert.ReferenceIdeal.Read Idealize.ShloMosaic Idealize.ShloMosaic.ValueIdx Cert.Pixel

/-! ## Where each operand is read: the broadcasts composed, at `(b, co, h, w)` and contraction index `k` -/

theorem ix_x (b : Fin 8) (co : Fin 32) (h w : Fin 128) (k : Fin 32) :
    idx_main_v0 (idx_main_v2 (idx_main_v6 (ix4 b co h w) k)) = ix4 b k h w := by
  funext a; match a with | ⟨0, _⟩ => rfl | ⟨1, _⟩ => rfl | ⟨2, _⟩ => rfl | ⟨3, _⟩ => rfl
theorem ix_w (b : Fin 8) (co : Fin 32) (h w : Fin 128) (k : Fin 32) :
    idx_main_v1 (idx_main_v3 (idx_main_v6 (ix4 b co h w) k)) = ix2 co k := by
  funext a; match a with | ⟨0, _⟩ => rfl | ⟨1, _⟩ => rfl
theorem ix_mu (b : Fin 8) (co : Fin 32) (h w : Fin 128) : idx_main_v11 (idx_main_v12 (ix4 b co h w)) = ix1 co := by
  funext a; match a with | ⟨0, _⟩ => rfl
theorem ix_g (b : Fin 8) (co : Fin 32) (h w : Fin 128) : idx_main_v15 (idx_main_v16 (ix4 b co h w)) = ix1 co := by
  funext a; match a with | ⟨0, _⟩ => rfl
theorem ix_b (b : Fin 8) (co : Fin 32) (h w : Fin 128) : idx_main_v18 (idx_main_v19 (ix4 b co h w)) = ix1 co := by
  funext a; match a with | ⟨0, _⟩ => rfl
theorem ix_y (b : Fin 8) (co : Fin 32) (h w : Fin 128) (k : Fin 32) :
    idx_main_v22 (idx_main_v24 (idx_main_v28 (ix4 b co h w) k)) = ix4 b k h w := by
  funext a; match a with | ⟨0, _⟩ => rfl | ⟨1, _⟩ => rfl | ⟨2, _⟩ => rfl | ⟨3, _⟩ => rfl
theorem ix_w2 (b : Fin 8) (co : Fin 32) (h w : Fin 128) (k : Fin 32) :
    idx_main_v23 (idx_main_v25 (idx_main_v28 (ix4 b co h w) k)) = ix2 co k := by
  funext a; match a with | ⟨0, _⟩ => rfl | ⟨1, _⟩ => rfl
theorem ix_mu2 (b : Fin 8) (co : Fin 32) (h w : Fin 128) : idx_main_v33 (idx_main_v34 (ix4 b co h w)) = ix1 co := by
  funext a; match a with | ⟨0, _⟩ => rfl
theorem ix_g2 (b : Fin 8) (co : Fin 32) (h w : Fin 128) : idx_main_v37 (idx_main_v38 (ix4 b co h w)) = ix1 co := by
  funext a; match a with | ⟨0, _⟩ => rfl
theorem ix_b2 (b : Fin 8) (co : Fin 32) (h w : Fin 128) : idx_main_v40 (idx_main_v41 (ix4 b co h w)) = ix1 co := by
  funext a; match a with | ⟨0, _⟩ => rfl

variable (x0 : (⟨S8x32x128x128, .f32⟩ : BufTy).Contents (Elt Ideal)) (x1 x2 : (⟨S32x32, .f32⟩ : BufTy).Contents (Elt Ideal))
  (x3 x4 x5 x6 x7 x8 x9 x10 : (⟨S32, .f32⟩ : BufTy).Contents (Elt Ideal))

/-- `rsqrt(var + ε)` per channel, as the reference computes it. -/
def inv (v : (⟨S32, .f32⟩ : BufTy).Contents (Elt Ideal)) (c : Fin 32) : EReal :=
  Ideal.rsqrt (v (ix1 c) + Ideal.ofBits .f32 0x3727C5AC#32)

/-- The reference's first clamp at `(b, co, h, w)` is the unfolded first stage of the pixel's channel values. -/
theorem ref_stage1 (b : Fin 8) (co : Fin 32) (h w : Fin 128) :
    val_main_v21 (F := Ideal) x0 x1 x3 x4 x5 x6 (ix4 b co h w)
      = ustage1 (fun ci => x0 (ix4 b ci h w)) x1 (fun c => x3 (ix1 c)) (fun c => x4 (ix1 c)) (fun c => x5 (ix1 c))
          (inv x6) co := by
  rw [val_main_v21_apply, val_main_v20_apply, val_main_v17_apply, val_main_v13_apply, val_main_v7_apply, val_main_v6_apply]
  simp only [val_main_v5_apply, val_main_v4_apply, val_main_v2_apply, val_main_v0_apply, val_main_v3_apply, val_main_v1_apply,
    val_main_v12_apply, val_main_v11_apply, val_main_v16_apply, val_main_v15_apply, val_main_v14_apply, val_main_v10_apply,
    val_main_v9_apply, val_main_v8_apply, val_main_cst_0_apply, val_main_v19_apply, val_main_v18_apply,
    val_main_call0_v0_apply, val_main_call0_cst_apply, val_main_cst_apply,
    ix_x, ix_w, ix_mu, ix_g, ix_b]
  simp only [Ideal.ofBits_def, Ideal.ofBits_zero_f32]
  rfl

/-- The reference's result at `(b, co, h, w)` is the unfolded second stage of the 32 first-stage values at the pixel,
    residual `x[b, co, h, w]`. -/
theorem ref_block (b : Fin 8) (co : Fin 32) (h w : Fin 128) :
    val_main_v44 (F := Ideal) x0 x1 x2 x3 x4 x5 x6 x7 x8 x9 x10 (ix4 b co h w)
      = ustage2 (fun ci => ustage1 (fun cj => x0 (ix4 b cj h w)) x1 (fun c => x3 (ix1 c)) (fun c => x4 (ix1 c))
            (fun c => x5 (ix1 c)) (inv x6) ci)
          x2 (fun c => x7 (ix1 c)) (fun c => x8 (ix1 c)) (fun c => x9 (ix1 c)) (inv x10) (x0 (ix4 b co h w)) co := by
  rw [val_main_v44_apply, val_main_v43_apply, val_main_v42_apply, val_main_v39_apply, val_main_v35_apply, val_main_v29_apply,
    val_main_v28_apply]
  simp only [val_main_v27_apply, val_main_v26_apply, val_main_v24_apply, val_main_v22_apply, val_main_v25_apply, val_main_v23_apply,
    val_main_v34_apply, val_main_v33_apply, val_main_v38_apply, val_main_v37_apply, val_main_v36_apply, val_main_v32_apply,
    val_main_v31_apply, val_main_v30_apply, val_main_cst_2_apply, val_main_v41_apply, val_main_v40_apply,
    val_main_call1_v0_apply, val_main_call1_cst_apply, val_main_cst_1_apply,
    ix_y, ix_w2, ix_mu2, ix_g2, ix_b2, ref_stage1]
  simp only [Ideal.ofBits_def, Ideal.ofBits_zero_f32]
  rfl

end Cert.RefPixel

end
-- ==== Proof.FiniteInputs.lean ====
/-
  What the precondition says of the inputs, index by index: every entry of every input is a real number (its
  absolute value lies below `+∞`), and every entry of the two variance vectors is nonnegative.
-/
import proofs.«160462_j15298673509110_2_alg».proof.Pre_finite_inputs
import Idealize.ShloMosaic.Lib.ReduceAll
import Idealize.ShloMosaic.PureOps.Ideal
import proofs.«160462_j15298673509110_2_alg».proof.Proof.PixelSpec

noncomputable section

namespace Cert.FiniteInputs

open Cert.Pre_finite_inputs Idealize.ShloMosaic Idealize.ShloMosaic.ValueIdx Cert.Pixel

variable [Cert.Pre_finite_inputs.Facts]
open Cert.Pre_finite_inputs.Facts

/-- The rank-zero shape has one index. -/
instance : Subsingleton S_.Idx := ⟨fun a b => funext fun d => d.elim0⟩

/-- An extended real whose absolute value is below the pattern of `+∞` is a real number. -/
theorem isReal_of_abs_lt (x : EReal)
    (h : Ideal.cmp .olt (max x (-x)) (Ideal.ofBits .f32 0x7F800000#32) = 1#1) : IsReal x := by
  have hinf : Ideal.ofBits .f32 0x7F800000#32 = ⊤ := by simp [Ideal.ofBits, Ideal.ieee]
  rw [hinf] at h
  have hlt : max x (-x) < ⊤ := by
    by_contra hn
    simp [Ideal.cmp, hn] at h
  induction x using EReal.rec with
  | bot => simp at hlt
  | coe r => exact ⟨r, rfl⟩
  | top => simp at hlt

/-- An extended real that the comparison finds at or above the pattern of zero is nonnegative. -/
theorem nonneg_of_ge (x : EReal) (h : Ideal.cmp .oge x (Ideal.ofBits .f32 0x00000000#32) = 1#1) : 0 ≤ x := by
  have hz : Ideal.ofBits .f32 0x00000000#32 = 0 := by simp [Ideal.ofBits, Ideal.ieee]
  rw [hz] at h
  by_contra hn
  simp [Ideal.cmp, hn] at h

/-- A nonnegative real-valued extended real is the image of a nonnegative real. -/
theorem nonneg_real {x : EReal} (hr : IsReal x) (h0 : 0 ≤ x) : ∃ r : ℝ, 0 ≤ r ∧ x = (r : EReal) := by
  obtain ⟨r, rfl⟩ := hr
  exact ⟨r, EReal.coe_nonneg.1 h0, rfl⟩

/-- The precondition, read back. -/
theorem decode (a0 : FVec Ideal S8x32x128x128 .f32) (a1 a2 : FVec Ideal S32x32 .f32)
    (a3 a4 a5 a6 a7 a8 a9 a10 : FVec Ideal S32 .f32)
    (h : fn (F := Ideal) a0 a1 a2 a3 a4 a5 a6 a7 a8 a9 a10 = fun _ => 1#1) :
    (∀ j, IsReal (a0 j)) ∧ (∀ j, IsReal (a1 j)) ∧ (∀ j, IsReal (a2 j)) ∧ (∀ j, IsReal (a3 j)) ∧ (∀ j, IsReal (a4 j))
      ∧ (∀ j, IsReal (a5 j)) ∧ (∀ j, IsReal (a6 j)) ∧ (∀ j, IsReal (a7 j)) ∧ (∀ j, IsReal (a8 j)) ∧ (∀ j, IsReal (a9 j))
      ∧ (∀ j, IsReal (a10 j)) ∧ (∀ j, 0 ≤ a6 j) ∧ (∀ j, 0 ≤ a10 j) := by
  have h0 := congrFun h ix0
  dsimp only [fn, fn_part1, fn_part2, fn_part3] at h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨fun j => isReal_of_abs_lt _ (Host.reduce_andi_all _ _ _ _ ix0 e0 j),
    fun j => isReal_of_abs_lt _ (Host.reduce_andi_all _ _ _ _ ix0 e1 j),
    fun j => isReal_of_abs_lt _ (Host.reduce_andi_all _ _ _ _ ix0 e2 j),
    fun j => isReal_of_abs_lt _ (Host.reduce_andi_all _ _ _ _ ix0 e3 j),
    fun j => isReal_of_abs_lt _ (Host.reduce_andi_all _ _ _ _ ix0 e4 j),
    fun j => isReal_of_abs_lt _ (Host.reduce_andi_all _ _ _ _ ix0 e5 j),
    fun j => isReal_of_abs_lt _ (Host.reduce_andi_all _ _ _ _ ix0 e6 j),
    fun j => isReal_of_abs_lt _ (Host.reduce_andi_all _ _ _ _ ix0 e7 j),
    fun j => isReal_of_abs_lt _ (Host.reduce_andi_all _ _ _ _ ix0 e8 j),
    fun j => isReal_of_abs_lt _ (Host.reduce_andi_all _ _ _ _ ix0 e9 j),
    fun j => isReal_of_abs_lt _ (Host.reduce_andi_all _ _ _ _ ix0 e10 j),
    fun j => nonneg_of_ge _ (Host.reduce_andi_all _ _ _ _ ix0 e11 j),
    fun j => nonneg_of_ge _ (Host.reduce_andi_all _ _ _ _ ix0 e12 j)⟩

end Cert.FiniteInputs

end
-- ==== Proof.HostParams.lean ====
/-
  The four per-channel rows the host computes before the kernel is launched, read at a channel: the scale
  `γ · rsqrt(var + ε)` and the shift `β − (μ · γ) · rsqrt(var + ε)` of each batch norm, reshaped from `[32]` to `[1, 32]`.
-/
import proofs.«160462_j15298673509110_2_alg».proof.Proof.Gen.KernelIdeal.Value
import Idealize.ShloMosaic.PureOps.Ideal
import Idealize.ShloMosaic.Lib.StableHlo.Run
import Idealize.ShloMosaic.Lib.ValueIdx
import Idealize.ShloMosaic.Lib.ValueLayout

noncomputable section

namespace Cert.HostParams

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-! The argument arrays on core `c`, as functions of their indices into the extended reals. -/
abbrev X (c : Dev nD) : S8x32x128x128.Idx → EReal := m ((c : Thread nD τ).loc main_arg0)
abbrev W1 (c : Dev nD) : S32x32.Idx → EReal := m ((c : Thread nD τ).loc main_arg1)
abbrev W2 (c : Dev nD) : S32x32.Idx → EReal := m ((c : Thread nD τ).loc main_arg2)
abbrev gamma1 (c : Dev nD) : S32.Idx → EReal := m ((c : Thread nD τ).loc main_arg3)
abbrev beta1 (c : Dev nD) : S32.Idx → EReal := m ((c : Thread nD τ).loc main_arg4)
abbrev mean1 (c : Dev nD) : S32.Idx → EReal := m ((c : Thread nD τ).loc main_arg5)
abbrev var1 (c : Dev nD) : S32.Idx → EReal := m ((c : Thread nD τ).loc main_arg6)
abbrev gamma2 (c : Dev nD) : S32.Idx → EReal := m ((c : Thread nD τ).loc main_arg7)
abbrev beta2 (c : Dev nD) : S32.Idx → EReal := m ((c : Thread nD τ).loc main_arg8)
abbrev mean2 (c : Dev nD) : S32.Idx → EReal := m ((c : Thread nD τ).loc main_arg9)
abbrev var2 (c : Dev nD) : S32.Idx → EReal := m ((c : Thread nD τ).loc main_arg10)

/-- `rsqrt(var + ε)` at a channel, `ε` the pattern `0x3727C5AC`. -/
def inv (v : S32.Idx → EReal) (co : Fin 32) : EReal := Ideal.rsqrt (v (ix1 co) + Ideal.ofBits .f32 0x3727C5AC#32)

set_option maxHeartbeats 4000000 in
/-- The first scale row at channel `co` is `γ1[co] · rsqrt(var1[co] + ε)`. -/
theorem scale1 (c : Dev nD) (co : Fin 32) :
    V m c main_v4 (ix2 (0 : Fin 1) co)
      = gamma1 m c (ix1 co) * inv (var1 m c) co := by
  have e : (V m c main_v4 : S1x32.Idx → EReal) = shapeCast S1x32 (mulf (m ((c : Thread nD τ).loc main_arg3))
      (Host.rsqrt (addf (m ((c : Thread nD τ).loc main_arg6))
        (broadcastInDim S32 ![] bcast_S_S32 (constant (F := Ideal) S_ .f32 0x3727C5AC#32))))) shapeCasts_S32_S1x32 := by
    dsimp only [Gen.V, Gen.hostOps0]; after_results; rfl
  rw [e, shapeCast_a_1a_apply]; rfl

set_option maxHeartbeats 4000000 in
/-- The first shift row at channel `co` is `β1[co] − (μ1[co] · γ1[co]) · rsqrt(var1[co] + ε)`. -/
theorem shift1 (c : Dev nD) (co : Fin 32) :
    V m c main_v8 (ix2 (0 : Fin 1) co)
      = beta1 m c (ix1 co) - (mean1 m c (ix1 co) * gamma1 m c (ix1 co)) * inv (var1 m c) co := by
  have e : (V m c main_v8 : S1x32.Idx → EReal) = shapeCast S1x32 (subf (m ((c : Thread nD τ).loc main_arg4))
      (mulf (mulf (m ((c : Thread nD τ).loc main_arg5)) (m ((c : Thread nD τ).loc main_arg3)))
        (Host.rsqrt (addf (m ((c : Thread nD τ).loc main_arg6))
          (broadcastInDim S32 ![] bcast_S_S32 (constant (F := Ideal) S_ .f32 0x3727C5AC#32)))))) shapeCasts_S32_S1x32 := by
    dsimp only [Gen.V, Gen.hostOps0]; after_results; rfl
  rw [e, shapeCast_a_1a_apply]; rfl

set_option maxHeartbeats 4000000 in
/-- The second scale row at channel `co` is `γ2[co] · rsqrt(var2[co] + ε)`. -/
theorem scale2 (c : Dev nD) (co : Fin 32) :
    V m c main_v13 (ix2 (0 : Fin 1) co)
      = gamma2 m c (ix1 co) * inv (var2 m c) co := by
  have e : (V m c main_v13 : S1x32.Idx → EReal) = shapeCast S1x32 (mulf (m ((c : Thread nD τ).loc main_arg7))
      (Host.rsqrt (addf (m ((c : Thread nD τ).loc main_arg10))
        (broadcastInDim S32 ![] bcast_S_S32 (constant (F := Ideal) S_ .f32 0x3727C5AC#32))))) shapeCasts_S32_S1x32 := by
    dsimp only [Gen.V, Gen.hostOps0]; after_results; rfl
  rw [e, shapeCast_a_1a_apply]; rfl

set_option maxHeartbeats 4000000 in
/-- The second shift row at channel `co` is `β2[co] − (μ2[co] · γ2[co]) · rsqrt(var2[co] + ε)`. -/
theorem shift2 (c : Dev nD) (co : Fin 32) :
    V m c main_v17 (ix2 (0 : Fin 1) co)
      = beta2 m c (ix1 co) - (mean2 m c (ix1 co) * gamma2 m c (ix1 co)) * inv (var2 m c) co := by
  have e : (V m c main_v17 : S1x32.Idx → EReal) = shapeCast S1x32 (subf (m ((c : Thread nD τ).loc main_arg8))
      (mulf (mulf (m ((c : Thread nD τ).loc main_arg9)) (m ((c : Thread nD τ).loc main_arg7)))
        (Host.rsqrt (addf (m ((c : Thread nD τ).loc main_arg10))
          (broadcastInDim S32 ![] bcast_S_S32 (constant (F := Ideal) S_ .f32 0x3727C5AC#32)))))) shapeCasts_S32_S1x32 := by
    dsimp only [Gen.V, Gen.hostOps0]; after_results; rfl
  rw [e, shapeCast_a_1a_apply]; rfl

end Cert.HostParams

end
-- ==== Proof.Eps.lean ====
/-
  The one float literal of the block that is not zero: the batch-norm epsilon `f32(1e-5)`, as the real number its
  bit pattern denotes, `10995116 · 2⁻⁴⁰`; all that is used of it is that it is a positive real.
-/
import Idealize.ShloMosaic.PureOps.Ideal
import Idealize.ShloMosaic.PureOps.Ideal.Laws

noncomputable section

namespace Cert.Eps

open Idealize.ShloMosaic

/-- The pattern `0x3727C5AC` (sign 0, exponent 110, fraction `0x27C5AC`) denotes `(2²³ + 2606508) · 2^(110 − 127 − 23)`. -/
theorem ofBits_eps : Ideal.ofBits .f32 0x3727C5AC#32 = (((10995116 : ℝ) * (2 : ℝ) ^ (-40 : ℤ) : ℝ) : EReal) := by
  simp [Ideal.ofBits, Ideal.ieee, -EReal.coe_mul]

/-- … a positive real number. -/
theorem eps_pos : ∃ e : ℝ, 0 < e ∧ Ideal.ofBits .f32 0x3727C5AC#32 = (e : EReal) :=
  ⟨_, by positivity, ofBits_eps⟩

end Cert.Eps

end
-- ==== Proof.Bridge.lean ====
/-
  The bridge: under the precondition the reference's result and the kernel's result are one array.

  At an index `(b, co, h, w)` the reference computes the residual block at the pixel in the UNFOLDED spelling of the
  batch norms (RefPixel), the kernel in the FOLDED spelling with the host's scale and shift rows (KernelArray,
  HostParams).  The precondition makes every input a real number and both variances nonnegative, so
  `rsqrt(var + ε)` is a real number (`ε > 0`), and on real numbers the two spellings agree (PixelSpec's
  `affine_fold`): first for the 32 first-stage values, then, those being real, for the second stage.
-/
import proofs.«160462_j15298673509110_2_alg».proof.Proof.KernelArray
import proofs.«160462_j15298673509110_2_alg».proof.Proof.RefPixel
import proofs.«160462_j15298673509110_2_alg».proof.Proof.FiniteInputs
import proofs.«160462_j15298673509110_2_alg».proof.Proof.HostParams
import proofs.«160462_j15298673509110_2_alg».proof.Proof.Eps
import proofs.«160462_j15298673509110_2_alg».proof.Proof.PixelSpec
import proofs.«160462_j15298673509110_2_alg».proof.Proof.Gen.Pre_finite_inputs

noncomputable section

namespace Cert.Bridge

open Cert.KernelIdeal Cert.KernelIdeal.Gen Idealize.ShloMosaic Idealize.ShloMosaic.TcCoe Idealize.SL.Sem
open Idealize.ShloMosaic.ValueIdx Cert.Pixel Cert.HostParams

variable (m : (ℓ : Loc nD τ sig) → Buf (Elt Ideal) ℓ)

/-- The host's scale row is real when the weights are and `rsqrt(var + ε)` is. -/
theorem real_scale1 (c : Dev nD) (hg : ∀ j, IsReal (gamma1 m c j)) (hi : ∀ k, IsReal (HostParams.inv (var1 m c) k)) :
    ∀ j, IsReal (V m c main_v4 j) := fun j => by
  obtain ⟨u, k, rfl⟩ : ∃ (u : Fin 1) (k : Fin 32), j = ix2 u k := ⟨j 0, j 1, eq_ix2 j⟩
  obtain rfl : u = 0 := Subsingleton.elim _ _
  rw [scale1]; exact (hg _).mul (hi _)

/-- The host's shift row likewise. -/
theorem real_shift1 (c : Dev nD) (hg : ∀ j, IsReal (gamma1 m c j)) (hb : ∀ j, IsReal (beta1 m c j))
    (hmu : ∀ j, IsReal (mean1 m c j)) (hi : ∀ k, IsReal (HostParams.inv (var1 m c) k)) :
    ∀ j, IsReal (V m c main_v8 j) := fun j => by
  obtain ⟨u, k, rfl⟩ : ∃ (u : Fin 1) (k : Fin 32), j = ix2 u k := ⟨j 0, j 1, eq_ix2 j⟩
  obtain rfl : u = 0 := Subsingleton.elim _ _
  rw [shift1]; exact (hb _).sub (((hmu _).mul (hg _)).mul (hi _))

/-- Under the precondition the reference's result, as a function of the kernel's argument arrays, is the kernel's. -/
theorem result_eq (c : Dev nD)
    (hpre : Cert.Pre_finite_inputs.fn (F := Ideal) (X m c) (W1 m c) (W2 m c) (gamma1 m c) (beta1 m c) (mean1 m c) (var1 m c)
      (gamma2 m c) (beta2 m c) (mean2 m c) (var2 m c) = fun _ => 1#1) :
    Cert.ReferenceIdeal.Read.val_main_v44 (F := Ideal) (X m c) (W1 m c) (W2 m c) (gamma1 m c) (beta1 m c) (mean1 m c)
        (var1 m c) (gamma2 m c) (beta2 m c) (mean2 m c) (var2 m c)
      = Cert.KernelArray.result m c := by
  obtain ⟨r0, r1, r2, r3, r4, r5, r6, r7, r8, r9, r10, p6, p10⟩ := Cert.FiniteInputs.decode _ _ _ _ _ _ _ _ _ _ _ hpre
  have hi1 : ∀ k, IsReal (HostParams.inv (var1 m c) k) := fun k =>
    isReal_rsqrt_add (Cert.FiniteInputs.nonneg_real (r6 _) (p6 _)) Cert.Eps.eps_pos
  have hi2 : ∀ k, IsReal (HostParams.inv (var2 m c) k) := fun k =>
    isReal_rsqrt_add (Cert.FiniteInputs.nonneg_real (r10 _) (p10 _)) Cert.Eps.eps_pos
  funext i
  obtain ⟨b, co, h, w, rfl⟩ : ∃ (b : Fin 8) (co : Fin 32) (h w : Fin 128), i = ix4 b co h w := ⟨i 0, i 1, i 2, i 3, eq_ix4 i⟩
  rw [Cert.RefPixel.ref_block]
  show _ = blockArr (V m c main_arg0) (V m c main_arg1) (V m c main_v4) (V m c main_v8) (V m c main_arg2) (V m c main_v13)
    (V m c main_v17) (ix4 b co h w)
  rw [Cert.KernelArray.blockArr_ix4, V_main_arg0, V_main_arg1, V_main_arg2]
  have e1 : ∀ ci, ustage1 (fun cj => X m c (ix4 b cj h w)) (W1 m c) (fun k => gamma1 m c (ix1 k)) (fun k => beta1 m c (ix1 k))
        (fun k => mean1 m c (ix1 k)) (Cert.RefPixel.inv (var1 m c)) ci
      = stage1 (fun cj => X m c (ix4 b cj h w)) (W1 m c) (V m c main_v4) (V m c main_v8) ci := fun ci =>
    ustage1_eq (fun k => r0 _) (fun j => r1 j) (fun k => r3 _) (fun k => r4 _) (fun k => r5 _) hi1
      (fun co => scale1 m c co) (fun co => shift1 m c co) ci
  have hY : ∀ k, IsReal (stage1 (fun cj => X m c (ix4 b cj h w)) (W1 m c) (V m c main_v4) (V m c main_v8) k) := fun k =>
    isReal_stage1 (fun k => r0 _) (fun j => r1 j) (real_scale1 m c r3 hi1) (real_shift1 m c r3 r4 r5 hi1) k
  simp only [e1]
  exact ustage2_eq _ hY (fun j => r2 j) (fun k => r7 _) (fun k => r8 _) (fun k => r9 _) hi2
    (fun co => scale2 m c co) (fun co => shift2 m c co) co

end Cert.Bridge

end
-- ==== Proof.lean ====
/-
  The certificate of the residual block: an L1-distance ("adder") 1×1 convolution, a batch norm and a clamp at zero, twice,
  with the input added back before the second clamp, over `x : f32[8, 32, 128, 128]`.

  The kernel runs one batch per grid point.  Its body spells each of the 2 × 32 L1 sums out term by term and applies each
  batch norm FOLDED into one scale and one shift per channel, which the host computes beforehand as
  `γ · rsqrt(var + ε)` and `β − (μ · γ) · rsqrt(var + ε)`; the reference applies the batch norm unfolded,
  `(y − μ) · (γ · rsqrt(var + ε)) + β`.  On the extended reals the two agree exactly when `rsqrt(var + ε)` is a real
  number — distributivity fails at an infinite factor — which is why the precondition, besides the finiteness of every
  input, asks both variances to be nonnegative (`ε > 0`).  Under it every intermediate value is a real number and the
  two programs compute the same function of the arguments, index by index.

  The modules: PixelSpec (the block at a pixel, the law joining the two spellings), LaneReads (how the body picks its
  operands), KernelPixel (the body's two rounds of stores at a pixel), KernelArray (from the eight blocks to the array),
  HostParams (the host's scale and shift rows), RefPixel (the reference at a pixel), FiniteInputs (the precondition read
  back), Eps (the one nonzero literal), Bridge (the two results are one array).  The three frames are the generated runs;
  the idealization rewrote nothing, so `preserves` is `True`.
-/
import proofs.«160462_j15298673509110_2_alg».proof.Defs
import proofs.«160462_j15298673509110_2_alg».proof.Proof.Gen.Kernel
import proofs.«160462_j15298673509110_2_alg».proof.Proof.Gen.Kernel.Skeleton
import proofs.«160462_j15298673509110_2_alg».proof.Proof.Gen.Kernel.Launch
import proofs.«160462_j15298673509110_2_alg».proof.Proof.Gen.Kernel.Points
import proofs.«160462_j15298673509110_2_alg».proof.Proof.Gen.Kernel.Frame
import proofs.«160462_j15298673509110_2_alg».proof.Proof.Gen.KernelIdeal
import proofs.«160462_j15298673509110_2_alg».proof.Proof.Gen.KernelIdeal.Skeleton
import proofs.«160462_j15298673509110_2_alg».proof.Proof.Gen.KernelIdeal.Launch
import proofs.«160462_j15298673509110_2_alg».proof.Proof.Gen.KernelIdeal.Points
import proofs.«160462_j15298673509110_2_alg».proof.Proof.Gen.KernelIdeal.Frame
import proofs.«160462_j15298673509110_2_alg».proof.Proof.Gen.ReferenceIdeal
import proofs.«160462_j15298673509110_2_alg».proof.Proof.Gen.Pre_finite_inputs
import proofs.«160462_j15298673509110_2_alg».proof.Proof.Gen.KernelIdeal.Value
import proofs.«160462_j15298673509110_2_alg».proof.Proof.Gen.ReferenceIdeal.Run
import proofs.«160462_j15298673509110_2_alg».proof.Proof.Gen.ReferenceIdeal.Read
import proofs.«160462_j15298673509110_2_alg».proof.Proof.Bridge
import Idealize.ShloMosaic.Adequacy
import Idealize.ShloMosaic.Init

noncomputable section

namespace Cert.Proof

open Idealize.ShloMosaic Idealize.SL.Sem

/-- The word-level kernel runs and leaves its arguments as they were: the generated frame. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is a straight line of host operations: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealized kernel's result is the residual block of its arguments (KernelArray), the reference's is its composed
    term of arguments that agree with the kernel's; under the precondition the two are one array (Bridge). -/
theorem algebraic : Cert.algebraic_KernelIdeal_ReferenceIdeal := by
  intro m ρ m' ρ' hpre hagree
  refine ⟨fun c => Cert.KernelArray.result m c, Cert.KernelArray.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10⟩ := hagree c
  rw [Cert.ReferenceIdeal.Read.val_main_v44_eq, a0, a1, a2, a3, a4, a5, a6, a7, a8, a9, a10]
  exact Cert.Bridge.result_eq m c (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
